-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v299)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v299) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v301) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x3x16x224x224 : Shape := ⟨5, ![16, 3, 16, 224, 224]⟩
abbrev S3x3x60x224 : Shape := ⟨4, ![3, 3, 60, 224]⟩
abbrev S3x3x30x224 : Shape := ⟨4, ![3, 3, 30, 224]⟩
abbrev S3x3x164x60 : Shape := ⟨4, ![3, 3, 164, 60]⟩
abbrev S3x3x164x30 : Shape := ⟨4, ![3, 3, 164, 30]⟩
abbrev S16 : Shape := ⟨1, ![16]⟩
abbrev S_ : Shape := ⟨0, ![]⟩

class Facts : Prop where
  bcast_S_S16x3x16x224x224 : S_.BroadcastsInDim S16x3x16x224x224 (![] : Fin 0 → Fin S16x3x16x224x224.rank)
  reducesTo_S16x3x16x224x224_S_d0_1_2_3_4 : S16x3x16x224x224.ReducesTo [0, 1, 2, 3, 4] S_
  h_S_ : 0 < S_.numel
  bcast_S_S3x3x60x224 : S_.BroadcastsInDim S3x3x60x224 (![] : Fin 0 → Fin S3x3x60x224.rank)
  reducesTo_S3x3x60x224_S_d0_1_2_3 : S3x3x60x224.ReducesTo [0, 1, 2, 3] S_
  bcast_S_S3x3x30x224 : S_.BroadcastsInDim S3x3x30x224 (![] : Fin 0 → Fin S3x3x30x224.rank)
  reducesTo_S3x3x30x224_S_d0_1_2_3 : S3x3x30x224.ReducesTo [0, 1, 2, 3] S_
  bcast_S_S3x3x164x60 : S_.BroadcastsInDim S3x3x164x60 (![] : Fin 0 → Fin S3x3x164x60.rank)
  reducesTo_S3x3x164x60_S_d0_1_2_3 : S3x3x164x60.ReducesTo [0, 1, 2, 3] S_
  bcast_S_S3x3x164x30 : S_.BroadcastsInDim S3x3x164x30 (![] : Fin 0 → Fin S3x3x164x30.rank)
  reducesTo_S3x3x164x30_S_d0_1_2_3 : S3x3x164x30.ReducesTo [0, 1, 2, 3] S_

variable [Facts]

def fn_part1 {F : FTy → Type} [FloatOps F] (main_arg4 : FVec F S3x3x164x30 .f32) (main_v13 : IVec S_ 1) (main_v16 : IVec S3x3x164x60 1) : IVec S_ 1 :=
  let main_c_5 : IVec S_ 1 := constantI S_ 1 1#1
  let main_v17 : IVec S_ 1 := (fun x v => Host.reduce IntOp.andi x v reducesTo_S3x3x164x60_S_d0_1_2_3 h_S_) main_v16 main_c_5
  let main_v18 : IVec S_ 1 := andi main_v13 main_v17
  let main_v19 : FVec F S3x3x164x30 .f32 := Host.absf main_arg4
  let main_cst_6 : FVec F S_ .f32 := constant S_ .f32 0x7F800000#32
  let main_v20 : FVec F S3x3x164x30 .f32 := broadcastInDim S3x3x164x30 ![] bcast_S_S3x3x164x30 main_cst_6
  let main_v21 : IVec S3x3x164x30 1 := cmpf .olt main_v19 main_v20
  let main_c_7 : IVec S_ 1 := constantI S_ 1 1#1
  let main_v22 : IVec S_ 1 := (fun x v => Host.reduce IntOp.andi x v reducesTo_S3x3x164x30_S_d0_1_2_3 h_S_) main_v21 main_c_7
  let main_v23 : IVec S_ 1 := andi main_v18 main_v22
  main_v23

def fn {F : FTy → Type} [FloatOps F] (main_arg0 : FVec F S16x3x16x224x224 .f32) (main_arg1 : FVec F S3x3x60x224 .f32) (main_arg2 : FVec F S3x3x30x224 .f32) (main_arg3 : FVec F S3x3x164x60 .f32) (main_arg4 : FVec F S3x3x164x30 .f32) (main_arg5 : IVec S16 32) (main_arg6 : IVec S16 32) (main_arg7 : IVec S16 32) : IVec S_ 1 :=
  let main_v0 : FVec F S16x3x16x224x224 .f32 := Host.absf main_arg0
  let main_cst : FVec F S_ .f32 := constant S_ .f32 0x7F800000#32
  let main_v1 : FVec F S16x3x16x224x224 .f32 := broadcastInDim S16x3x16x224x224 ![] bcast_S_S16x3x16x224x224 main_cst
  let main_v2 : IVec S16x3x16x224x224 1 := cmpf .olt main_v0 main_v1
  let main_c : IVec S_ 1 := constantI S_ 1 1#1
  let main_v3 : IVec S_ 1 := (fun x v => Host.reduce IntOp.andi x v reducesTo_S16x3x16x224x224_S_d0_1_2_3_4 h_S_) main_v2 main_c
  let main_v4 : FVec F S3x3x60x224 .f32 := Host.absf main_arg1
  let main_cst_0 : FVec F S_ .f32 := constant S_ .f32 0x7F800000#32
  let main_v5 : FVec F S3x3x60x224 .f32 := broadcastInDim S3x3x60x224 ![] bcast_S_S3x3x60x224 main_cst_0
  let main_v6 : IVec S3x3x60x224 1 := cmpf .olt main_v4 main_v5
  let main_c_1 : IVec S_ 1 := constantI S_ 1 1#1
  let main_v7 : IVec S_ 1 := (fun x v => Host.reduce IntOp.andi x v reducesTo_S3x3x60x224_S_d0_1_2_3 h_S_) main_v6 main_c_1
  let main_v8 : IVec S_ 1 := andi main_v3 main_v7
  let main_v9 : FVec F S3x3x30x224 .f32 := Host.absf main_arg2
  let main_cst_2 : FVec F S_ .f32 := constant S_ .f32 0x7F800000#32
  let main_v10 : FVec F S3x3x30x224 .f32 := broadcastInDim S3x3x30x224 ![] bcast_S_S3x3x30x224 main_cst_2
  let main_v11 : IVec S3x3x30x224 1 := cmpf .olt main_v9 main_v10
  let main_c_3 : IVec S_ 1 := constantI S_ 1 1#1
  let main_v12 : IVec S_ 1 := (fun x v => Host.reduce IntOp.andi x v reducesTo_S3x3x30x224_S_d0_1_2_3 h_S_) main_v11 main_c_3
  let main_v13 : IVec S_ 1 := andi main_v8 main_v12
  let main_v14 : FVec F S3x3x164x60 .f32 := Host.absf main_arg3
  let main_cst_4 : FVec F S_ .f32 := constant S_ .f32 0x7F800000#32
  let main_v15 : FVec F S3x3x164x60 .f32 := broadcastInDim S3x3x164x60 ![] bcast_S_S3x3x164x60 main_cst_4
  let main_v16 : IVec S3x3x164x60 1 := cmpf .olt main_v14 main_v15
  fn_part1 (F := F) main_arg4 main_v13 main_v16
-- ==== Kernel.lean ====
abbrev S16x3x16x224x224 : Shape := ⟨5, ![16, 3, 16, 224, 224]⟩
abbrev S3x3x60x224 : Shape := ⟨4, ![3, 3, 60, 224]⟩
abbrev S3x3x30x224 : Shape := ⟨4, ![3, 3, 30, 224]⟩
abbrev S3x3x164x60 : Shape := ⟨4, ![3, 3, 164, 60]⟩
abbrev S3x3x164x30 : Shape := ⟨4, ![3, 3, 164, 30]⟩
abbrev S16 : Shape := ⟨1, ![16]⟩
abbrev S_ : Shape := ⟨0, ![]⟩
abbrev S16x1 : Shape := ⟨2, ![16, 1]⟩
abbrev S16x4 : Shape := ⟨2, ![16, 4]⟩
abbrev S16x1x3x60x224 : Shape := ⟨5, ![16, 1, 3, 60, 224]⟩
abbrev S16x3x60x224 : Shape := ⟨4, ![16, 3, 60, 224]⟩
abbrev S16x1x3x30x224 : Shape := ⟨5, ![16, 1, 3, 30, 224]⟩
abbrev S16x3x30x224 : Shape := ⟨4, ![16, 3, 30, 224]⟩
abbrev S16x1x3x164x60 : Shape := ⟨5, ![16, 1, 3, 164, 60]⟩
abbrev S16x3x164x60 : Shape := ⟨4, ![16, 3, 164, 60]⟩
abbrev S16x1x3x164x30 : Shape := ⟨5, ![16, 1, 3, 164, 30]⟩
abbrev S16x3x164x30 : Shape := ⟨4, ![16, 3, 164, 30]⟩
abbrev S224 : Shape := ⟨1, ![224]⟩
abbrev S16x3x164x90 : Shape := ⟨4, ![16, 3, 164, 90]⟩
abbrev S1x224 : Shape := ⟨2, ![1, 224]⟩
abbrev S16x224 : Shape := ⟨2, ![16, 224]⟩
abbrev S16x224x1 : Shape := ⟨3, ![16, 224, 1]⟩
abbrev S16x3x164x224 : Shape := ⟨4, ![16, 3, 164, 224]⟩
abbrev S16x1x1x224 : Shape := ⟨4, ![16, 1, 1, 224]⟩
abbrev S3x164x224 : Shape := ⟨3, ![3, 164, 224]⟩
abbrev S16x3x254x224 : Shape := ⟨4, ![16, 3, 254, 224]⟩
abbrev S16x3x224x224 : Shape := ⟨4, ![16, 3, 224, 224]⟩
abbrev S16x1x224x1 : Shape := ⟨4, ![16, 1, 224, 1]⟩
abbrev S1x1x16x224x224 : Shape := ⟨5, ![1, 1, 16, 224, 224]⟩
abbrev S1x1x224x224 : Shape := ⟨4, ![1, 1, 224, 224]⟩
abbrev S16x224x224 : Shape := ⟨3, ![16, 224, 224]⟩
abbrev S224x224 : Shape := ⟨2, ![224, 224]⟩
abbrev S1x224x224 : Shape := ⟨3, ![1, 224, 224]⟩

abbrev nBuf : Space → Nat
  | .hbm => 434
  | .vmem => 6
  | .smem => 0
  | _ => 0

abbrev hbmTy0_0 (i : Nat) : BufTy := match i % 128 with
  | 0 => ⟨S16x3x16x224x224, .f32⟩
  | 1 => ⟨S3x3x60x224, .f32⟩
  | 2 => ⟨S3x3x30x224, .f32⟩
  | 3 => ⟨S3x3x164x60, .f32⟩
  | 4 => ⟨S3x3x164x30, .f32⟩
  | 5 => ⟨S16, .i32⟩
  | 6 => ⟨S16, .i32⟩
  | 7 => ⟨S16, .i32⟩
  | 8 => ⟨S_, .i32⟩
  | 9 => ⟨S16, .i32⟩
  | 10 => ⟨S16, .i1⟩
  | 11 => ⟨S_, .i32⟩
  | 12 => ⟨S16, .i32⟩
  | 13 => ⟨S16, .i32⟩
  | 14 => ⟨S16, .i32⟩
  | 15 => ⟨S_, .i32⟩
  | 16 => ⟨S_, .i32⟩
  | 17 => ⟨S_, .i1⟩
  | 18 => ⟨S_, .i32⟩
  | 19 => ⟨S_, .i32⟩
  | 20 => ⟨S_, .i32⟩
  | 21 => ⟨S_, .i32⟩
  | 22 => ⟨S_, .i32⟩
  | 23 => ⟨S_, .i32⟩
  | 24 => ⟨S_, .i32⟩
  | 25 => ⟨S_, .i1⟩
  | 26 => ⟨S_, .i32⟩
  | 27 => ⟨S_, .i32⟩
  | 28 => ⟨S_, .i32⟩
  | 29 => ⟨S_, .i32⟩
  | 30 => ⟨S_, .i32⟩
  | 31 => ⟨S_, .i32⟩
  | 32 => ⟨S_, .i32⟩
  | 33 => ⟨S_, .i1⟩
  | 34 => ⟨S_, .i32⟩
  | 35 => ⟨S_, .i32⟩
  | 36 => ⟨S_, .i32⟩
  | 37 => ⟨S_, .i32⟩
  | 38 => ⟨S_, .i32⟩
  | 39 => ⟨S16x1, .i32⟩
  | 40 => ⟨S16x1, .i32⟩
  | 41 => ⟨S16x1, .i32⟩
  | 42 => ⟨S16x1, .i32⟩
  | 43 => ⟨S16x4, .i32⟩
  | 44 => ⟨S16x1x3x60x224, .f32⟩
  | 45 => ⟨S16x3x60x224, .f32⟩
  | 46 => ⟨S_, .i32⟩
  | 47 => ⟨S16, .i32⟩
  | 48 => ⟨S16, .i1⟩
  | 49 => ⟨S_, .i32⟩
  | 50 => ⟨S16, .i32⟩
  | 51 => ⟨S16, .i32⟩
  | 52 => ⟨S16, .i32⟩
  | 53 => ⟨S_, .i32⟩
  | 54 => ⟨S_, .i32⟩
  | 55 => ⟨S_, .i1⟩
  | 56 => ⟨S_, .i32⟩
  | 57 => ⟨S_, .i32⟩
  | 58 => ⟨S_, .i32⟩
  | 59 => ⟨S_, .i32⟩
  | 60 => ⟨S_, .i32⟩
  | 61 => ⟨S_, .i32⟩
  | 62 => ⟨S_, .i32⟩
  | 63 => ⟨S_, .i1⟩
  | 64 => ⟨S_, .i32⟩
  | 65 => ⟨S_, .i32⟩
  | 66 => ⟨S_, .i32⟩
  | 67 => ⟨S_, .i32⟩
  | 68 => ⟨S_, .i32⟩
  | 69 => ⟨S_, .i32⟩
  | 70 => ⟨S_, .i32⟩
  | 71 => ⟨S_, .i1⟩
  | 72 => ⟨S_, .i32⟩
  | 73 => ⟨S_, .i32⟩
  | 74 => ⟨S_, .i32⟩
  | 75 => ⟨S_, .i32⟩
  | 76 => ⟨S_, .i32⟩
  | 77 => ⟨S16x1, .i32⟩
  | 78 => ⟨S16x1, .i32⟩
  | 79 => ⟨S16x1, .i32⟩
  | 80 => ⟨S16x1, .i32⟩
  | 81 => ⟨S16x4, .i32⟩
  | 82 => ⟨S16x1x3x30x224, .f32⟩
  | 83 => ⟨S16x3x30x224, .f32⟩
  | 84 => ⟨S_, .i32⟩
  | 85 => ⟨S16, .i32⟩
  | 86 => ⟨S16, .i1⟩
  | 87 => ⟨S_, .i32⟩
  | 88 => ⟨S16, .i32⟩
  | 89 => ⟨S16, .i32⟩
  | 90 => ⟨S16, .i32⟩
  | 91 => ⟨S_, .i32⟩
  | 92 => ⟨S_, .i32⟩
  | 93 => ⟨S_, .i1⟩
  | 94 => ⟨S_, .i32⟩
  | 95 => ⟨S_, .i32⟩
  | 96 => ⟨S_, .i32⟩
  | 97 => ⟨S_, .i32⟩
  | 98 => ⟨S_, .i32⟩
  | 99 => ⟨S_, .i32⟩
  | 100 => ⟨S_, .i32⟩
  | 101 => ⟨S_, .i1⟩
  | 102 => ⟨S_, .i32⟩
  | 103 => ⟨S_, .i32⟩
  | 104 => ⟨S_, .i32⟩
  | 105 => ⟨S_, .i32⟩
  | 106 => ⟨S_, .i32⟩
  | 107 => ⟨S_, .i32⟩
  | 108 => ⟨S_, .i32⟩
  | 109 => ⟨S_, .i1⟩
  | 110 => ⟨S_, .i32⟩
  | 111 => ⟨S_, .i32⟩
  | 112 => ⟨S_, .i32⟩
  | 113 => ⟨S_, .i32⟩
  | 114 => ⟨S_, .i32⟩
  | 115 => ⟨S16x1, .i32⟩
  | 116 => ⟨S16x1, .i32⟩
  | 117 => ⟨S16x1, .i32⟩
  | 118 => ⟨S16x1, .i32⟩
  | 119 => ⟨S16x4, .i32⟩
  | 120 => ⟨S16x1x3x164x60, .f32⟩
  | 121 => ⟨S16x3x164x60, .f32⟩
  | 122 => ⟨S_, .i32⟩
  | 123 => ⟨S16, .i32⟩
  | 124 => ⟨S16, .i1⟩
  | 125 => ⟨S_, .i32⟩
  | 126 => ⟨S16, .i32⟩
  | 127 => ⟨S16, .i32⟩
  | _ => ⟨S16x3x16x224x224, .f32⟩

abbrev hbmTy0_1 (i : Nat) : BufTy := match i % 128 with
  | 0 => ⟨S16, .i32⟩
  | 1 => ⟨S_, .i32⟩
  | 2 => ⟨S_, .i32⟩
  | 3 => ⟨S_, .i1⟩
  | 4 => ⟨S_, .i32⟩
  | 5 => ⟨S_, .i32⟩
  | 6 => ⟨S_, .i32⟩
  | 7 => ⟨S_, .i32⟩
  | 8 => ⟨S_, .i32⟩
  | 9 => ⟨S_, .i32⟩
  | 10 => ⟨S_, .i32⟩
  | 11 => ⟨S_, .i1⟩
  | 12 => ⟨S_, .i32⟩
  | 13 => ⟨S_, .i32⟩
  | 14 => ⟨S_, .i32⟩
  | 15 => ⟨S_, .i32⟩
  | 16 => ⟨S_, .i32⟩
  | 17 => ⟨S_, .i32⟩
  | 18 => ⟨S_, .i32⟩
  | 19 => ⟨S_, .i1⟩
  | 20 => ⟨S_, .i32⟩
  | 21 => ⟨S_, .i32⟩
  | 22 => ⟨S_, .i32⟩
  | 23 => ⟨S_, .i32⟩
  | 24 => ⟨S_, .i32⟩
  | 25 => ⟨S16x1, .i32⟩
  | 26 => ⟨S16x1, .i32⟩
  | 27 => ⟨S16x1, .i32⟩
  | 28 => ⟨S16x1, .i32⟩
  | 29 => ⟨S16x4, .i32⟩
  | 30 => ⟨S16x1x3x164x30, .f32⟩
  | 31 => ⟨S16x3x164x30, .f32⟩
  | 32 => ⟨S_, .i32⟩
  | 33 => ⟨S16, .i32⟩
  | 34 => ⟨S16, .i32⟩
  | 35 => ⟨S_, .i32⟩
  | 36 => ⟨S16, .i32⟩
  | 37 => ⟨S16, .i32⟩
  | 38 => ⟨S224, .i32⟩
  | 39 => ⟨S224, .f32⟩
  | 40 => ⟨S16x3x164x90, .f32⟩
  | 41 => ⟨S16, .f32⟩
  | 42 => ⟨S_, .f32⟩
  | 43 => ⟨S16, .f32⟩
  | 44 => ⟨S16, .f32⟩
  | 45 => ⟨S_, .f32⟩
  | 46 => ⟨S224, .f32⟩
  | 47 => ⟨S224, .f32⟩
  | 48 => ⟨S1x224, .f32⟩
  | 49 => ⟨S16x1, .f32⟩
  | 50 => ⟨S16x224, .f32⟩
  | 51 => ⟨S16x224, .f32⟩
  | 52 => ⟨S16x224, .f32⟩
  | 53 => ⟨S_, .f32⟩
  | 54 => ⟨S16x224, .f32⟩
  | 55 => ⟨S16x224, .f32⟩
  | 56 => ⟨S_, .f32⟩
  | 57 => ⟨S16x224, .f32⟩
  | 58 => ⟨S16x224, .f32⟩
  | 59 => ⟨S16x224, .f32⟩
  | 60 => ⟨S16x224, .i32⟩
  | 61 => ⟨S16x224, .f32⟩
  | 62 => ⟨S16x224, .f32⟩
  | 63 => ⟨S_, .i32⟩
  | 64 => ⟨S16x224, .i32⟩
  | 65 => ⟨S16x224, .i32⟩
  | 66 => ⟨S_, .i32⟩
  | 67 => ⟨S16x224, .i32⟩
  | 68 => ⟨S16x224, .i32⟩
  | 69 => ⟨S_, .i32⟩
  | 70 => ⟨S16x224, .i32⟩
  | 71 => ⟨S16x224, .i32⟩
  | 72 => ⟨S_, .i32⟩
  | 73 => ⟨S16x224, .i32⟩
  | 74 => ⟨S16x224, .i32⟩
  | 75 => ⟨S_, .i32⟩
  | 76 => ⟨S16, .i32⟩
  | 77 => ⟨S16, .i32⟩
  | 78 => ⟨S16, .f32⟩
  | 79 => ⟨S1x224, .f32⟩
  | 80 => ⟨S16x1, .f32⟩
  | 81 => ⟨S16x224, .f32⟩
  | 82 => ⟨S16x224, .f32⟩
  | 83 => ⟨S16x224, .f32⟩
  | 84 => ⟨S16, .f32⟩
  | 85 => ⟨S_, .f32⟩
  | 86 => ⟨S16, .f32⟩
  | 87 => ⟨S16, .f32⟩
  | 88 => ⟨S_, .f32⟩
  | 89 => ⟨S16x224, .f32⟩
  | 90 => ⟨S16x224, .f32⟩
  | 91 => ⟨S16x1, .f32⟩
  | 92 => ⟨S16x224, .f32⟩
  | 93 => ⟨S16x224, .f32⟩
  | 94 => ⟨S_, .f32⟩
  | 95 => ⟨S16x224, .f32⟩
  | 96 => ⟨S16x224, .f32⟩
  | 97 => ⟨S_, .f32⟩
  | 98 => ⟨S16x224, .f32⟩
  | 99 => ⟨S16x224, .f32⟩
  | 100 => ⟨S16x224, .f32⟩
  | 101 => ⟨S16x224, .i32⟩
  | 102 => ⟨S16x224, .f32⟩
  | 103 => ⟨S16x224, .f32⟩
  | 104 => ⟨S_, .i32⟩
  | 105 => ⟨S16x224, .i32⟩
  | 106 => ⟨S16x224, .i32⟩
  | 107 => ⟨S_, .i32⟩
  | 108 => ⟨S16x224, .i32⟩
  | 109 => ⟨S16x224, .i32⟩
  | 110 => ⟨S_, .i32⟩
  | 111 => ⟨S16x224, .i32⟩
  | 112 => ⟨S16x224, .i32⟩
  | 113 => ⟨S_, .i32⟩
  | 114 => ⟨S16x224, .i32⟩
  | 115 => ⟨S16x224, .i32⟩
  | 116 => ⟨S1x224, .i32⟩
  | 117 => ⟨S16x1, .i32⟩
  | 118 => ⟨S16x224, .i32⟩
  | 119 => ⟨S16x224, .i32⟩
  | 120 => ⟨S16x224, .i1⟩
  | 121 => ⟨S_, .i32⟩
  | 122 => ⟨S16, .i32⟩
  | 123 => ⟨S16, .i32⟩
  | 124 => ⟨S1x224, .i32⟩
  | 125 => ⟨S16x1, .i32⟩
  | 126 => ⟨S16x224, .i32⟩
  | 127 => ⟨S16x224, .i32⟩
  | _ => ⟨S16x3x16x224x224, .f32⟩

abbrev hbmTy0_2 (i : Nat) : BufTy := match i % 128 with
  | 0 => ⟨S16x224, .i1⟩
  | 1 => ⟨S16x224, .i32⟩
  | 2 => ⟨S16x224, .i32⟩
  | 3 => ⟨S16x224, .f32⟩
  | 4 => ⟨S_, .i32⟩
  | 5 => ⟨S16x224, .i32⟩
  | 6 => ⟨S16x224, .i1⟩
  | 7 => ⟨S_, .i32⟩
  | 8 => ⟨S16x224, .i32⟩
  | 9 => ⟨S16x224, .i32⟩
  | 10 => ⟨S16x224, .i32⟩
  | 11 => ⟨S16x224x1, .i32⟩
  | 12 => ⟨S16x3x164x224, .f32⟩
  | 13 => ⟨S_, .f32⟩
  | 14 => ⟨S16x224, .f32⟩
  | 15 => ⟨S16x224, .f32⟩
  | 16 => ⟨S16x1x1x224, .f32⟩
  | 17 => ⟨S16x3x164x224, .f32⟩
  | 18 => ⟨S16x3x164x224, .f32⟩
  | 19 => ⟨S_, .i32⟩
  | 20 => ⟨S16x224, .i32⟩
  | 21 => ⟨S16x224, .i1⟩
  | 22 => ⟨S_, .i32⟩
  | 23 => ⟨S16x224, .i32⟩
  | 24 => ⟨S16x224, .i32⟩
  | 25 => ⟨S16x224, .i32⟩
  | 26 => ⟨S16x224x1, .i32⟩
  | 27 => ⟨S16x3x164x224, .f32⟩
  | 28 => ⟨S16x1x1x224, .f32⟩
  | 29 => ⟨S16x3x164x224, .f32⟩
  | 30 => ⟨S16x3x164x224, .f32⟩
  | 31 => ⟨S16x3x164x224, .f32⟩
  | 32 => ⟨S16x224, .i1⟩
  | 33 => ⟨S16x1x1x224, .i1⟩
  | 34 => ⟨S_, .f32⟩
  | 35 => ⟨S_, .f32⟩
  | 36 => ⟨S16x3x164x224, .i1⟩
  | 37 => ⟨S3x164x224, .f32⟩
  | 38 => ⟨S16x3x164x224, .f32⟩
  | 39 => ⟨S16x3x164x224, .f32⟩
  | 40 => ⟨S16x3x254x224, .f32⟩
  | 41 => ⟨S224, .i32⟩
  | 42 => ⟨S224, .f32⟩
  | 43 => ⟨S16, .f32⟩
  | 44 => ⟨S_, .f32⟩
  | 45 => ⟨S16, .f32⟩
  | 46 => ⟨S16, .f32⟩
  | 47 => ⟨S_, .f32⟩
  | 48 => ⟨S224, .f32⟩
  | 49 => ⟨S224, .f32⟩
  | 50 => ⟨S1x224, .f32⟩
  | 51 => ⟨S16x1, .f32⟩
  | 52 => ⟨S16x224, .f32⟩
  | 53 => ⟨S16x224, .f32⟩
  | 54 => ⟨S16x224, .f32⟩
  | 55 => ⟨S_, .f32⟩
  | 56 => ⟨S16x224, .f32⟩
  | 57 => ⟨S16x224, .f32⟩
  | 58 => ⟨S_, .f32⟩
  | 59 => ⟨S16x224, .f32⟩
  | 60 => ⟨S16x224, .f32⟩
  | 61 => ⟨S16x224, .f32⟩
  | 62 => ⟨S16x224, .i32⟩
  | 63 => ⟨S16x224, .f32⟩
  | 64 => ⟨S16x224, .f32⟩
  | 65 => ⟨S_, .i32⟩
  | 66 => ⟨S16x224, .i32⟩
  | 67 => ⟨S16x224, .i32⟩
  | 68 => ⟨S_, .i32⟩
  | 69 => ⟨S16x224, .i32⟩
  | 70 => ⟨S16x224, .i32⟩
  | 71 => ⟨S_, .i32⟩
  | 72 => ⟨S16x224, .i32⟩
  | 73 => ⟨S16x224, .i32⟩
  | 74 => ⟨S_, .i32⟩
  | 75 => ⟨S16x224, .i32⟩
  | 76 => ⟨S16x224, .i32⟩
  | 77 => ⟨S_, .i32⟩
  | 78 => ⟨S16, .i32⟩
  | 79 => ⟨S16, .i32⟩
  | 80 => ⟨S16, .f32⟩
  | 81 => ⟨S1x224, .f32⟩
  | 82 => ⟨S16x1, .f32⟩
  | 83 => ⟨S16x224, .f32⟩
  | 84 => ⟨S16x224, .f32⟩
  | 85 => ⟨S16x224, .f32⟩
  | 86 => ⟨S16, .f32⟩
  | 87 => ⟨S_, .f32⟩
  | 88 => ⟨S16, .f32⟩
  | 89 => ⟨S16, .f32⟩
  | 90 => ⟨S_, .f32⟩
  | 91 => ⟨S16x224, .f32⟩
  | 92 => ⟨S16x224, .f32⟩
  | 93 => ⟨S16x1, .f32⟩
  | 94 => ⟨S16x224, .f32⟩
  | 95 => ⟨S16x224, .f32⟩
  | 96 => ⟨S_, .f32⟩
  | 97 => ⟨S16x224, .f32⟩
  | 98 => ⟨S16x224, .f32⟩
  | 99 => ⟨S_, .f32⟩
  | 100 => ⟨S16x224, .f32⟩
  | 101 => ⟨S16x224, .f32⟩
  | 102 => ⟨S16x224, .f32⟩
  | 103 => ⟨S16x224, .i32⟩
  | 104 => ⟨S16x224, .f32⟩
  | 105 => ⟨S16x224, .f32⟩
  | 106 => ⟨S_, .i32⟩
  | 107 => ⟨S16x224, .i32⟩
  | 108 => ⟨S16x224, .i32⟩
  | 109 => ⟨S_, .i32⟩
  | 110 => ⟨S16x224, .i32⟩
  | 111 => ⟨S16x224, .i32⟩
  | 112 => ⟨S_, .i32⟩
  | 113 => ⟨S16x224, .i32⟩
  | 114 => ⟨S16x224, .i32⟩
  | 115 => ⟨S_, .i32⟩
  | 116 => ⟨S16x224, .i32⟩
  | 117 => ⟨S16x224, .i32⟩
  | 118 => ⟨S1x224, .i32⟩
  | 119 => ⟨S16x1, .i32⟩
  | 120 => ⟨S16x224, .i32⟩
  | 121 => ⟨S16x224, .i32⟩
  | 122 => ⟨S16x224, .i32⟩
  | 123 => ⟨S_, .i32⟩
  | 124 => ⟨S16x224, .i32⟩
  | 125 => ⟨S16x224, .i32⟩
  | 126 => ⟨S1x224, .i32⟩
  | 127 => ⟨S16x1, .i32⟩
  | _ => ⟨S16x3x16x224x224, .f32⟩

abbrev hbmTy0_3 (i : Nat) : BufTy := match i % 128 with
  | 0 => ⟨S16x224, .i32⟩
  | 1 => ⟨S16x224, .i32⟩
  | 2 => ⟨S16x224, .i1⟩
  | 3 => ⟨S_, .i32⟩
  | 4 => ⟨S16, .i32⟩
  | 5 => ⟨S16, .i32⟩
  | 6 => ⟨S1x224, .i32⟩
  | 7 => ⟨S16x1, .i32⟩
  | 8 => ⟨S16x224, .i32⟩
  | 9 => ⟨S16x224, .i32⟩
  | 10 => ⟨S16x224, .i1⟩
  | 11 => ⟨S16x224, .i32⟩
  | 12 => ⟨S16x224, .i32⟩
  | 13 => ⟨S16x224, .i32⟩
  | 14 => ⟨S16x224, .i32⟩
  | 15 => ⟨S_, .f32⟩
  | 16 => ⟨S_, .f32⟩
  | 17 => ⟨S224, .f32⟩
  | 18 => ⟨S16x224, .f32⟩
  | 19 => ⟨S16x224, .f32⟩
  | 20 => ⟨S16x224, .f32⟩
  | 21 => ⟨S_, .i32⟩
  | 22 => ⟨S16x224, .i32⟩
  | 23 => ⟨S16x224, .i1⟩
  | 24 => ⟨S_, .i32⟩
  | 25 => ⟨S16x224, .i32⟩
  | 26 => ⟨S16x224, .i32⟩
  | 27 => ⟨S16x224, .i32⟩
  | 28 => ⟨S16x224x1, .i32⟩
  | 29 => ⟨S16x3x224x224, .f32⟩
  | 30 => ⟨S_, .f32⟩
  | 31 => ⟨S16x224, .f32⟩
  | 32 => ⟨S16x224, .f32⟩
  | 33 => ⟨S16x1x224x1, .f32⟩
  | 34 => ⟨S16x3x224x224, .f32⟩
  | 35 => ⟨S16x3x224x224, .f32⟩
  | 36 => ⟨S_, .i32⟩
  | 37 => ⟨S16x224, .i32⟩
  | 38 => ⟨S16x224, .i1⟩
  | 39 => ⟨S_, .i32⟩
  | 40 => ⟨S16x224, .i32⟩
  | 41 => ⟨S16x224, .i32⟩
  | 42 => ⟨S16x224, .i32⟩
  | 43 => ⟨S16x224x1, .i32⟩
  | 44 => ⟨S16x3x224x224, .f32⟩
  | 45 => ⟨S16x1x224x1, .f32⟩
  | 46 => ⟨S16x3x224x224, .f32⟩
  | 47 => ⟨S16x3x224x224, .f32⟩
  | 48 => ⟨S16x3x224x224, .f32⟩
  | 49 => ⟨S16x3x16x224x224, .f32⟩
  | _ => ⟨S16x3x16x224x224, .f32⟩

abbrev hbmTy (i : Nat) : BufTy := match i / 128 with
  | 0 => hbmTy0_0 i
  | 1 => hbmTy0_1 i
  | 2 => hbmTy0_2 i
  | 3 => hbmTy0_3 i
  | _ => ⟨S16x3x16x224x224, .f32⟩

abbrev bufTy : (tb : Table) → Fin (tcTables nBuf tb) → BufTy
  | .hbm, ⟨i, _⟩ => hbmTy i
  | .local _ .vmem, ⟨0, _⟩ => ⟨S1x1x16x224x224, .f32⟩
  | .local _ .vmem, ⟨1, _⟩ => ⟨S1x1x16x224x224, .f32⟩
  | .local _ .vmem, ⟨2, _⟩ => ⟨S1x1x224x224, .f32⟩
  | .local _ .vmem, ⟨3, _⟩ => ⟨S1x1x224x224, .f32⟩
  | .local _ .vmem, ⟨4, _⟩ => ⟨S1x1x16x224x224, .f32⟩
  | .local _ .vmem, ⟨5, _⟩ => ⟨S1x1x16x224x224, .f32⟩
  | _, _ => ⟨S16x3x16x224x224, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_c_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_c_1 : Ref sig .tc := ⟨.hbm, 15, rfl⟩
abbrev main_c_2 : Ref sig .tc := ⟨.hbm, 16, rfl⟩
abbrev main_v5 : Ref sig .tc := ⟨.hbm, 17, rfl⟩
abbrev main_c_3 : Ref sig .tc := ⟨.hbm, 18, rfl⟩
abbrev main_c_4 : Ref sig .tc := ⟨.hbm, 19, rfl⟩
abbrev main_v6 : Ref sig .tc := ⟨.hbm, 20, rfl⟩
abbrev main_c_5 : Ref sig .tc := ⟨.hbm, 21, rfl⟩
abbrev main_v7 : Ref sig .tc := ⟨.hbm, 22, rfl⟩
abbrev main_c_6 : Ref sig .tc := ⟨.hbm, 23, rfl⟩
abbrev main_c_7 : Ref sig .tc := ⟨.hbm, 24, rfl⟩
abbrev main_v8 : Ref sig .tc := ⟨.hbm, 25, rfl⟩
abbrev main_c_8 : Ref sig .tc := ⟨.hbm, 26, rfl⟩
abbrev main_c_9 : Ref sig .tc := ⟨.hbm, 27, rfl⟩
abbrev main_v9 : Ref sig .tc := ⟨.hbm, 28, rfl⟩
abbrev main_c_10 : Ref sig .tc := ⟨.hbm, 29, rfl⟩
abbrev main_v10 : Ref sig .tc := ⟨.hbm, 30, rfl⟩
abbrev main_c_11 : Ref sig .tc := ⟨.hbm, 31, rfl⟩
abbrev main_c_12 : Ref sig .tc := ⟨.hbm, 32, rfl⟩
abbrev main_v11 : Ref sig .tc := ⟨.hbm, 33, rfl⟩
abbrev main_c_13 : Ref sig .tc := ⟨.hbm, 34, rfl⟩
abbrev main_c_14 : Ref sig .tc := ⟨.hbm, 35, rfl⟩
abbrev main_v12 : Ref sig .tc := ⟨.hbm, 36, rfl⟩
abbrev main_c_15 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_c_16 : Ref sig .tc := ⟨.hbm, 46, rfl⟩
abbrev main_v21 : Ref sig .tc := ⟨.hbm, 47, rfl⟩
abbrev main_v22 : Ref sig .tc := ⟨.hbm, 48, rfl⟩
abbrev main_c_17 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_c_18 : Ref sig .tc := ⟨.hbm, 53, rfl⟩
abbrev main_c_19 : Ref sig .tc := ⟨.hbm, 54, rfl⟩
abbrev main_v26 : Ref sig .tc := ⟨.hbm, 55, rfl⟩
abbrev main_c_20 : Ref sig .tc := ⟨.hbm, 56, rfl⟩
abbrev main_c_21 : Ref sig .tc := ⟨.hbm, 57, rfl⟩
abbrev main_v27 : Ref sig .tc := ⟨.hbm, 58, rfl⟩
abbrev main_c_22 : Ref sig .tc := ⟨.hbm, 59, rfl⟩
abbrev main_v28 : Ref sig .tc := ⟨.hbm, 60, rfl⟩
abbrev main_c_23 : Ref sig .tc := ⟨.hbm, 61, rfl⟩
abbrev main_c_24 : Ref sig .tc := ⟨.hbm, 62, rfl⟩
abbrev main_v29 : Ref sig .tc := ⟨.hbm, 63, rfl⟩
abbrev main_c_25 : Ref sig .tc := ⟨.hbm, 64, rfl⟩
abbrev main_c_26 : Ref sig .tc := ⟨.hbm, 65, rfl⟩
abbrev main_v30 : Ref sig .tc := ⟨.hbm, 66, rfl⟩
abbrev main_c_27 : Ref sig .tc := ⟨.hbm, 67, rfl⟩
abbrev main_v31 : Ref sig .tc := ⟨.hbm, 68, rfl⟩
abbrev main_c_28 : Ref sig .tc := ⟨.hbm, 69, rfl⟩
abbrev main_c_29 : Ref sig .tc := ⟨.hbm, 70, rfl⟩
abbrev main_v32 : Ref sig .tc := ⟨.hbm, 71, rfl⟩
abbrev main_c_30 : Ref sig .tc := ⟨.hbm, 72, rfl⟩
abbrev main_c_31 : Ref sig .tc := ⟨.hbm, 73, rfl⟩
abbrev main_v33 : Ref sig .tc := ⟨.hbm, 74, rfl⟩
abbrev main_c_32 : Ref sig .tc := ⟨.hbm, 75, rfl⟩
abbrev main_v34 : Ref sig .tc := ⟨.hbm, 76, rfl⟩
abbrev main_v35 : Ref sig .tc := ⟨.hbm, 77, rfl⟩
abbrev main_v36 : Ref sig .tc := ⟨.hbm, 78, rfl⟩
abbrev main_v37 : Ref sig .tc := ⟨.hbm, 79, rfl⟩
abbrev main_v38 : Ref sig .tc := ⟨.hbm, 80, rfl⟩
abbrev main_v39 : Ref sig .tc := ⟨.hbm, 81, rfl⟩
abbrev main_v40 : Ref sig .tc := ⟨.hbm, 82, rfl⟩
abbrev main_v41 : Ref sig .tc := ⟨.hbm, 83, rfl⟩
abbrev main_c_33 : Ref sig .tc := ⟨.hbm, 84, rfl⟩
abbrev main_v42 : Ref sig .tc := ⟨.hbm, 85, rfl⟩
abbrev main_v43 : Ref sig .tc := ⟨.hbm, 86, rfl⟩
abbrev main_c_34 : Ref sig .tc := ⟨.hbm, 87, rfl⟩
abbrev main_v44 : Ref sig .tc := ⟨.hbm, 88, rfl⟩
abbrev main_v45 : Ref sig .tc := ⟨.hbm, 89, rfl⟩
abbrev main_v46 : Ref sig .tc := ⟨.hbm, 90, rfl⟩
abbrev main_c_35 : Ref sig .tc := ⟨.hbm, 91, rfl⟩
abbrev main_c_36 : Ref sig .tc := ⟨.hbm, 92, rfl⟩
abbrev main_v47 : Ref sig .tc := ⟨.hbm, 93, rfl⟩
abbrev main_c_37 : Ref sig .tc := ⟨.hbm, 94, rfl⟩
abbrev main_c_38 : Ref sig .tc := ⟨.hbm, 95, rfl⟩
abbrev main_v48 : Ref sig .tc := ⟨.hbm, 96, rfl⟩
abbrev main_c_39 : Ref sig .tc := ⟨.hbm, 97, rfl⟩
abbrev main_v49 : Ref sig .tc := ⟨.hbm, 98, rfl⟩
abbrev main_c_40 : Ref sig .tc := ⟨.hbm, 99, rfl⟩
abbrev main_c_41 : Ref sig .tc := ⟨.hbm, 100, rfl⟩
abbrev main_v50 : Ref sig .tc := ⟨.hbm, 101, rfl⟩
abbrev main_c_42 : Ref sig .tc := ⟨.hbm, 102, rfl⟩
abbrev main_c_43 : Ref sig .tc := ⟨.hbm, 103, rfl⟩
abbrev main_v51 : Ref sig .tc := ⟨.hbm, 104, rfl⟩
abbrev main_c_44 : Ref sig .tc := ⟨.hbm, 105, rfl⟩
abbrev main_v52 : Ref sig .tc := ⟨.hbm, 106, rfl⟩
abbrev main_c_45 : Ref sig .tc := ⟨.hbm, 107, rfl⟩
abbrev main_c_46 : Ref sig .tc := ⟨.hbm, 108, rfl⟩
abbrev main_v53 : Ref sig .tc := ⟨.hbm, 109, rfl⟩
abbrev main_c_47 : Ref sig .tc := ⟨.hbm, 110, rfl⟩
abbrev main_c_48 : Ref sig .tc := ⟨.hbm, 111, rfl⟩
abbrev main_v54 : Ref sig .tc := ⟨.hbm, 112, rfl⟩
abbrev main_c_49 : Ref sig .tc := ⟨.hbm, 113, rfl⟩
abbrev main_v55 : Ref sig .tc := ⟨.hbm, 114, rfl⟩
abbrev main_v56 : Ref sig .tc := ⟨.hbm, 115, rfl⟩
abbrev main_v57 : Ref sig .tc := ⟨.hbm, 116, rfl⟩
abbrev main_v58 : Ref sig .tc := ⟨.hbm, 117, rfl⟩
abbrev main_v59 : Ref sig .tc := ⟨.hbm, 118, rfl⟩
abbrev main_v60 : Ref sig .tc := ⟨.hbm, 119, rfl⟩
abbrev main_v61 : Ref sig .tc := ⟨.hbm, 120, rfl⟩
abbrev main_v62 : Ref sig .tc := ⟨.hbm, 121, rfl⟩
abbrev main_c_50 : Ref sig .tc := ⟨.hbm, 122, rfl⟩
abbrev main_v63 : Ref sig .tc := ⟨.hbm, 123, rfl⟩
abbrev main_v64 : Ref sig .tc := ⟨.hbm, 124, rfl⟩
abbrev main_c_51 : Ref sig .tc := ⟨.hbm, 125, rfl⟩
abbrev main_v65 : Ref sig .tc := ⟨.hbm, 126, rfl⟩
abbrev main_v66 : Ref sig .tc := ⟨.hbm, 127, rfl⟩
abbrev main_v67 : Ref sig .tc := ⟨.hbm, 128, rfl⟩
abbrev main_c_52 : Ref sig .tc := ⟨.hbm, 129, rfl⟩
abbrev main_c_53 : Ref sig .tc := ⟨.hbm, 130, rfl⟩
abbrev main_v68 : Ref sig .tc := ⟨.hbm, 131, rfl⟩
abbrev main_c_54 : Ref sig .tc := ⟨.hbm, 132, rfl⟩
abbrev main_c_55 : Ref sig .tc := ⟨.hbm, 133, rfl⟩
abbrev main_v69 : Ref sig .tc := ⟨.hbm, 134, rfl⟩
abbrev main_c_56 : Ref sig .tc := ⟨.hbm, 135, rfl⟩
abbrev main_v70 : Ref sig .tc := ⟨.hbm, 136, rfl⟩
abbrev main_c_57 : Ref sig .tc := ⟨.hbm, 137, rfl⟩
abbrev main_c_58 : Ref sig .tc := ⟨.hbm, 138, rfl⟩
abbrev main_v71 : Ref sig .tc := ⟨.hbm, 139, rfl⟩
abbrev main_c_59 : Ref sig .tc := ⟨.hbm, 140, rfl⟩
abbrev main_c_60 : Ref sig .tc := ⟨.hbm, 141, rfl⟩
abbrev main_v72 : Ref sig .tc := ⟨.hbm, 142, rfl⟩
abbrev main_c_61 : Ref sig .tc := ⟨.hbm, 143, rfl⟩
abbrev main_v73 : Ref sig .tc := ⟨.hbm, 144, rfl⟩
abbrev main_c_62 : Ref sig .tc := ⟨.hbm, 145, rfl⟩
abbrev main_c_63 : Ref sig .tc := ⟨.hbm, 146, rfl⟩
abbrev main_v74 : Ref sig .tc := ⟨.hbm, 147, rfl⟩
abbrev main_c_64 : Ref sig .tc := ⟨.hbm, 148, rfl⟩
abbrev main_c_65 : Ref sig .tc := ⟨.hbm, 149, rfl⟩
abbrev main_v75 : Ref sig .tc := ⟨.hbm, 150, rfl⟩
abbrev main_c_66 : Ref sig .tc := ⟨.hbm, 151, rfl⟩
abbrev main_v76 : Ref sig .tc := ⟨.hbm, 152, rfl⟩
abbrev main_v77 : Ref sig .tc := ⟨.hbm, 153, rfl⟩
abbrev main_v78 : Ref sig .tc := ⟨.hbm, 154, rfl⟩
abbrev main_v79 : Ref sig .tc := ⟨.hbm, 155, rfl⟩
abbrev main_v80 : Ref sig .tc := ⟨.hbm, 156, rfl⟩
abbrev main_v81 : Ref sig .tc := ⟨.hbm, 157, rfl⟩
abbrev main_v82 : Ref sig .tc := ⟨.hbm, 158, rfl⟩
abbrev main_v83 : Ref sig .tc := ⟨.hbm, 159, rfl⟩
abbrev main_c_67 : Ref sig .tc := ⟨.hbm, 160, rfl⟩
abbrev main_v84 : Ref sig .tc := ⟨.hbm, 161, rfl⟩
abbrev main_v85 : Ref sig .tc := ⟨.hbm, 162, rfl⟩
abbrev main_c_68 : Ref sig .tc := ⟨.hbm, 163, rfl⟩
abbrev main_v86 : Ref sig .tc := ⟨.hbm, 164, rfl⟩
abbrev main_v87 : Ref sig .tc := ⟨.hbm, 165, rfl⟩
abbrev main_v88 : Ref sig .tc := ⟨.hbm, 166, rfl⟩
abbrev main_v89 : Ref sig .tc := ⟨.hbm, 167, rfl⟩
abbrev main_v90 : Ref sig .tc := ⟨.hbm, 168, rfl⟩
abbrev main_v91 : Ref sig .tc := ⟨.hbm, 169, rfl⟩
abbrev main_cst : Ref sig .tc := ⟨.hbm, 170, rfl⟩
abbrev main_v92 : Ref sig .tc := ⟨.hbm, 171, rfl⟩
abbrev main_v93 : Ref sig .tc := ⟨.hbm, 172, rfl⟩
abbrev main_cst_69 : Ref sig .tc := ⟨.hbm, 173, rfl⟩
abbrev main_v94 : Ref sig .tc := ⟨.hbm, 174, rfl⟩
abbrev main_v95 : Ref sig .tc := ⟨.hbm, 175, rfl⟩
abbrev main_v96 : Ref sig .tc := ⟨.hbm, 176, rfl⟩
abbrev main_v97 : Ref sig .tc := ⟨.hbm, 177, rfl⟩
abbrev main_v98 : Ref sig .tc := ⟨.hbm, 178, rfl⟩
abbrev main_v99 : Ref sig .tc := ⟨.hbm, 179, rfl⟩
abbrev main_v100 : Ref sig .tc := ⟨.hbm, 180, rfl⟩
abbrev main_cst_70 : Ref sig .tc := ⟨.hbm, 181, rfl⟩
abbrev main_v101 : Ref sig .tc := ⟨.hbm, 182, rfl⟩
abbrev main_v102 : Ref sig .tc := ⟨.hbm, 183, rfl⟩
abbrev main_cst_71 : Ref sig .tc := ⟨.hbm, 184, rfl⟩
abbrev main_v103 : Ref sig .tc := ⟨.hbm, 185, rfl⟩
abbrev main_v104 : Ref sig .tc := ⟨.hbm, 186, rfl⟩
abbrev main_v105 : Ref sig .tc := ⟨.hbm, 187, rfl⟩
abbrev main_v106 : Ref sig .tc := ⟨.hbm, 188, rfl⟩
abbrev main_v107 : Ref sig .tc := ⟨.hbm, 189, rfl⟩
abbrev main_v108 : Ref sig .tc := ⟨.hbm, 190, rfl⟩
abbrev main_c_72 : Ref sig .tc := ⟨.hbm, 191, rfl⟩
abbrev main_v109 : Ref sig .tc := ⟨.hbm, 192, rfl⟩
abbrev main_v110 : Ref sig .tc := ⟨.hbm, 193, rfl⟩
abbrev main_c_73 : Ref sig .tc := ⟨.hbm, 194, rfl⟩
abbrev main_v111 : Ref sig .tc := ⟨.hbm, 195, rfl⟩
abbrev main_v112 : Ref sig .tc := ⟨.hbm, 196, rfl⟩
abbrev main_c_74 : Ref sig .tc := ⟨.hbm, 197, rfl⟩
abbrev main_v113 : Ref sig .tc := ⟨.hbm, 198, rfl⟩
abbrev main_v114 : Ref sig .tc := ⟨.hbm, 199, rfl⟩
abbrev main_c_75 : Ref sig .tc := ⟨.hbm, 200, rfl⟩
abbrev main_v115 : Ref sig .tc := ⟨.hbm, 201, rfl⟩
abbrev main_v116 : Ref sig .tc := ⟨.hbm, 202, rfl⟩
abbrev main_c_76 : Ref sig .tc := ⟨.hbm, 203, rfl⟩
abbrev main_v117 : Ref sig .tc := ⟨.hbm, 204, rfl⟩
abbrev main_v118 : Ref sig .tc := ⟨.hbm, 205, rfl⟩
abbrev main_v119 : Ref sig .tc := ⟨.hbm, 206, rfl⟩
abbrev main_v120 : Ref sig .tc := ⟨.hbm, 207, rfl⟩
abbrev main_v121 : Ref sig .tc := ⟨.hbm, 208, rfl⟩
abbrev main_v122 : Ref sig .tc := ⟨.hbm, 209, rfl⟩
abbrev main_v123 : Ref sig .tc := ⟨.hbm, 210, rfl⟩
abbrev main_v124 : Ref sig .tc := ⟨.hbm, 211, rfl⟩
abbrev main_v125 : Ref sig .tc := ⟨.hbm, 212, rfl⟩
abbrev main_cst_77 : Ref sig .tc := ⟨.hbm, 213, rfl⟩
abbrev main_v126 : Ref sig .tc := ⟨.hbm, 214, rfl⟩
abbrev main_v127 : Ref sig .tc := ⟨.hbm, 215, rfl⟩
abbrev main_cst_78 : Ref sig .tc := ⟨.hbm, 216, rfl⟩
abbrev main_v128 : Ref sig .tc := ⟨.hbm, 217, rfl⟩
abbrev main_v129 : Ref sig .tc := ⟨.hbm, 218, rfl⟩
abbrev main_v130 : Ref sig .tc := ⟨.hbm, 219, rfl⟩
abbrev main_v131 : Ref sig .tc := ⟨.hbm, 220, rfl⟩
abbrev main_v132 : Ref sig .tc := ⟨.hbm, 221, rfl⟩
abbrev main_cst_79 : Ref sig .tc := ⟨.hbm, 222, rfl⟩
abbrev main_v133 : Ref sig .tc := ⟨.hbm, 223, rfl⟩
abbrev main_v134 : Ref sig .tc := ⟨.hbm, 224, rfl⟩
abbrev main_cst_80 : Ref sig .tc := ⟨.hbm, 225, rfl⟩
abbrev main_v135 : Ref sig .tc := ⟨.hbm, 226, rfl⟩
abbrev main_v136 : Ref sig .tc := ⟨.hbm, 227, rfl⟩
abbrev main_v137 : Ref sig .tc := ⟨.hbm, 228, rfl⟩
abbrev main_v138 : Ref sig .tc := ⟨.hbm, 229, rfl⟩
abbrev main_v139 : Ref sig .tc := ⟨.hbm, 230, rfl⟩
abbrev main_v140 : Ref sig .tc := ⟨.hbm, 231, rfl⟩
abbrev main_c_81 : Ref sig .tc := ⟨.hbm, 232, rfl⟩
abbrev main_v141 : Ref sig .tc := ⟨.hbm, 233, rfl⟩
abbrev main_v142 : Ref sig .tc := ⟨.hbm, 234, rfl⟩
abbrev main_c_82 : Ref sig .tc := ⟨.hbm, 235, rfl⟩
abbrev main_v143 : Ref sig .tc := ⟨.hbm, 236, rfl⟩
abbrev main_v144 : Ref sig .tc := ⟨.hbm, 237, rfl⟩
abbrev main_c_83 : Ref sig .tc := ⟨.hbm, 238, rfl⟩
abbrev main_v145 : Ref sig .tc := ⟨.hbm, 239, rfl⟩
abbrev main_v146 : Ref sig .tc := ⟨.hbm, 240, rfl⟩
abbrev main_c_84 : Ref sig .tc := ⟨.hbm, 241, rfl⟩
abbrev main_v147 : Ref sig .tc := ⟨.hbm, 242, rfl⟩
abbrev main_v148 : Ref sig .tc := ⟨.hbm, 243, rfl⟩
abbrev main_v149 : Ref sig .tc := ⟨.hbm, 244, rfl⟩
abbrev main_v150 : Ref sig .tc := ⟨.hbm, 245, rfl⟩
abbrev main_v151 : Ref sig .tc := ⟨.hbm, 246, rfl⟩
abbrev main_v152 : Ref sig .tc := ⟨.hbm, 247, rfl⟩
abbrev main_v153 : Ref sig .tc := ⟨.hbm, 248, rfl⟩
abbrev main_c_85 : Ref sig .tc := ⟨.hbm, 249, rfl⟩
abbrev main_v154 : Ref sig .tc := ⟨.hbm, 250, rfl⟩
abbrev main_v155 : Ref sig .tc := ⟨.hbm, 251, rfl⟩
abbrev main_v156 : Ref sig .tc := ⟨.hbm, 252, rfl⟩
abbrev main_v157 : Ref sig .tc := ⟨.hbm, 253, rfl⟩
abbrev main_v158 : Ref sig .tc := ⟨.hbm, 254, rfl⟩
abbrev main_v159 : Ref sig .tc := ⟨.hbm, 255, rfl⟩
abbrev main_v160 : Ref sig .tc := ⟨.hbm, 256, rfl⟩
abbrev main_v161 : Ref sig .tc := ⟨.hbm, 257, rfl⟩
abbrev main_v162 : Ref sig .tc := ⟨.hbm, 258, rfl⟩
abbrev main_v163 : Ref sig .tc := ⟨.hbm, 259, rfl⟩
abbrev main_c_86 : Ref sig .tc := ⟨.hbm, 260, rfl⟩
abbrev main_v164 : Ref sig .tc := ⟨.hbm, 261, rfl⟩
abbrev main_v165 : Ref sig .tc := ⟨.hbm, 262, rfl⟩
abbrev main_c_87 : Ref sig .tc := ⟨.hbm, 263, rfl⟩
abbrev main_v166 : Ref sig .tc := ⟨.hbm, 264, rfl⟩
abbrev main_v167 : Ref sig .tc := ⟨.hbm, 265, rfl⟩
abbrev main_v168 : Ref sig .tc := ⟨.hbm, 266, rfl⟩
abbrev main_v169 : Ref sig .tc := ⟨.hbm, 267, rfl⟩
abbrev main_v170 : Ref sig .tc := ⟨.hbm, 268, rfl⟩
abbrev main_cst_88 : Ref sig .tc := ⟨.hbm, 269, rfl⟩
abbrev main_v171 : Ref sig .tc := ⟨.hbm, 270, rfl⟩
abbrev main_v172 : Ref sig .tc := ⟨.hbm, 271, rfl⟩
abbrev main_v173 : Ref sig .tc := ⟨.hbm, 272, rfl⟩
abbrev main_v174 : Ref sig .tc := ⟨.hbm, 273, rfl⟩
abbrev main_v175 : Ref sig .tc := ⟨.hbm, 274, rfl⟩
abbrev main_c_89 : Ref sig .tc := ⟨.hbm, 275, rfl⟩
abbrev main_v176 : Ref sig .tc := ⟨.hbm, 276, rfl⟩
abbrev main_v177 : Ref sig .tc := ⟨.hbm, 277, rfl⟩
abbrev main_c_90 : Ref sig .tc := ⟨.hbm, 278, rfl⟩
abbrev main_v178 : Ref sig .tc := ⟨.hbm, 279, rfl⟩
abbrev main_v179 : Ref sig .tc := ⟨.hbm, 280, rfl⟩
abbrev main_v180 : Ref sig .tc := ⟨.hbm, 281, rfl⟩
abbrev main_v181 : Ref sig .tc := ⟨.hbm, 282, rfl⟩
abbrev main_v182 : Ref sig .tc := ⟨.hbm, 283, rfl⟩
abbrev main_v183 : Ref sig .tc := ⟨.hbm, 284, rfl⟩
abbrev main_v184 : Ref sig .tc := ⟨.hbm, 285, rfl⟩
abbrev main_v185 : Ref sig .tc := ⟨.hbm, 286, rfl⟩
abbrev main_v186 : Ref sig .tc := ⟨.hbm, 287, rfl⟩
abbrev main_v187 : Ref sig .tc := ⟨.hbm, 288, rfl⟩
abbrev main_v188 : Ref sig .tc := ⟨.hbm, 289, rfl⟩
abbrev main_cst_91 : Ref sig .tc := ⟨.hbm, 290, rfl⟩
abbrev main_call3_v0 : Ref sig .tc := ⟨.hbm, 291, rfl⟩
abbrev main_call3_v1 : Ref sig .tc := ⟨.hbm, 292, rfl⟩
abbrev main_call3_v2 : Ref sig .tc := ⟨.hbm, 293, rfl⟩
abbrev main_call3_v3 : Ref sig .tc := ⟨.hbm, 294, rfl⟩
abbrev main_v189 : Ref sig .tc := ⟨.hbm, 295, rfl⟩
abbrev main_v190 : Ref sig .tc := ⟨.hbm, 296, rfl⟩
abbrev main_v191 : Ref sig .tc := ⟨.hbm, 297, rfl⟩
abbrev main_v192 : Ref sig .tc := ⟨.hbm, 298, rfl⟩
abbrev main_v193 : Ref sig .tc := ⟨.hbm, 299, rfl⟩
abbrev main_cst_92 : Ref sig .tc := ⟨.hbm, 300, rfl⟩
abbrev main_v194 : Ref sig .tc := ⟨.hbm, 301, rfl⟩
abbrev main_v195 : Ref sig .tc := ⟨.hbm, 302, rfl⟩
abbrev main_cst_93 : Ref sig .tc := ⟨.hbm, 303, rfl⟩
abbrev main_v196 : Ref sig .tc := ⟨.hbm, 304, rfl⟩
abbrev main_v197 : Ref sig .tc := ⟨.hbm, 305, rfl⟩
abbrev main_v198 : Ref sig .tc := ⟨.hbm, 306, rfl⟩
abbrev main_v199 : Ref sig .tc := ⟨.hbm, 307, rfl⟩
abbrev main_v200 : Ref sig .tc := ⟨.hbm, 308, rfl⟩
abbrev main_v201 : Ref sig .tc := ⟨.hbm, 309, rfl⟩
abbrev main_v202 : Ref sig .tc := ⟨.hbm, 310, rfl⟩
abbrev main_cst_94 : Ref sig .tc := ⟨.hbm, 311, rfl⟩
abbrev main_v203 : Ref sig .tc := ⟨.hbm, 312, rfl⟩
abbrev main_v204 : Ref sig .tc := ⟨.hbm, 313, rfl⟩
abbrev main_cst_95 : Ref sig .tc := ⟨.hbm, 314, rfl⟩
abbrev main_v205 : Ref sig .tc := ⟨.hbm, 315, rfl⟩
abbrev main_v206 : Ref sig .tc := ⟨.hbm, 316, rfl⟩
abbrev main_v207 : Ref sig .tc := ⟨.hbm, 317, rfl⟩
abbrev main_v208 : Ref sig .tc := ⟨.hbm, 318, rfl⟩
abbrev main_v209 : Ref sig .tc := ⟨.hbm, 319, rfl⟩
abbrev main_v210 : Ref sig .tc := ⟨.hbm, 320, rfl⟩
abbrev main_c_96 : Ref sig .tc := ⟨.hbm, 321, rfl⟩
abbrev main_v211 : Ref sig .tc := ⟨.hbm, 322, rfl⟩
abbrev main_v212 : Ref sig .tc := ⟨.hbm, 323, rfl⟩
abbrev main_c_97 : Ref sig .tc := ⟨.hbm, 324, rfl⟩
abbrev main_v213 : Ref sig .tc := ⟨.hbm, 325, rfl⟩
abbrev main_v214 : Ref sig .tc := ⟨.hbm, 326, rfl⟩
abbrev main_c_98 : Ref sig .tc := ⟨.hbm, 327, rfl⟩
abbrev main_v215 : Ref sig .tc := ⟨.hbm, 328, rfl⟩
abbrev main_v216 : Ref sig .tc := ⟨.hbm, 329, rfl⟩
abbrev main_c_99 : Ref sig .tc := ⟨.hbm, 330, rfl⟩
abbrev main_v217 : Ref sig .tc := ⟨.hbm, 331, rfl⟩
abbrev main_v218 : Ref sig .tc := ⟨.hbm, 332, rfl⟩
abbrev main_c_100 : Ref sig .tc := ⟨.hbm, 333, rfl⟩
abbrev main_v219 : Ref sig .tc := ⟨.hbm, 334, rfl⟩
abbrev main_v220 : Ref sig .tc := ⟨.hbm, 335, rfl⟩
abbrev main_v221 : Ref sig .tc := ⟨.hbm, 336, rfl⟩
abbrev main_v222 : Ref sig .tc := ⟨.hbm, 337, rfl⟩
abbrev main_v223 : Ref sig .tc := ⟨.hbm, 338, rfl⟩
abbrev main_v224 : Ref sig .tc := ⟨.hbm, 339, rfl⟩
abbrev main_v225 : Ref sig .tc := ⟨.hbm, 340, rfl⟩
abbrev main_v226 : Ref sig .tc := ⟨.hbm, 341, rfl⟩
abbrev main_v227 : Ref sig .tc := ⟨.hbm, 342, rfl⟩
abbrev main_cst_101 : Ref sig .tc := ⟨.hbm, 343, rfl⟩
abbrev main_v228 : Ref sig .tc := ⟨.hbm, 344, rfl⟩
abbrev main_v229 : Ref sig .tc := ⟨.hbm, 345, rfl⟩
abbrev main_cst_102 : Ref sig .tc := ⟨.hbm, 346, rfl⟩
abbrev main_v230 : Ref sig .tc := ⟨.hbm, 347, rfl⟩
abbrev main_v231 : Ref sig .tc := ⟨.hbm, 348, rfl⟩
abbrev main_v232 : Ref sig .tc := ⟨.hbm, 349, rfl⟩
abbrev main_v233 : Ref sig .tc := ⟨.hbm, 350, rfl⟩
abbrev main_v234 : Ref sig .tc := ⟨.hbm, 351, rfl⟩
abbrev main_cst_103 : Ref sig .tc := ⟨.hbm, 352, rfl⟩
abbrev main_v235 : Ref sig .tc := ⟨.hbm, 353, rfl⟩
abbrev main_v236 : Ref sig .tc := ⟨.hbm, 354, rfl⟩
abbrev main_cst_104 : Ref sig .tc := ⟨.hbm, 355, rfl⟩
abbrev main_v237 : Ref sig .tc := ⟨.hbm, 356, rfl⟩
abbrev main_v238 : Ref sig .tc := ⟨.hbm, 357, rfl⟩
abbrev main_v239 : Ref sig .tc := ⟨.hbm, 358, rfl⟩
abbrev main_v240 : Ref sig .tc := ⟨.hbm, 359, rfl⟩
abbrev main_v241 : Ref sig .tc := ⟨.hbm, 360, rfl⟩
abbrev main_v242 : Ref sig .tc := ⟨.hbm, 361, rfl⟩
abbrev main_c_105 : Ref sig .tc := ⟨.hbm, 362, rfl⟩
abbrev main_v243 : Ref sig .tc := ⟨.hbm, 363, rfl⟩
abbrev main_v244 : Ref sig .tc := ⟨.hbm, 364, rfl⟩
abbrev main_c_106 : Ref sig .tc := ⟨.hbm, 365, rfl⟩
abbrev main_v245 : Ref sig .tc := ⟨.hbm, 366, rfl⟩
abbrev main_v246 : Ref sig .tc := ⟨.hbm, 367, rfl⟩
abbrev main_c_107 : Ref sig .tc := ⟨.hbm, 368, rfl⟩
abbrev main_v247 : Ref sig .tc := ⟨.hbm, 369, rfl⟩
abbrev main_v248 : Ref sig .tc := ⟨.hbm, 370, rfl⟩
abbrev main_c_108 : Ref sig .tc := ⟨.hbm, 371, rfl⟩
abbrev main_v249 : Ref sig .tc := ⟨.hbm, 372, rfl⟩
abbrev main_v250 : Ref sig .tc := ⟨.hbm, 373, rfl⟩
abbrev main_v251 : Ref sig .tc := ⟨.hbm, 374, rfl⟩
abbrev main_v252 : Ref sig .tc := ⟨.hbm, 375, rfl⟩
abbrev main_v253 : Ref sig .tc := ⟨.hbm, 376, rfl⟩
abbrev main_v254 : Ref sig .tc := ⟨.hbm, 377, rfl⟩
abbrev main_v255 : Ref sig .tc := ⟨.hbm, 378, rfl⟩
abbrev main_c_109 : Ref sig .tc := ⟨.hbm, 379, rfl⟩
abbrev main_v256 : Ref sig .tc := ⟨.hbm, 380, rfl⟩
abbrev main_v257 : Ref sig .tc := ⟨.hbm, 381, rfl⟩
abbrev main_v258 : Ref sig .tc := ⟨.hbm, 382, rfl⟩
abbrev main_v259 : Ref sig .tc := ⟨.hbm, 383, rfl⟩
abbrev main_v260 : Ref sig .tc := ⟨.hbm, 384, rfl⟩
abbrev main_v261 : Ref sig .tc := ⟨.hbm, 385, rfl⟩
abbrev main_v262 : Ref sig .tc := ⟨.hbm, 386, rfl⟩
abbrev main_c_110 : Ref sig .tc := ⟨.hbm, 387, rfl⟩
abbrev main_v263 : Ref sig .tc := ⟨.hbm, 388, rfl⟩
abbrev main_v264 : Ref sig .tc := ⟨.hbm, 389, rfl⟩
abbrev main_v265 : Ref sig .tc := ⟨.hbm, 390, rfl⟩
abbrev main_v266 : Ref sig .tc := ⟨.hbm, 391, rfl⟩
abbrev main_v267 : Ref sig .tc := ⟨.hbm, 392, rfl⟩
abbrev main_v268 : Ref sig .tc := ⟨.hbm, 393, rfl⟩
abbrev main_v269 : Ref sig .tc := ⟨.hbm, 394, rfl⟩
abbrev main_v270 : Ref sig .tc := ⟨.hbm, 395, rfl⟩
abbrev main_v271 : Ref sig .tc := ⟨.hbm, 396, rfl⟩
abbrev main_v272 : Ref sig .tc := ⟨.hbm, 397, rfl⟩
abbrev main_v273 : Ref sig .tc := ⟨.hbm, 398, rfl⟩
abbrev main_cst_111 : Ref sig .tc := ⟨.hbm, 399, rfl⟩
abbrev main_call8_v0 : Ref sig .tc := ⟨.hbm, 400, rfl⟩
abbrev main_call8_v1 : Ref sig .tc := ⟨.hbm, 401, rfl⟩
abbrev main_call8_v2 : Ref sig .tc := ⟨.hbm, 402, rfl⟩
abbrev main_v274 : Ref sig .tc := ⟨.hbm, 403, rfl⟩
abbrev main_v275 : Ref sig .tc := ⟨.hbm, 404, rfl⟩
abbrev main_c_112 : Ref sig .tc := ⟨.hbm, 405, rfl⟩
abbrev main_v276 : Ref sig .tc := ⟨.hbm, 406, rfl⟩
abbrev main_v277 : Ref sig .tc := ⟨.hbm, 407, rfl⟩
abbrev main_c_113 : Ref sig .tc := ⟨.hbm, 408, rfl⟩
abbrev main_v278 : Ref sig .tc := ⟨.hbm, 409, rfl⟩
abbrev main_v279 : Ref sig .tc := ⟨.hbm, 410, rfl⟩
abbrev main_v280 : Ref sig .tc := ⟨.hbm, 411, rfl⟩
abbrev main_v281 : Ref sig .tc := ⟨.hbm, 412, rfl⟩
abbrev main_v282 : Ref sig .tc := ⟨.hbm, 413, rfl⟩
abbrev main_cst_114 : Ref sig .tc := ⟨.hbm, 414, rfl⟩
abbrev main_v283 : Ref sig .tc := ⟨.hbm, 415, rfl⟩
abbrev main_v284 : Ref sig .tc := ⟨.hbm, 416, rfl⟩
abbrev main_v285 : Ref sig .tc := ⟨.hbm, 417, rfl⟩
abbrev main_v286 : Ref sig .tc := ⟨.hbm, 418, rfl⟩
abbrev main_v287 : Ref sig .tc := ⟨.hbm, 419, rfl⟩
abbrev main_c_115 : Ref sig .tc := ⟨.hbm, 420, rfl⟩
abbrev main_v288 : Ref sig .tc := ⟨.hbm, 421, rfl⟩
abbrev main_v289 : Ref sig .tc := ⟨.hbm, 422, rfl⟩
abbrev main_c_116 : Ref sig .tc := ⟨.hbm, 423, rfl⟩
abbrev main_v290 : Ref sig .tc := ⟨.hbm, 424, rfl⟩
abbrev main_v291 : Ref sig .tc := ⟨.hbm, 425, rfl⟩
abbrev main_v292 : Ref sig .tc := ⟨.hbm, 426, rfl⟩
abbrev main_v293 : Ref sig .tc := ⟨.hbm, 427, rfl⟩
abbrev main_v294 : Ref sig .tc := ⟨.hbm, 428, rfl⟩
abbrev main_v295 : Ref sig .tc := ⟨.hbm, 429, rfl⟩
abbrev main_v296 : Ref sig .tc := ⟨.hbm, 430, rfl⟩
abbrev main_v297 : Ref sig .tc := ⟨.hbm, 431, rfl⟩
abbrev main_v298 : Ref sig .tc := ⟨.hbm, 432, rfl⟩
abbrev main_v299 : Ref sig .tc := ⟨.hbm, 433, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 3], ![false, false]⟩

def cc0_transform_0 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

abbrev stage0_0 : Fin 2 → Memref sig .tc .vmem S1x1x16x224x224 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x224x224 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x16x224x224 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  bcast_S_S16 : S_.BroadcastsInDim S16 (![] : Fin 0 → Fin S16.rank)
  bcast_S16_S16x1_0 : S16.BroadcastsInDim S16x1 (![0] : Fin 1 → Fin S16x1.rank)
  bcast_S_S16x1 : S_.BroadcastsInDim S16x1 (![] : Fin 0 → Fin S16x1.rank)
  concatenates_S16x1_S16x1_S16x1_S16x1_S16x4_d1 : Shape.Concatenates [S16x1, S16x1, S16x1, S16x1] S16x4 1
  shapeCasts_S16x1x3x60x224_S16x3x60x224 : S16x1x3x60x224.ShapeCasts S16x3x60x224
  shapeCasts_S16x1x3x30x224_S16x3x30x224 : S16x1x3x30x224.ShapeCasts S16x3x30x224
  shapeCasts_S16x1x3x164x60_S16x3x164x60 : S16x1x3x164x60.ShapeCasts S16x3x164x60
  shapeCasts_S16x1x3x164x30_S16x3x164x30 : S16x1x3x164x30.ShapeCasts S16x3x164x30
  concatenates_S16x3x164x60_S16x3x164x30_S16x3x164x90_d3 : Shape.Concatenates [S16x3x164x60, S16x3x164x30] S16x3x164x90 3
  bcast_S_S224 : S_.BroadcastsInDim S224 (![] : Fin 0 → Fin S224.rank)
  bcast_S224_S1x224_1 : S224.BroadcastsInDim S1x224 (![1] : Fin 1 → Fin S1x224.rank)
  bcast_S1x224_S16x224_0_1 : S1x224.BroadcastsInDim S16x224 (![0, 1] : Fin 2 → Fin S16x224.rank)
  bcast_S16x1_S16x224_0_1 : S16x1.BroadcastsInDim S16x224 (![0, 1] : Fin 2 → Fin S16x224.rank)
  bcast_S_S16x224 : S_.BroadcastsInDim S16x224 (![] : Fin 0 → Fin S16x224.rank)
  bcast_S16x224_S16x224x1_0_1 : S16x224.BroadcastsInDim S16x224x1 (![0, 1] : Fin 2 → Fin S16x224x1.rank)
  bcast_S16x224_S16x1x1x224_0_3 : S16x224.BroadcastsInDim S16x1x1x224 (![0, 3] : Fin 2 → Fin S16x1x1x224.rank)
  bcast_S16x1x1x224_S16x3x164x224_0_1_2_3 : S16x1x1x224.BroadcastsInDim S16x3x164x224 (![0, 1, 2, 3] : Fin 4 → Fin S16x3x164x224.rank)
  bcast_S_S3x164x224 : S_.BroadcastsInDim S3x164x224 (![] : Fin 0 → Fin S3x164x224.rank)
  bcast_S3x164x224_S16x3x164x224_1_2_3 : S3x164x224.BroadcastsInDim S16x3x164x224 (![1, 2, 3] : Fin 3 → Fin S16x3x164x224.rank)
  concatenates_S16x3x60x224_S16x3x30x224_S16x3x164x224_S16x3x254x224_d2 : Shape.Concatenates [S16x3x60x224, S16x3x30x224, S16x3x164x224] S16x3x254x224 2
  bcast_S224_S16x224_1 : S224.BroadcastsInDim S16x224 (![1] : Fin 1 → Fin S16x224.rank)
  bcast_S16x224_S16x1x224x1_0_2 : S16x224.BroadcastsInDim S16x1x224x1 (![0, 2] : Fin 2 → Fin S16x1x224x1.rank)
  bcast_S16x1x224x1_S16x3x224x224_0_1_2_3 : S16x1x224x1.BroadcastsInDim S16x3x224x224 (![0, 1, 2, 3] : Fin 4 → Fin S16x3x224x224.rank)
  inb_S1x1x16x224x224_S1x1x16x224x224_0_0_0_0_0 : ∀ a, (![0, 0, 0, 0, 0] : Fin 5 → Nat) a + S1x1x16x224x224.size a ≤ S1x1x16x224x224.size a
  h_S1x1x16x224x224 : 0 < S1x1x16x224x224.numel
  shapeCasts_S1x1x16x224x224_S16x224x224 : S1x1x16x224x224.ShapeCasts S16x224x224
  inb_S1x1x224x224_S1x1x224x224_0_0_0_0 : ∀ a, (![0, 0, 0, 0] : Fin 4 → Nat) a + S1x1x224x224.size a ≤ S1x1x224x224.size a
  h_S1x1x224x224 : 0 < S1x1x224x224.numel
  shapeCasts_S1x1x224x224_S224x224 : S1x1x224x224.ShapeCasts S224x224
  shapeCasts_S224x224_S1x224x224 : S224x224.ShapeCasts S1x224x224
  broadcasts_S1x224x224_S16x224x224 : S1x224x224.Broadcasts S16x224x224
  shapeCasts_S16x224x224_S1x1x16x224x224 : S16x224x224.ShapeCasts S1x1x16x224x224
  gather_S3x3x60x224_S16x4_S16x1x3x60x224_1234_n_n_n_0123_1_1360224_wf : GatherDims.WF S3x3x60x224 S16x4 S16x1x3x60x224 [1, 2, 3, 4] [] [] [0, 1, 2, 3] [] 1 ![1, 3, 60, 224]
  gather_S3x3x30x224_S16x4_S16x1x3x30x224_1234_n_n_n_0123_1_1330224_wf : GatherDims.WF S3x3x30x224 S16x4 S16x1x3x30x224 [1, 2, 3, 4] [] [] [0, 1, 2, 3] [] 1 ![1, 3, 30, 224]
  gather_S3x3x164x60_S16x4_S16x1x3x164x60_1234_n_n_n_0123_1_1316460_wf : GatherDims.WF S3x3x164x60 S16x4 S16x1x3x164x60 [1, 2, 3, 4] [] [] [0, 1, 2, 3] [] 1 ![1, 3, 164, 60]
  gather_S3x3x164x30_S16x4_S16x1x3x164x30_1234_n_n_n_0123_1_1316430_wf : GatherDims.WF S3x3x164x30 S16x4 S16x1x3x164x30 [1, 2, 3, 4] [] [] [0, 1, 2, 3] [] 1 ![1, 3, 164, 30]
  gather_S16x3x164x90_S16x224x1_S16x3x164x224_12_3_0_0_3_2_131641_wf : GatherDims.WF S16x3x164x90 S16x224x1 S16x3x164x224 [1, 2] [3] [0] [3] [0] 2 ![1, 3, 164, 1]
  gather_S16x3x254x224_S16x224x1_S16x3x224x224_13_2_0_0_2_2_131224_wf : GatherDims.WF S16x3x254x224 S16x224x1 S16x3x224x224 [1, 3] [2] [0] [2] [0] 2 ![1, 3, 1, 224]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x16x224x224.size a ≤ S16x3x16x224x224.size a
  hwx0_0 : ∀ i : grid0.Coords, EltTy.bits .f32 = 32 ∨ (Rect.block (s := S16x3x16x224x224) S1x1x16x224x224.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x224x224.size a ≤ S16x3x224x224.size a
  hwx0_1 : ∀ i : grid0.Coords, EltTy.bits .f32 = 32 ∨ (Rect.block (s := S16x3x224x224) S1x1x224x224.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x16x224x224.size a ≤ S16x3x16x224x224.size a
  hwx0_2 : ∀ i : grid0.Coords, EltTy.bits .f32 = 32 ∨ (Rect.block (s := S16x3x16x224x224) S1x1x16x224x224.size (cc0_transform_2 i) (hinb0_2 i)).WholeWords (EltTy.packing .f32)

variable [Facts₀]

def gather_S3x3x60x224_S16x4_S16x1x3x60x224_1234_n_n_n_0123_1_1360224 : GatherDims S3x3x60x224 S16x4 S16x1x3x60x224 where
  offsetDims := [1, 2, 3, 4]
  collapsedSliceDims := []
  operandBatchingDims := []
  startIndicesBatchingDims := []
  startIndexMap := [0, 1, 2, 3]
  indexVectorDim := 1
  sliceSizes := ![1, 3, 60, 224]
  wf := gather_S3x3x60x224_S16x4_S16x1x3x60x224_1234_n_n_n_0123_1_1360224_wf
def gather_S3x3x30x224_S16x4_S16x1x3x30x224_1234_n_n_n_0123_1_1330224 : GatherDims S3x3x30x224 S16x4 S16x1x3x30x224 where
  offsetDims := [1, 2, 3, 4]
  collapsedSliceDims := []
  operandBatchingDims := []
  startIndicesBatchingDims := []
  startIndexMap := [0, 1, 2, 3]
  indexVectorDim := 1
  sliceSizes := ![1, 3, 30, 224]
  wf := gather_S3x3x30x224_S16x4_S16x1x3x30x224_1234_n_n_n_0123_1_1330224_wf
def gather_S3x3x164x60_S16x4_S16x1x3x164x60_1234_n_n_n_0123_1_1316460 : GatherDims S3x3x164x60 S16x4 S16x1x3x164x60 where
  offsetDims := [1, 2, 3, 4]
  collapsedSliceDims := []
  operandBatchingDims := []
  startIndicesBatchingDims := []
  startIndexMap := [0, 1, 2, 3]
  indexVectorDim := 1
  sliceSizes := ![1, 3, 164, 60]
  wf := gather_S3x3x164x60_S16x4_S16x1x3x164x60_1234_n_n_n_0123_1_1316460_wf
def gather_S3x3x164x30_S16x4_S16x1x3x164x30_1234_n_n_n_0123_1_1316430 : GatherDims S3x3x164x30 S16x4 S16x1x3x164x30 where
  offsetDims := [1, 2, 3, 4]
  collapsedSliceDims := []
  operandBatchingDims := []
  startIndicesBatchingDims := []
  startIndexMap := [0, 1, 2, 3]
  indexVectorDim := 1
  sliceSizes := ![1, 3, 164, 30]
  wf := gather_S3x3x164x30_S16x4_S16x1x3x164x30_1234_n_n_n_0123_1_1316430_wf
def gather_S16x3x164x90_S16x224x1_S16x3x164x224_12_3_0_0_3_2_131641 : GatherDims S16x3x164x90 S16x224x1 S16x3x164x224 where
  offsetDims := [1, 2]
  collapsedSliceDims := [3]
  operandBatchingDims := [0]
  startIndicesBatchingDims := [0]
  startIndexMap := [3]
  indexVectorDim := 2
  sliceSizes := ![1, 3, 164, 1]
  wf := gather_S16x3x164x90_S16x224x1_S16x3x164x224_12_3_0_0_3_2_131641_wf
def gather_S16x3x254x224_S16x224x1_S16x3x224x224_13_2_0_0_2_2_131224 : GatherDims S16x3x254x224 S16x224x1 S16x3x224x224 where
  offsetDims := [1, 3]
  collapsedSliceDims := [2]
  operandBatchingDims := [0]
  startIndicesBatchingDims := [0]
  startIndexMap := [2]
  indexVectorDim := 2
  sliceSizes := ![1, 3, 1, 224]
  wf := gather_S16x3x254x224_S16x224x1_S16x3x224x224_13_2_0_0_2_2_131224_wf

abbrev win0_0 : Pipeline.Window sig grid0 :=
  Pipeline.Window.ofSpec (Memref.whole main_arg0) S1x1x16x224x224.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v298) S1x1x224x224.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v299) S1x1x16x224x224.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16x3x16x224x224 : Shape := ⟨5, ![16, 3, 16, 224, 224]⟩
abbrev S3x3x60x224 : Shape := ⟨4, ![3, 3, 60, 224]⟩
abbrev S3x3x30x224 : Shape := ⟨4, ![3, 3, 30, 224]⟩
abbrev S3x3x164x60 : Shape := ⟨4, ![3, 3, 164, 60]⟩
abbrev S3x3x164x30 : Shape := ⟨4, ![3, 3, 164, 30]⟩
abbrev S16 : Shape := ⟨1, ![16]⟩
abbrev S_ : Shape := ⟨0, ![]⟩
abbrev S16x1 : Shape := ⟨2, ![16, 1]⟩
abbrev S16x4 : Shape := ⟨2, ![16, 4]⟩
abbrev S16x1x3x60x224 : Shape := ⟨5, ![16, 1, 3, 60, 224]⟩
abbrev S16x3x60x224 : Shape := ⟨4, ![16, 3, 60, 224]⟩
abbrev S16x1x3x30x224 : Shape := ⟨5, ![16, 1, 3, 30, 224]⟩
abbrev S16x3x30x224 : Shape := ⟨4, ![16, 3, 30, 224]⟩
abbrev S16x1x3x164x60 : Shape := ⟨5, ![16, 1, 3, 164, 60]⟩
abbrev S16x3x164x60 : Shape := ⟨4, ![16, 3, 164, 60]⟩
abbrev S16x1x3x164x30 : Shape := ⟨5, ![16, 1, 3, 164, 30]⟩
abbrev S16x3x164x30 : Shape := ⟨4, ![16, 3, 164, 30]⟩
abbrev S224 : Shape := ⟨1, ![224]⟩
abbrev S16x3x164x90 : Shape := ⟨4, ![16, 3, 164, 90]⟩
abbrev S1x224 : Shape := ⟨2, ![1, 224]⟩
abbrev S16x224 : Shape := ⟨2, ![16, 224]⟩
abbrev S16x224x1 : Shape := ⟨3, ![16, 224, 1]⟩
abbrev S16x3x164x224 : Shape := ⟨4, ![16, 3, 164, 224]⟩
abbrev S16x1x1x224 : Shape := ⟨4, ![16, 1, 1, 224]⟩
abbrev S3x164x224 : Shape := ⟨3, ![3, 164, 224]⟩
abbrev S16x3x254x224 : Shape := ⟨4, ![16, 3, 254, 224]⟩
abbrev S16x3x224x224 : Shape := ⟨4, ![16, 3, 224, 224]⟩
abbrev S16x1x224x1 : Shape := ⟨4, ![16, 1, 224, 1]⟩
abbrev S16x3x1x224x224 : Shape := ⟨5, ![16, 3, 1, 224, 224]⟩

abbrev nBuf : Space → Nat
  | .hbm => 436
  | .vmem => 0
  | .smem => 0
  | _ => 0

abbrev hbmTy0_0 (i : Nat) : BufTy := match i % 128 with
  | 0 => ⟨S16x3x16x224x224, .f32⟩
  | 1 => ⟨S3x3x60x224, .f32⟩
  | 2 => ⟨S3x3x30x224, .f32⟩
  | 3 => ⟨S3x3x164x60, .f32⟩
  | 4 => ⟨S3x3x164x30, .f32⟩
  | 5 => ⟨S16, .i32⟩
  | 6 => ⟨S16, .i32⟩
  | 7 => ⟨S16, .i32⟩
  | 8 => ⟨S_, .i32⟩
  | 9 => ⟨S16, .i32⟩
  | 10 => ⟨S16, .i1⟩
  | 11 => ⟨S_, .i32⟩
  | 12 => ⟨S16, .i32⟩
  | 13 => ⟨S16, .i32⟩
  | 14 => ⟨S16, .i32⟩
  | 15 => ⟨S_, .i32⟩
  | 16 => ⟨S_, .i32⟩
  | 17 => ⟨S_, .i1⟩
  | 18 => ⟨S_, .i32⟩
  | 19 => ⟨S_, .i32⟩
  | 20 => ⟨S_, .i32⟩
  | 21 => ⟨S_, .i32⟩
  | 22 => ⟨S_, .i32⟩
  | 23 => ⟨S_, .i32⟩
  | 24 => ⟨S_, .i32⟩
  | 25 => ⟨S_, .i1⟩
  | 26 => ⟨S_, .i32⟩
  | 27 => ⟨S_, .i32⟩
  | 28 => ⟨S_, .i32⟩
  | 29 => ⟨S_, .i32⟩
  | 30 => ⟨S_, .i32⟩
  | 31 => ⟨S_, .i32⟩
  | 32 => ⟨S_, .i32⟩
  | 33 => ⟨S_, .i1⟩
  | 34 => ⟨S_, .i32⟩
  | 35 => ⟨S_, .i32⟩
  | 36 => ⟨S_, .i32⟩
  | 37 => ⟨S_, .i32⟩
  | 38 => ⟨S_, .i32⟩
  | 39 => ⟨S16x1, .i32⟩
  | 40 => ⟨S16x1, .i32⟩
  | 41 => ⟨S16x1, .i32⟩
  | 42 => ⟨S16x1, .i32⟩
  | 43 => ⟨S16x4, .i32⟩
  | 44 => ⟨S16x1x3x60x224, .f32⟩
  | 45 => ⟨S16x3x60x224, .f32⟩
  | 46 => ⟨S_, .i32⟩
  | 47 => ⟨S16, .i32⟩
  | 48 => ⟨S16, .i1⟩
  | 49 => ⟨S_, .i32⟩
  | 50 => ⟨S16, .i32⟩
  | 51 => ⟨S16, .i32⟩
  | 52 => ⟨S16, .i32⟩
  | 53 => ⟨S_, .i32⟩
  | 54 => ⟨S_, .i32⟩
  | 55 => ⟨S_, .i1⟩
  | 56 => ⟨S_, .i32⟩
  | 57 => ⟨S_, .i32⟩
  | 58 => ⟨S_, .i32⟩
  | 59 => ⟨S_, .i32⟩
  | 60 => ⟨S_, .i32⟩
  | 61 => ⟨S_, .i32⟩
  | 62 => ⟨S_, .i32⟩
  | 63 => ⟨S_, .i1⟩
  | 64 => ⟨S_, .i32⟩
  | 65 => ⟨S_, .i32⟩
  | 66 => ⟨S_, .i32⟩
  | 67 => ⟨S_, .i32⟩
  | 68 => ⟨S_, .i32⟩
  | 69 => ⟨S_, .i32⟩
  | 70 => ⟨S_, .i32⟩
  | 71 => ⟨S_, .i1⟩
  | 72 => ⟨S_, .i32⟩
  | 73 => ⟨S_, .i32⟩
  | 74 => ⟨S_, .i32⟩
  | 75 => ⟨S_, .i32⟩
  | 76 => ⟨S_, .i32⟩
  | 77 => ⟨S16x1, .i32⟩
  | 78 => ⟨S16x1, .i32⟩
  | 79 => ⟨S16x1, .i32⟩
  | 80 => ⟨S16x1, .i32⟩
  | 81 => ⟨S16x4, .i32⟩
  | 82 => ⟨S16x1x3x30x224, .f32⟩
  | 83 => ⟨S16x3x30x224, .f32⟩
  | 84 => ⟨S_, .i32⟩
  | 85 => ⟨S16, .i32⟩
  | 86 => ⟨S16, .i1⟩
  | 87 => ⟨S_, .i32⟩
  | 88 => ⟨S16, .i32⟩
  | 89 => ⟨S16, .i32⟩
  | 90 => ⟨S16, .i32⟩
  | 91 => ⟨S_, .i32⟩
  | 92 => ⟨S_, .i32⟩
  | 93 => ⟨S_, .i1⟩
  | 94 => ⟨S_, .i32⟩
  | 95 => ⟨S_, .i32⟩
  | 96 => ⟨S_, .i32⟩
  | 97 => ⟨S_, .i32⟩
  | 98 => ⟨S_, .i32⟩
  | 99 => ⟨S_, .i32⟩
  | 100 => ⟨S_, .i32⟩
  | 101 => ⟨S_, .i1⟩
  | 102 => ⟨S_, .i32⟩
  | 103 => ⟨S_, .i32⟩
  | 104 => ⟨S_, .i32⟩
  | 105 => ⟨S_, .i32⟩
  | 106 => ⟨S_, .i32⟩
  | 107 => ⟨S_, .i32⟩
  | 108 => ⟨S_, .i32⟩
  | 109 => ⟨S_, .i1⟩
  | 110 => ⟨S_, .i32⟩
  | 111 => ⟨S_, .i32⟩
  | 112 => ⟨S_, .i32⟩
  | 113 => ⟨S_, .i32⟩
  | 114 => ⟨S_, .i32⟩
  | 115 => ⟨S16x1, .i32⟩
  | 116 => ⟨S16x1, .i32⟩
  | 117 => ⟨S16x1, .i32⟩
  | 118 => ⟨S16x1, .i32⟩
  | 119 => ⟨S16x4, .i32⟩
  | 120 => ⟨S16x1x3x164x60, .f32⟩
  | 121 => ⟨S16x3x164x60, .f32⟩
  | 122 => ⟨S_, .i32⟩
  | 123 => ⟨S16, .i32⟩
  | 124 => ⟨S16, .i1⟩
  | 125 => ⟨S_, .i32⟩
  | 126 => ⟨S16, .i32⟩
  | 127 => ⟨S16, .i32⟩
  | _ => ⟨S16x3x16x224x224, .f32⟩

abbrev hbmTy0_1 (i : Nat) : BufTy := match i % 128 with
  | 0 => ⟨S16, .i32⟩
  | 1 => ⟨S_, .i32⟩
  | 2 => ⟨S_, .i32⟩
  | 3 => ⟨S_, .i1⟩
  | 4 => ⟨S_, .i32⟩
  | 5 => ⟨S_, .i32⟩
  | 6 => ⟨S_, .i32⟩
  | 7 => ⟨S_, .i32⟩
  | 8 => ⟨S_, .i32⟩
  | 9 => ⟨S_, .i32⟩
  | 10 => ⟨S_, .i32⟩
  | 11 => ⟨S_, .i1⟩
  | 12 => ⟨S_, .i32⟩
  | 13 => ⟨S_, .i32⟩
  | 14 => ⟨S_, .i32⟩
  | 15 => ⟨S_, .i32⟩
  | 16 => ⟨S_, .i32⟩
  | 17 => ⟨S_, .i32⟩
  | 18 => ⟨S_, .i32⟩
  | 19 => ⟨S_, .i1⟩
  | 20 => ⟨S_, .i32⟩
  | 21 => ⟨S_, .i32⟩
  | 22 => ⟨S_, .i32⟩
  | 23 => ⟨S_, .i32⟩
  | 24 => ⟨S_, .i32⟩
  | 25 => ⟨S16x1, .i32⟩
  | 26 => ⟨S16x1, .i32⟩
  | 27 => ⟨S16x1, .i32⟩
  | 28 => ⟨S16x1, .i32⟩
  | 29 => ⟨S16x4, .i32⟩
  | 30 => ⟨S16x1x3x164x30, .f32⟩
  | 31 => ⟨S16x3x164x30, .f32⟩
  | 32 => ⟨S_, .i32⟩
  | 33 => ⟨S16, .i32⟩
  | 34 => ⟨S16, .i32⟩
  | 35 => ⟨S_, .i32⟩
  | 36 => ⟨S16, .i32⟩
  | 37 => ⟨S16, .i32⟩
  | 38 => ⟨S224, .i32⟩
  | 39 => ⟨S224, .f32⟩
  | 40 => ⟨S16x3x164x90, .f32⟩
  | 41 => ⟨S16, .f32⟩
  | 42 => ⟨S_, .f32⟩
  | 43 => ⟨S16, .f32⟩
  | 44 => ⟨S16, .f32⟩
  | 45 => ⟨S_, .f32⟩
  | 46 => ⟨S224, .f32⟩
  | 47 => ⟨S224, .f32⟩
  | 48 => ⟨S1x224, .f32⟩
  | 49 => ⟨S16x1, .f32⟩
  | 50 => ⟨S16x224, .f32⟩
  | 51 => ⟨S16x224, .f32⟩
  | 52 => ⟨S16x224, .f32⟩
  | 53 => ⟨S_, .f32⟩
  | 54 => ⟨S16x224, .f32⟩
  | 55 => ⟨S16x224, .f32⟩
  | 56 => ⟨S_, .f32⟩
  | 57 => ⟨S16x224, .f32⟩
  | 58 => ⟨S16x224, .f32⟩
  | 59 => ⟨S16x224, .f32⟩
  | 60 => ⟨S16x224, .i32⟩
  | 61 => ⟨S16x224, .f32⟩
  | 62 => ⟨S16x224, .f32⟩
  | 63 => ⟨S_, .i32⟩
  | 64 => ⟨S16x224, .i32⟩
  | 65 => ⟨S16x224, .i32⟩
  | 66 => ⟨S_, .i32⟩
  | 67 => ⟨S16x224, .i32⟩
  | 68 => ⟨S16x224, .i32⟩
  | 69 => ⟨S_, .i32⟩
  | 70 => ⟨S16x224, .i32⟩
  | 71 => ⟨S16x224, .i32⟩
  | 72 => ⟨S_, .i32⟩
  | 73 => ⟨S16x224, .i32⟩
  | 74 => ⟨S16x224, .i32⟩
  | 75 => ⟨S_, .i32⟩
  | 76 => ⟨S16, .i32⟩
  | 77 => ⟨S16, .i32⟩
  | 78 => ⟨S16, .f32⟩
  | 79 => ⟨S1x224, .f32⟩
  | 80 => ⟨S16x1, .f32⟩
  | 81 => ⟨S16x224, .f32⟩
  | 82 => ⟨S16x224, .f32⟩
  | 83 => ⟨S16x224, .f32⟩
  | 84 => ⟨S16, .f32⟩
  | 85 => ⟨S_, .f32⟩
  | 86 => ⟨S16, .f32⟩
  | 87 => ⟨S16, .f32⟩
  | 88 => ⟨S_, .f32⟩
  | 89 => ⟨S16x224, .f32⟩
  | 90 => ⟨S16x224, .f32⟩
  | 91 => ⟨S16x1, .f32⟩
  | 92 => ⟨S16x224, .f32⟩
  | 93 => ⟨S16x224, .f32⟩
  | 94 => ⟨S_, .f32⟩
  | 95 => ⟨S16x224, .f32⟩
  | 96 => ⟨S16x224, .f32⟩
  | 97 => ⟨S_, .f32⟩
  | 98 => ⟨S16x224, .f32⟩
  | 99 => ⟨S16x224, .f32⟩
  | 100 => ⟨S16x224, .f32⟩
  | 101 => ⟨S16x224, .i32⟩
  | 102 => ⟨S16x224, .f32⟩
  | 103 => ⟨S16x224, .f32⟩
  | 104 => ⟨S_, .i32⟩
  | 105 => ⟨S16x224, .i32⟩
  | 106 => ⟨S16x224, .i32⟩
  | 107 => ⟨S_, .i32⟩
  | 108 => ⟨S16x224, .i32⟩
  | 109 => ⟨S16x224, .i32⟩
  | 110 => ⟨S_, .i32⟩
  | 111 => ⟨S16x224, .i32⟩
  | 112 => ⟨S16x224, .i32⟩
  | 113 => ⟨S_, .i32⟩
  | 114 => ⟨S16x224, .i32⟩
  | 115 => ⟨S16x224, .i32⟩
  | 116 => ⟨S1x224, .i32⟩
  | 117 => ⟨S16x1, .i32⟩
  | 118 => ⟨S16x224, .i32⟩
  | 119 => ⟨S16x224, .i32⟩
  | 120 => ⟨S16x224, .i1⟩
  | 121 => ⟨S_, .i32⟩
  | 122 => ⟨S16, .i32⟩
  | 123 => ⟨S16, .i32⟩
  | 124 => ⟨S1x224, .i32⟩
  | 125 => ⟨S16x1, .i32⟩
  | 126 => ⟨S16x224, .i32⟩
  | 127 => ⟨S16x224, .i32⟩
  | _ => ⟨S16x3x16x224x224, .f32⟩

abbrev hbmTy0_2 (i : Nat) : BufTy := match i % 128 with
  | 0 => ⟨S16x224, .i1⟩
  | 1 => ⟨S16x224, .i32⟩
  | 2 => ⟨S16x224, .i32⟩
  | 3 => ⟨S16x224, .f32⟩
  | 4 => ⟨S_, .i32⟩
  | 5 => ⟨S16x224, .i32⟩
  | 6 => ⟨S16x224, .i1⟩
  | 7 => ⟨S_, .i32⟩
  | 8 => ⟨S16x224, .i32⟩
  | 9 => ⟨S16x224, .i32⟩
  | 10 => ⟨S16x224, .i32⟩
  | 11 => ⟨S16x224x1, .i32⟩
  | 12 => ⟨S16x3x164x224, .f32⟩
  | 13 => ⟨S_, .f32⟩
  | 14 => ⟨S16x224, .f32⟩
  | 15 => ⟨S16x224, .f32⟩
  | 16 => ⟨S16x1x1x224, .f32⟩
  | 17 => ⟨S16x3x164x224, .f32⟩
  | 18 => ⟨S16x3x164x224, .f32⟩
  | 19 => ⟨S_, .i32⟩
  | 20 => ⟨S16x224, .i32⟩
  | 21 => ⟨S16x224, .i1⟩
  | 22 => ⟨S_, .i32⟩
  | 23 => ⟨S16x224, .i32⟩
  | 24 => ⟨S16x224, .i32⟩
  | 25 => ⟨S16x224, .i32⟩
  | 26 => ⟨S16x224x1, .i32⟩
  | 27 => ⟨S16x3x164x224, .f32⟩
  | 28 => ⟨S16x1x1x224, .f32⟩
  | 29 => ⟨S16x3x164x224, .f32⟩
  | 30 => ⟨S16x3x164x224, .f32⟩
  | 31 => ⟨S16x3x164x224, .f32⟩
  | 32 => ⟨S16x224, .i1⟩
  | 33 => ⟨S16x1x1x224, .i1⟩
  | 34 => ⟨S_, .f32⟩
  | 35 => ⟨S_, .f32⟩
  | 36 => ⟨S16x3x164x224, .i1⟩
  | 37 => ⟨S3x164x224, .f32⟩
  | 38 => ⟨S16x3x164x224, .f32⟩
  | 39 => ⟨S16x3x164x224, .f32⟩
  | 40 => ⟨S16x3x254x224, .f32⟩
  | 41 => ⟨S224, .i32⟩
  | 42 => ⟨S224, .f32⟩
  | 43 => ⟨S16, .f32⟩
  | 44 => ⟨S_, .f32⟩
  | 45 => ⟨S16, .f32⟩
  | 46 => ⟨S16, .f32⟩
  | 47 => ⟨S_, .f32⟩
  | 48 => ⟨S224, .f32⟩
  | 49 => ⟨S224, .f32⟩
  | 50 => ⟨S1x224, .f32⟩
  | 51 => ⟨S16x1, .f32⟩
  | 52 => ⟨S16x224, .f32⟩
  | 53 => ⟨S16x224, .f32⟩
  | 54 => ⟨S16x224, .f32⟩
  | 55 => ⟨S_, .f32⟩
  | 56 => ⟨S16x224, .f32⟩
  | 57 => ⟨S16x224, .f32⟩
  | 58 => ⟨S_, .f32⟩
  | 59 => ⟨S16x224, .f32⟩
  | 60 => ⟨S16x224, .f32⟩
  | 61 => ⟨S16x224, .f32⟩
  | 62 => ⟨S16x224, .i32⟩
  | 63 => ⟨S16x224, .f32⟩
  | 64 => ⟨S16x224, .f32⟩
  | 65 => ⟨S_, .i32⟩
  | 66 => ⟨S16x224, .i32⟩
  | 67 => ⟨S16x224, .i32⟩
  | 68 => ⟨S_, .i32⟩
  | 69 => ⟨S16x224, .i32⟩
  | 70 => ⟨S16x224, .i32⟩
  | 71 => ⟨S_, .i32⟩
  | 72 => ⟨S16x224, .i32⟩
  | 73 => ⟨S16x224, .i32⟩
  | 74 => ⟨S_, .i32⟩
  | 75 => ⟨S16x224, .i32⟩
  | 76 => ⟨S16x224, .i32⟩
  | 77 => ⟨S_, .i32⟩
  | 78 => ⟨S16, .i32⟩
  | 79 => ⟨S16, .i32⟩
  | 80 => ⟨S16, .f32⟩
  | 81 => ⟨S1x224, .f32⟩
  | 82 => ⟨S16x1, .f32⟩
  | 83 => ⟨S16x224, .f32⟩
  | 84 => ⟨S16x224, .f32⟩
  | 85 => ⟨S16x224, .f32⟩
  | 86 => ⟨S16, .f32⟩
  | 87 => ⟨S_, .f32⟩
  | 88 => ⟨S16, .f32⟩
  | 89 => ⟨S16, .f32⟩
  | 90 => ⟨S_, .f32⟩
  | 91 => ⟨S16x224, .f32⟩
  | 92 => ⟨S16x224, .f32⟩
  | 93 => ⟨S16x1, .f32⟩
  | 94 => ⟨S16x224, .f32⟩
  | 95 => ⟨S16x224, .f32⟩
  | 96 => ⟨S_, .f32⟩
  | 97 => ⟨S16x224, .f32⟩
  | 98 => ⟨S16x224, .f32⟩
  | 99 => ⟨S_, .f32⟩
  | 100 => ⟨S16x224, .f32⟩
  | 101 => ⟨S16x224, .f32⟩
  | 102 => ⟨S16x224, .f32⟩
  | 103 => ⟨S16x224, .i32⟩
  | 104 => ⟨S16x224, .f32⟩
  | 105 => ⟨S16x224, .f32⟩
  | 106 => ⟨S_, .i32⟩
  | 107 => ⟨S16x224, .i32⟩
  | 108 => ⟨S16x224, .i32⟩
  | 109 => ⟨S_, .i32⟩
  | 110 => ⟨S16x224, .i32⟩
  | 111 => ⟨S16x224, .i32⟩
  | 112 => ⟨S_, .i32⟩
  | 113 => ⟨S16x224, .i32⟩
  | 114 => ⟨S16x224, .i32⟩
  | 115 => ⟨S_, .i32⟩
  | 116 => ⟨S16x224, .i32⟩
  | 117 => ⟨S16x224, .i32⟩
  | 118 => ⟨S1x224, .i32⟩
  | 119 => ⟨S16x1, .i32⟩
  | 120 => ⟨S16x224, .i32⟩
  | 121 => ⟨S16x224, .i32⟩
  | 122 => ⟨S16x224, .i32⟩
  | 123 => ⟨S_, .i32⟩
  | 124 => ⟨S16x224, .i32⟩
  | 125 => ⟨S16x224, .i32⟩
  | 126 => ⟨S1x224, .i32⟩
  | 127 => ⟨S16x1, .i32⟩
  | _ => ⟨S16x3x16x224x224, .f32⟩

abbrev hbmTy0_3 (i : Nat) : BufTy := match i % 128 with
  | 0 => ⟨S16x224, .i32⟩
  | 1 => ⟨S16x224, .i32⟩
  | 2 => ⟨S16x224, .i1⟩
  | 3 => ⟨S_, .i32⟩
  | 4 => ⟨S16, .i32⟩
  | 5 => ⟨S16, .i32⟩
  | 6 => ⟨S1x224, .i32⟩
  | 7 => ⟨S16x1, .i32⟩
  | 8 => ⟨S16x224, .i32⟩
  | 9 => ⟨S16x224, .i32⟩
  | 10 => ⟨S16x224, .i1⟩
  | 11 => ⟨S16x224, .i32⟩
  | 12 => ⟨S16x224, .i32⟩
  | 13 => ⟨S16x224, .i32⟩
  | 14 => ⟨S16x224, .i32⟩
  | 15 => ⟨S_, .f32⟩
  | 16 => ⟨S_, .f32⟩
  | 17 => ⟨S224, .f32⟩
  | 18 => ⟨S16x224, .f32⟩
  | 19 => ⟨S16x224, .f32⟩
  | 20 => ⟨S16x224, .f32⟩
  | 21 => ⟨S_, .i32⟩
  | 22 => ⟨S16x224, .i32⟩
  | 23 => ⟨S16x224, .i1⟩
  | 24 => ⟨S_, .i32⟩
  | 25 => ⟨S16x224, .i32⟩
  | 26 => ⟨S16x224, .i32⟩
  | 27 => ⟨S16x224, .i32⟩
  | 28 => ⟨S16x224x1, .i32⟩
  | 29 => ⟨S16x3x224x224, .f32⟩
  | 30 => ⟨S_, .f32⟩
  | 31 => ⟨S16x224, .f32⟩
  | 32 => ⟨S16x224, .f32⟩
  | 33 => ⟨S16x1x224x1, .f32⟩
  | 34 => ⟨S16x3x224x224, .f32⟩
  | 35 => ⟨S16x3x224x224, .f32⟩
  | 36 => ⟨S_, .i32⟩
  | 37 => ⟨S16x224, .i32⟩
  | 38 => ⟨S16x224, .i1⟩
  | 39 => ⟨S_, .i32⟩
  | 40 => ⟨S16x224, .i32⟩
  | 41 => ⟨S16x224, .i32⟩
  | 42 => ⟨S16x224, .i32⟩
  | 43 => ⟨S16x224x1, .i32⟩
  | 44 => ⟨S16x3x224x224, .f32⟩
  | 45 => ⟨S16x1x224x1, .f32⟩
  | 46 => ⟨S16x3x224x224, .f32⟩
  | 47 => ⟨S16x3x224x224, .f32⟩
  | 48 => ⟨S16x3x224x224, .f32⟩
  | 49 => ⟨S16x3x1x224x224, .f32⟩
  | 50 => ⟨S16x3x16x224x224, .f32⟩
  | 51 => ⟨S16x3x16x224x224, .f32⟩
  | _ => ⟨S16x3x16x224x224, .f32⟩

abbrev hbmTy (i : Nat) : BufTy := match i / 128 with
  | 0 => hbmTy0_0 i
  | 1 => hbmTy0_1 i
  | 2 => hbmTy0_2 i
  | 3 => hbmTy0_3 i
  | _ => ⟨S16x3x16x224x224, .f32⟩

abbrev bufTy : (tb : Table) → Fin (tcTables nBuf tb) → BufTy
  | .hbm, ⟨i, _⟩ => hbmTy i
  | _, _ => ⟨S16x3x16x224x224, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_c_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_c_1 : Ref sig .tc := ⟨.hbm, 15, rfl⟩
abbrev main_c_2 : Ref sig .tc := ⟨.hbm, 16, rfl⟩
abbrev main_v5 : Ref sig .tc := ⟨.hbm, 17, rfl⟩
abbrev main_c_3 : Ref sig .tc := ⟨.hbm, 18, rfl⟩
abbrev main_c_4 : Ref sig .tc := ⟨.hbm, 19, rfl⟩
abbrev main_v6 : Ref sig .tc := ⟨.hbm, 20, rfl⟩
abbrev main_c_5 : Ref sig .tc := ⟨.hbm, 21, rfl⟩
abbrev main_v7 : Ref sig .tc := ⟨.hbm, 22, rfl⟩
abbrev main_c_6 : Ref sig .tc := ⟨.hbm, 23, rfl⟩
abbrev main_c_7 : Ref sig .tc := ⟨.hbm, 24, rfl⟩
abbrev main_v8 : Ref sig .tc := ⟨.hbm, 25, rfl⟩
abbrev main_c_8 : Ref sig .tc := ⟨.hbm, 26, rfl⟩
abbrev main_c_9 : Ref sig .tc := ⟨.hbm, 27, rfl⟩
abbrev main_v9 : Ref sig .tc := ⟨.hbm, 28, rfl⟩
abbrev main_c_10 : Ref sig .tc := ⟨.hbm, 29, rfl⟩
abbrev main_v10 : Ref sig .tc := ⟨.hbm, 30, rfl⟩
abbrev main_c_11 : Ref sig .tc := ⟨.hbm, 31, rfl⟩
abbrev main_c_12 : Ref sig .tc := ⟨.hbm, 32, rfl⟩
abbrev main_v11 : Ref sig .tc := ⟨.hbm, 33, rfl⟩
abbrev main_c_13 : Ref sig .tc := ⟨.hbm, 34, rfl⟩
abbrev main_c_14 : Ref sig .tc := ⟨.hbm, 35, rfl⟩
abbrev main_v12 : Ref sig .tc := ⟨.hbm, 36, rfl⟩
abbrev main_c_15 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_c_16 : Ref sig .tc := ⟨.hbm, 46, rfl⟩
abbrev main_v21 : Ref sig .tc := ⟨.hbm, 47, rfl⟩
abbrev main_v22 : Ref sig .tc := ⟨.hbm, 48, rfl⟩
abbrev main_c_17 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_c_18 : Ref sig .tc := ⟨.hbm, 53, rfl⟩
abbrev main_c_19 : Ref sig .tc := ⟨.hbm, 54, rfl⟩
abbrev main_v26 : Ref sig .tc := ⟨.hbm, 55, rfl⟩
abbrev main_c_20 : Ref sig .tc := ⟨.hbm, 56, rfl⟩
abbrev main_c_21 : Ref sig .tc := ⟨.hbm, 57, rfl⟩
abbrev main_v27 : Ref sig .tc := ⟨.hbm, 58, rfl⟩
abbrev main_c_22 : Ref sig .tc := ⟨.hbm, 59, rfl⟩
abbrev main_v28 : Ref sig .tc := ⟨.hbm, 60, rfl⟩
abbrev main_c_23 : Ref sig .tc := ⟨.hbm, 61, rfl⟩
abbrev main_c_24 : Ref sig .tc := ⟨.hbm, 62, rfl⟩
abbrev main_v29 : Ref sig .tc := ⟨.hbm, 63, rfl⟩
abbrev main_c_25 : Ref sig .tc := ⟨.hbm, 64, rfl⟩
abbrev main_c_26 : Ref sig .tc := ⟨.hbm, 65, rfl⟩
abbrev main_v30 : Ref sig .tc := ⟨.hbm, 66, rfl⟩
abbrev main_c_27 : Ref sig .tc := ⟨.hbm, 67, rfl⟩
abbrev main_v31 : Ref sig .tc := ⟨.hbm, 68, rfl⟩
abbrev main_c_28 : Ref sig .tc := ⟨.hbm, 69, rfl⟩
abbrev main_c_29 : Ref sig .tc := ⟨.hbm, 70, rfl⟩
abbrev main_v32 : Ref sig .tc := ⟨.hbm, 71, rfl⟩
abbrev main_c_30 : Ref sig .tc := ⟨.hbm, 72, rfl⟩
abbrev main_c_31 : Ref sig .tc := ⟨.hbm, 73, rfl⟩
abbrev main_v33 : Ref sig .tc := ⟨.hbm, 74, rfl⟩
abbrev main_c_32 : Ref sig .tc := ⟨.hbm, 75, rfl⟩
abbrev main_v34 : Ref sig .tc := ⟨.hbm, 76, rfl⟩
abbrev main_v35 : Ref sig .tc := ⟨.hbm, 77, rfl⟩
abbrev main_v36 : Ref sig .tc := ⟨.hbm, 78, rfl⟩
abbrev main_v37 : Ref sig .tc := ⟨.hbm, 79, rfl⟩
abbrev main_v38 : Ref sig .tc := ⟨.hbm, 80, rfl⟩
abbrev main_v39 : Ref sig .tc := ⟨.hbm, 81, rfl⟩
abbrev main_v40 : Ref sig .tc := ⟨.hbm, 82, rfl⟩
abbrev main_v41 : Ref sig .tc := ⟨.hbm, 83, rfl⟩
abbrev main_c_33 : Ref sig .tc := ⟨.hbm, 84, rfl⟩
abbrev main_v42 : Ref sig .tc := ⟨.hbm, 85, rfl⟩
abbrev main_v43 : Ref sig .tc := ⟨.hbm, 86, rfl⟩
abbrev main_c_34 : Ref sig .tc := ⟨.hbm, 87, rfl⟩
abbrev main_v44 : Ref sig .tc := ⟨.hbm, 88, rfl⟩
abbrev main_v45 : Ref sig .tc := ⟨.hbm, 89, rfl⟩
abbrev main_v46 : Ref sig .tc := ⟨.hbm, 90, rfl⟩
abbrev main_c_35 : Ref sig .tc := ⟨.hbm, 91, rfl⟩
abbrev main_c_36 : Ref sig .tc := ⟨.hbm, 92, rfl⟩
abbrev main_v47 : Ref sig .tc := ⟨.hbm, 93, rfl⟩
abbrev main_c_37 : Ref sig .tc := ⟨.hbm, 94, rfl⟩
abbrev main_c_38 : Ref sig .tc := ⟨.hbm, 95, rfl⟩
abbrev main_v48 : Ref sig .tc := ⟨.hbm, 96, rfl⟩
abbrev main_c_39 : Ref sig .tc := ⟨.hbm, 97, rfl⟩
abbrev main_v49 : Ref sig .tc := ⟨.hbm, 98, rfl⟩
abbrev main_c_40 : Ref sig .tc := ⟨.hbm, 99, rfl⟩
abbrev main_c_41 : Ref sig .tc := ⟨.hbm, 100, rfl⟩
abbrev main_v50 : Ref sig .tc := ⟨.hbm, 101, rfl⟩
abbrev main_c_42 : Ref sig .tc := ⟨.hbm, 102, rfl⟩
abbrev main_c_43 : Ref sig .tc := ⟨.hbm, 103, rfl⟩
abbrev main_v51 : Ref sig .tc := ⟨.hbm, 104, rfl⟩
abbrev main_c_44 : Ref sig .tc := ⟨.hbm, 105, rfl⟩
abbrev main_v52 : Ref sig .tc := ⟨.hbm, 106, rfl⟩
abbrev main_c_45 : Ref sig .tc := ⟨.hbm, 107, rfl⟩
abbrev main_c_46 : Ref sig .tc := ⟨.hbm, 108, rfl⟩
abbrev main_v53 : Ref sig .tc := ⟨.hbm, 109, rfl⟩
abbrev main_c_47 : Ref sig .tc := ⟨.hbm, 110, rfl⟩
abbrev main_c_48 : Ref sig .tc := ⟨.hbm, 111, rfl⟩
abbrev main_v54 : Ref sig .tc := ⟨.hbm, 112, rfl⟩
abbrev main_c_49 : Ref sig .tc := ⟨.hbm, 113, rfl⟩
abbrev main_v55 : Ref sig .tc := ⟨.hbm, 114, rfl⟩
abbrev main_v56 : Ref sig .tc := ⟨.hbm, 115, rfl⟩
abbrev main_v57 : Ref sig .tc := ⟨.hbm, 116, rfl⟩
abbrev main_v58 : Ref sig .tc := ⟨.hbm, 117, rfl⟩
abbrev main_v59 : Ref sig .tc := ⟨.hbm, 118, rfl⟩
abbrev main_v60 : Ref sig .tc := ⟨.hbm, 119, rfl⟩
abbrev main_v61 : Ref sig .tc := ⟨.hbm, 120, rfl⟩
abbrev main_v62 : Ref sig .tc := ⟨.hbm, 121, rfl⟩
abbrev main_c_50 : Ref sig .tc := ⟨.hbm, 122, rfl⟩
abbrev main_v63 : Ref sig .tc := ⟨.hbm, 123, rfl⟩
abbrev main_v64 : Ref sig .tc := ⟨.hbm, 124, rfl⟩
abbrev main_c_51 : Ref sig .tc := ⟨.hbm, 125, rfl⟩
abbrev main_v65 : Ref sig .tc := ⟨.hbm, 126, rfl⟩
abbrev main_v66 : Ref sig .tc := ⟨.hbm, 127, rfl⟩
abbrev main_v67 : Ref sig .tc := ⟨.hbm, 128, rfl⟩
abbrev main_c_52 : Ref sig .tc := ⟨.hbm, 129, rfl⟩
abbrev main_c_53 : Ref sig .tc := ⟨.hbm, 130, rfl⟩
abbrev main_v68 : Ref sig .tc := ⟨.hbm, 131, rfl⟩
abbrev main_c_54 : Ref sig .tc := ⟨.hbm, 132, rfl⟩
abbrev main_c_55 : Ref sig .tc := ⟨.hbm, 133, rfl⟩
abbrev main_v69 : Ref sig .tc := ⟨.hbm, 134, rfl⟩
abbrev main_c_56 : Ref sig .tc := ⟨.hbm, 135, rfl⟩
abbrev main_v70 : Ref sig .tc := ⟨.hbm, 136, rfl⟩
abbrev main_c_57 : Ref sig .tc := ⟨.hbm, 137, rfl⟩
abbrev main_c_58 : Ref sig .tc := ⟨.hbm, 138, rfl⟩
abbrev main_v71 : Ref sig .tc := ⟨.hbm, 139, rfl⟩
abbrev main_c_59 : Ref sig .tc := ⟨.hbm, 140, rfl⟩
abbrev main_c_60 : Ref sig .tc := ⟨.hbm, 141, rfl⟩
abbrev main_v72 : Ref sig .tc := ⟨.hbm, 142, rfl⟩
abbrev main_c_61 : Ref sig .tc := ⟨.hbm, 143, rfl⟩
abbrev main_v73 : Ref sig .tc := ⟨.hbm, 144, rfl⟩
abbrev main_c_62 : Ref sig .tc := ⟨.hbm, 145, rfl⟩
abbrev main_c_63 : Ref sig .tc := ⟨.hbm, 146, rfl⟩
abbrev main_v74 : Ref sig .tc := ⟨.hbm, 147, rfl⟩
abbrev main_c_64 : Ref sig .tc := ⟨.hbm, 148, rfl⟩
abbrev main_c_65 : Ref sig .tc := ⟨.hbm, 149, rfl⟩
abbrev main_v75 : Ref sig .tc := ⟨.hbm, 150, rfl⟩
abbrev main_c_66 : Ref sig .tc := ⟨.hbm, 151, rfl⟩
abbrev main_v76 : Ref sig .tc := ⟨.hbm, 152, rfl⟩
abbrev main_v77 : Ref sig .tc := ⟨.hbm, 153, rfl⟩
abbrev main_v78 : Ref sig .tc := ⟨.hbm, 154, rfl⟩
abbrev main_v79 : Ref sig .tc := ⟨.hbm, 155, rfl⟩
abbrev main_v80 : Ref sig .tc := ⟨.hbm, 156, rfl⟩
abbrev main_v81 : Ref sig .tc := ⟨.hbm, 157, rfl⟩
abbrev main_v82 : Ref sig .tc := ⟨.hbm, 158, rfl⟩
abbrev main_v83 : Ref sig .tc := ⟨.hbm, 159, rfl⟩
abbrev main_c_67 : Ref sig .tc := ⟨.hbm, 160, rfl⟩
abbrev main_v84 : Ref sig .tc := ⟨.hbm, 161, rfl⟩
abbrev main_v85 : Ref sig .tc := ⟨.hbm, 162, rfl⟩
abbrev main_c_68 : Ref sig .tc := ⟨.hbm, 163, rfl⟩
abbrev main_v86 : Ref sig .tc := ⟨.hbm, 164, rfl⟩
abbrev main_v87 : Ref sig .tc := ⟨.hbm, 165, rfl⟩
abbrev main_v88 : Ref sig .tc := ⟨.hbm, 166, rfl⟩
abbrev main_v89 : Ref sig .tc := ⟨.hbm, 167, rfl⟩
abbrev main_v90 : Ref sig .tc := ⟨.hbm, 168, rfl⟩
abbrev main_v91 : Ref sig .tc := ⟨.hbm, 169, rfl⟩
abbrev main_cst : Ref sig .tc := ⟨.hbm, 170, rfl⟩
abbrev main_v92 : Ref sig .tc := ⟨.hbm, 171, rfl⟩
abbrev main_v93 : Ref sig .tc := ⟨.hbm, 172, rfl⟩
abbrev main_cst_69 : Ref sig .tc := ⟨.hbm, 173, rfl⟩
abbrev main_v94 : Ref sig .tc := ⟨.hbm, 174, rfl⟩
abbrev main_v95 : Ref sig .tc := ⟨.hbm, 175, rfl⟩
abbrev main_v96 : Ref sig .tc := ⟨.hbm, 176, rfl⟩
abbrev main_v97 : Ref sig .tc := ⟨.hbm, 177, rfl⟩
abbrev main_v98 : Ref sig .tc := ⟨.hbm, 178, rfl⟩
abbrev main_v99 : Ref sig .tc := ⟨.hbm, 179, rfl⟩
abbrev main_v100 : Ref sig .tc := ⟨.hbm, 180, rfl⟩
abbrev main_cst_70 : Ref sig .tc := ⟨.hbm, 181, rfl⟩
abbrev main_v101 : Ref sig .tc := ⟨.hbm, 182, rfl⟩
abbrev main_v102 : Ref sig .tc := ⟨.hbm, 183, rfl⟩
abbrev main_cst_71 : Ref sig .tc := ⟨.hbm, 184, rfl⟩
abbrev main_v103 : Ref sig .tc := ⟨.hbm, 185, rfl⟩
abbrev main_v104 : Ref sig .tc := ⟨.hbm, 186, rfl⟩
abbrev main_v105 : Ref sig .tc := ⟨.hbm, 187, rfl⟩
abbrev main_v106 : Ref sig .tc := ⟨.hbm, 188, rfl⟩
abbrev main_v107 : Ref sig .tc := ⟨.hbm, 189, rfl⟩
abbrev main_v108 : Ref sig .tc := ⟨.hbm, 190, rfl⟩
abbrev main_c_72 : Ref sig .tc := ⟨.hbm, 191, rfl⟩
abbrev main_v109 : Ref sig .tc := ⟨.hbm, 192, rfl⟩
abbrev main_v110 : Ref sig .tc := ⟨.hbm, 193, rfl⟩
abbrev main_c_73 : Ref sig .tc := ⟨.hbm, 194, rfl⟩
abbrev main_v111 : Ref sig .tc := ⟨.hbm, 195, rfl⟩
abbrev main_v112 : Ref sig .tc := ⟨.hbm, 196, rfl⟩
abbrev main_c_74 : Ref sig .tc := ⟨.hbm, 197, rfl⟩
abbrev main_v113 : Ref sig .tc := ⟨.hbm, 198, rfl⟩
abbrev main_v114 : Ref sig .tc := ⟨.hbm, 199, rfl⟩
abbrev main_c_75 : Ref sig .tc := ⟨.hbm, 200, rfl⟩
abbrev main_v115 : Ref sig .tc := ⟨.hbm, 201, rfl⟩
abbrev main_v116 : Ref sig .tc := ⟨.hbm, 202, rfl⟩
abbrev main_c_76 : Ref sig .tc := ⟨.hbm, 203, rfl⟩
abbrev main_v117 : Ref sig .tc := ⟨.hbm, 204, rfl⟩
abbrev main_v118 : Ref sig .tc := ⟨.hbm, 205, rfl⟩
abbrev main_v119 : Ref sig .tc := ⟨.hbm, 206, rfl⟩
abbrev main_v120 : Ref sig .tc := ⟨.hbm, 207, rfl⟩
abbrev main_v121 : Ref sig .tc := ⟨.hbm, 208, rfl⟩
abbrev main_v122 : Ref sig .tc := ⟨.hbm, 209, rfl⟩
abbrev main_v123 : Ref sig .tc := ⟨.hbm, 210, rfl⟩
abbrev main_v124 : Ref sig .tc := ⟨.hbm, 211, rfl⟩
abbrev main_v125 : Ref sig .tc := ⟨.hbm, 212, rfl⟩
abbrev main_cst_77 : Ref sig .tc := ⟨.hbm, 213, rfl⟩
abbrev main_v126 : Ref sig .tc := ⟨.hbm, 214, rfl⟩
abbrev main_v127 : Ref sig .tc := ⟨.hbm, 215, rfl⟩
abbrev main_cst_78 : Ref sig .tc := ⟨.hbm, 216, rfl⟩
abbrev main_v128 : Ref sig .tc := ⟨.hbm, 217, rfl⟩
abbrev main_v129 : Ref sig .tc := ⟨.hbm, 218, rfl⟩
abbrev main_v130 : Ref sig .tc := ⟨.hbm, 219, rfl⟩
abbrev main_v131 : Ref sig .tc := ⟨.hbm, 220, rfl⟩
abbrev main_v132 : Ref sig .tc := ⟨.hbm, 221, rfl⟩
abbrev main_cst_79 : Ref sig .tc := ⟨.hbm, 222, rfl⟩
abbrev main_v133 : Ref sig .tc := ⟨.hbm, 223, rfl⟩
abbrev main_v134 : Ref sig .tc := ⟨.hbm, 224, rfl⟩
abbrev main_cst_80 : Ref sig .tc := ⟨.hbm, 225, rfl⟩
abbrev main_v135 : Ref sig .tc := ⟨.hbm, 226, rfl⟩
abbrev main_v136 : Ref sig .tc := ⟨.hbm, 227, rfl⟩
abbrev main_v137 : Ref sig .tc := ⟨.hbm, 228, rfl⟩
abbrev main_v138 : Ref sig .tc := ⟨.hbm, 229, rfl⟩
abbrev main_v139 : Ref sig .tc := ⟨.hbm, 230, rfl⟩
abbrev main_v140 : Ref sig .tc := ⟨.hbm, 231, rfl⟩
abbrev main_c_81 : Ref sig .tc := ⟨.hbm, 232, rfl⟩
abbrev main_v141 : Ref sig .tc := ⟨.hbm, 233, rfl⟩
abbrev main_v142 : Ref sig .tc := ⟨.hbm, 234, rfl⟩
abbrev main_c_82 : Ref sig .tc := ⟨.hbm, 235, rfl⟩
abbrev main_v143 : Ref sig .tc := ⟨.hbm, 236, rfl⟩
abbrev main_v144 : Ref sig .tc := ⟨.hbm, 237, rfl⟩
abbrev main_c_83 : Ref sig .tc := ⟨.hbm, 238, rfl⟩
abbrev main_v145 : Ref sig .tc := ⟨.hbm, 239, rfl⟩
abbrev main_v146 : Ref sig .tc := ⟨.hbm, 240, rfl⟩
abbrev main_c_84 : Ref sig .tc := ⟨.hbm, 241, rfl⟩
abbrev main_v147 : Ref sig .tc := ⟨.hbm, 242, rfl⟩
abbrev main_v148 : Ref sig .tc := ⟨.hbm, 243, rfl⟩
abbrev main_v149 : Ref sig .tc := ⟨.hbm, 244, rfl⟩
abbrev main_v150 : Ref sig .tc := ⟨.hbm, 245, rfl⟩
abbrev main_v151 : Ref sig .tc := ⟨.hbm, 246, rfl⟩
abbrev main_v152 : Ref sig .tc := ⟨.hbm, 247, rfl⟩
abbrev main_v153 : Ref sig .tc := ⟨.hbm, 248, rfl⟩
abbrev main_c_85 : Ref sig .tc := ⟨.hbm, 249, rfl⟩
abbrev main_v154 : Ref sig .tc := ⟨.hbm, 250, rfl⟩
abbrev main_v155 : Ref sig .tc := ⟨.hbm, 251, rfl⟩
abbrev main_v156 : Ref sig .tc := ⟨.hbm, 252, rfl⟩
abbrev main_v157 : Ref sig .tc := ⟨.hbm, 253, rfl⟩
abbrev main_v158 : Ref sig .tc := ⟨.hbm, 254, rfl⟩
abbrev main_v159 : Ref sig .tc := ⟨.hbm, 255, rfl⟩
abbrev main_v160 : Ref sig .tc := ⟨.hbm, 256, rfl⟩
abbrev main_v161 : Ref sig .tc := ⟨.hbm, 257, rfl⟩
abbrev main_v162 : Ref sig .tc := ⟨.hbm, 258, rfl⟩
abbrev main_v163 : Ref sig .tc := ⟨.hbm, 259, rfl⟩
abbrev main_c_86 : Ref sig .tc := ⟨.hbm, 260, rfl⟩
abbrev main_v164 : Ref sig .tc := ⟨.hbm, 261, rfl⟩
abbrev main_v165 : Ref sig .tc := ⟨.hbm, 262, rfl⟩
abbrev main_c_87 : Ref sig .tc := ⟨.hbm, 263, rfl⟩
abbrev main_v166 : Ref sig .tc := ⟨.hbm, 264, rfl⟩
abbrev main_v167 : Ref sig .tc := ⟨.hbm, 265, rfl⟩
abbrev main_v168 : Ref sig .tc := ⟨.hbm, 266, rfl⟩
abbrev main_v169 : Ref sig .tc := ⟨.hbm, 267, rfl⟩
abbrev main_v170 : Ref sig .tc := ⟨.hbm, 268, rfl⟩
abbrev main_cst_88 : Ref sig .tc := ⟨.hbm, 269, rfl⟩
abbrev main_v171 : Ref sig .tc := ⟨.hbm, 270, rfl⟩
abbrev main_v172 : Ref sig .tc := ⟨.hbm, 271, rfl⟩
abbrev main_v173 : Ref sig .tc := ⟨.hbm, 272, rfl⟩
abbrev main_v174 : Ref sig .tc := ⟨.hbm, 273, rfl⟩
abbrev main_v175 : Ref sig .tc := ⟨.hbm, 274, rfl⟩
abbrev main_c_89 : Ref sig .tc := ⟨.hbm, 275, rfl⟩
abbrev main_v176 : Ref sig .tc := ⟨.hbm, 276, rfl⟩
abbrev main_v177 : Ref sig .tc := ⟨.hbm, 277, rfl⟩
abbrev main_c_90 : Ref sig .tc := ⟨.hbm, 278, rfl⟩
abbrev main_v178 : Ref sig .tc := ⟨.hbm, 279, rfl⟩
abbrev main_v179 : Ref sig .tc := ⟨.hbm, 280, rfl⟩
abbrev main_v180 : Ref sig .tc := ⟨.hbm, 281, rfl⟩
abbrev main_v181 : Ref sig .tc := ⟨.hbm, 282, rfl⟩
abbrev main_v182 : Ref sig .tc := ⟨.hbm, 283, rfl⟩
abbrev main_v183 : Ref sig .tc := ⟨.hbm, 284, rfl⟩
abbrev main_v184 : Ref sig .tc := ⟨.hbm, 285, rfl⟩
abbrev main_v185 : Ref sig .tc := ⟨.hbm, 286, rfl⟩
abbrev main_v186 : Ref sig .tc := ⟨.hbm, 287, rfl⟩
abbrev main_v187 : Ref sig .tc := ⟨.hbm, 288, rfl⟩
abbrev main_v188 : Ref sig .tc := ⟨.hbm, 289, rfl⟩
abbrev main_cst_91 : Ref sig .tc := ⟨.hbm, 290, rfl⟩
abbrev main_call3_v0 : Ref sig .tc := ⟨.hbm, 291, rfl⟩
abbrev main_call3_v1 : Ref sig .tc := ⟨.hbm, 292, rfl⟩
abbrev main_call3_v2 : Ref sig .tc := ⟨.hbm, 293, rfl⟩
abbrev main_call3_v3 : Ref sig .tc := ⟨.hbm, 294, rfl⟩
abbrev main_v189 : Ref sig .tc := ⟨.hbm, 295, rfl⟩
abbrev main_v190 : Ref sig .tc := ⟨.hbm, 296, rfl⟩
abbrev main_v191 : Ref sig .tc := ⟨.hbm, 297, rfl⟩
abbrev main_v192 : Ref sig .tc := ⟨.hbm, 298, rfl⟩
abbrev main_v193 : Ref sig .tc := ⟨.hbm, 299, rfl⟩
abbrev main_cst_92 : Ref sig .tc := ⟨.hbm, 300, rfl⟩
abbrev main_v194 : Ref sig .tc := ⟨.hbm, 301, rfl⟩
abbrev main_v195 : Ref sig .tc := ⟨.hbm, 302, rfl⟩
abbrev main_cst_93 : Ref sig .tc := ⟨.hbm, 303, rfl⟩
abbrev main_v196 : Ref sig .tc := ⟨.hbm, 304, rfl⟩
abbrev main_v197 : Ref sig .tc := ⟨.hbm, 305, rfl⟩
abbrev main_v198 : Ref sig .tc := ⟨.hbm, 306, rfl⟩
abbrev main_v199 : Ref sig .tc := ⟨.hbm, 307, rfl⟩
abbrev main_v200 : Ref sig .tc := ⟨.hbm, 308, rfl⟩
abbrev main_v201 : Ref sig .tc := ⟨.hbm, 309, rfl⟩
abbrev main_v202 : Ref sig .tc := ⟨.hbm, 310, rfl⟩
abbrev main_cst_94 : Ref sig .tc := ⟨.hbm, 311, rfl⟩
abbrev main_v203 : Ref sig .tc := ⟨.hbm, 312, rfl⟩
abbrev main_v204 : Ref sig .tc := ⟨.hbm, 313, rfl⟩
abbrev main_cst_95 : Ref sig .tc := ⟨.hbm, 314, rfl⟩
abbrev main_v205 : Ref sig .tc := ⟨.hbm, 315, rfl⟩
abbrev main_v206 : Ref sig .tc := ⟨.hbm, 316, rfl⟩
abbrev main_v207 : Ref sig .tc := ⟨.hbm, 317, rfl⟩
abbrev main_v208 : Ref sig .tc := ⟨.hbm, 318, rfl⟩
abbrev main_v209 : Ref sig .tc := ⟨.hbm, 319, rfl⟩
abbrev main_v210 : Ref sig .tc := ⟨.hbm, 320, rfl⟩
abbrev main_c_96 : Ref sig .tc := ⟨.hbm, 321, rfl⟩
abbrev main_v211 : Ref sig .tc := ⟨.hbm, 322, rfl⟩
abbrev main_v212 : Ref sig .tc := ⟨.hbm, 323, rfl⟩
abbrev main_c_97 : Ref sig .tc := ⟨.hbm, 324, rfl⟩
abbrev main_v213 : Ref sig .tc := ⟨.hbm, 325, rfl⟩
abbrev main_v214 : Ref sig .tc := ⟨.hbm, 326, rfl⟩
abbrev main_c_98 : Ref sig .tc := ⟨.hbm, 327, rfl⟩
abbrev main_v215 : Ref sig .tc := ⟨.hbm, 328, rfl⟩
abbrev main_v216 : Ref sig .tc := ⟨.hbm, 329, rfl⟩
abbrev main_c_99 : Ref sig .tc := ⟨.hbm, 330, rfl⟩
abbrev main_v217 : Ref sig .tc := ⟨.hbm, 331, rfl⟩
abbrev main_v218 : Ref sig .tc := ⟨.hbm, 332, rfl⟩
abbrev main_c_100 : Ref sig .tc := ⟨.hbm, 333, rfl⟩
abbrev main_v219 : Ref sig .tc := ⟨.hbm, 334, rfl⟩
abbrev main_v220 : Ref sig .tc := ⟨.hbm, 335, rfl⟩
abbrev main_v221 : Ref sig .tc := ⟨.hbm, 336, rfl⟩
abbrev main_v222 : Ref sig .tc := ⟨.hbm, 337, rfl⟩
abbrev main_v223 : Ref sig .tc := ⟨.hbm, 338, rfl⟩
abbrev main_v224 : Ref sig .tc := ⟨.hbm, 339, rfl⟩
abbrev main_v225 : Ref sig .tc := ⟨.hbm, 340, rfl⟩
abbrev main_v226 : Ref sig .tc := ⟨.hbm, 341, rfl⟩
abbrev main_v227 : Ref sig .tc := ⟨.hbm, 342, rfl⟩
abbrev main_cst_101 : Ref sig .tc := ⟨.hbm, 343, rfl⟩
abbrev main_v228 : Ref sig .tc := ⟨.hbm, 344, rfl⟩
abbrev main_v229 : Ref sig .tc := ⟨.hbm, 345, rfl⟩
abbrev main_cst_102 : Ref sig .tc := ⟨.hbm, 346, rfl⟩
abbrev main_v230 : Ref sig .tc := ⟨.hbm, 347, rfl⟩
abbrev main_v231 : Ref sig .tc := ⟨.hbm, 348, rfl⟩
abbrev main_v232 : Ref sig .tc := ⟨.hbm, 349, rfl⟩
abbrev main_v233 : Ref sig .tc := ⟨.hbm, 350, rfl⟩
abbrev main_v234 : Ref sig .tc := ⟨.hbm, 351, rfl⟩
abbrev main_cst_103 : Ref sig .tc := ⟨.hbm, 352, rfl⟩
abbrev main_v235 : Ref sig .tc := ⟨.hbm, 353, rfl⟩
abbrev main_v236 : Ref sig .tc := ⟨.hbm, 354, rfl⟩
abbrev main_cst_104 : Ref sig .tc := ⟨.hbm, 355, rfl⟩
abbrev main_v237 : Ref sig .tc := ⟨.hbm, 356, rfl⟩
abbrev main_v238 : Ref sig .tc := ⟨.hbm, 357, rfl⟩
abbrev main_v239 : Ref sig .tc := ⟨.hbm, 358, rfl⟩
abbrev main_v240 : Ref sig .tc := ⟨.hbm, 359, rfl⟩
abbrev main_v241 : Ref sig .tc := ⟨.hbm, 360, rfl⟩
abbrev main_v242 : Ref sig .tc := ⟨.hbm, 361, rfl⟩
abbrev main_c_105 : Ref sig .tc := ⟨.hbm, 362, rfl⟩
abbrev main_v243 : Ref sig .tc := ⟨.hbm, 363, rfl⟩
abbrev main_v244 : Ref sig .tc := ⟨.hbm, 364, rfl⟩
abbrev main_c_106 : Ref sig .tc := ⟨.hbm, 365, rfl⟩
abbrev main_v245 : Ref sig .tc := ⟨.hbm, 366, rfl⟩
abbrev main_v246 : Ref sig .tc := ⟨.hbm, 367, rfl⟩
abbrev main_c_107 : Ref sig .tc := ⟨.hbm, 368, rfl⟩
abbrev main_v247 : Ref sig .tc := ⟨.hbm, 369, rfl⟩
abbrev main_v248 : Ref sig .tc := ⟨.hbm, 370, rfl⟩
abbrev main_c_108 : Ref sig .tc := ⟨.hbm, 371, rfl⟩
abbrev main_v249 : Ref sig .tc := ⟨.hbm, 372, rfl⟩
abbrev main_v250 : Ref sig .tc := ⟨.hbm, 373, rfl⟩
abbrev main_v251 : Ref sig .tc := ⟨.hbm, 374, rfl⟩
abbrev main_v252 : Ref sig .tc := ⟨.hbm, 375, rfl⟩
abbrev main_v253 : Ref sig .tc := ⟨.hbm, 376, rfl⟩
abbrev main_v254 : Ref sig .tc := ⟨.hbm, 377, rfl⟩
abbrev main_v255 : Ref sig .tc := ⟨.hbm, 378, rfl⟩
abbrev main_c_109 : Ref sig .tc := ⟨.hbm, 379, rfl⟩
abbrev main_v256 : Ref sig .tc := ⟨.hbm, 380, rfl⟩
abbrev main_v257 : Ref sig .tc := ⟨.hbm, 381, rfl⟩
abbrev main_v258 : Ref sig .tc := ⟨.hbm, 382, rfl⟩
abbrev main_v259 : Ref sig .tc := ⟨.hbm, 383, rfl⟩
abbrev main_v260 : Ref sig .tc := ⟨.hbm, 384, rfl⟩
abbrev main_v261 : Ref sig .tc := ⟨.hbm, 385, rfl⟩
abbrev main_v262 : Ref sig .tc := ⟨.hbm, 386, rfl⟩
abbrev main_c_110 : Ref sig .tc := ⟨.hbm, 387, rfl⟩
abbrev main_v263 : Ref sig .tc := ⟨.hbm, 388, rfl⟩
abbrev main_v264 : Ref sig .tc := ⟨.hbm, 389, rfl⟩
abbrev main_v265 : Ref sig .tc := ⟨.hbm, 390, rfl⟩
abbrev main_v266 : Ref sig .tc := ⟨.hbm, 391, rfl⟩
abbrev main_v267 : Ref sig .tc := ⟨.hbm, 392, rfl⟩
abbrev main_v268 : Ref sig .tc := ⟨.hbm, 393, rfl⟩
abbrev main_v269 : Ref sig .tc := ⟨.hbm, 394, rfl⟩
abbrev main_v270 : Ref sig .tc := ⟨.hbm, 395, rfl⟩
abbrev main_v271 : Ref sig .tc := ⟨.hbm, 396, rfl⟩
abbrev main_v272 : Ref sig .tc := ⟨.hbm, 397, rfl⟩
abbrev main_v273 : Ref sig .tc := ⟨.hbm, 398, rfl⟩
abbrev main_cst_111 : Ref sig .tc := ⟨.hbm, 399, rfl⟩
abbrev main_call8_v0 : Ref sig .tc := ⟨.hbm, 400, rfl⟩
abbrev main_call8_v1 : Ref sig .tc := ⟨.hbm, 401, rfl⟩
abbrev main_call8_v2 : Ref sig .tc := ⟨.hbm, 402, rfl⟩
abbrev main_v274 : Ref sig .tc := ⟨.hbm, 403, rfl⟩
abbrev main_v275 : Ref sig .tc := ⟨.hbm, 404, rfl⟩
abbrev main_c_112 : Ref sig .tc := ⟨.hbm, 405, rfl⟩
abbrev main_v276 : Ref sig .tc := ⟨.hbm, 406, rfl⟩
abbrev main_v277 : Ref sig .tc := ⟨.hbm, 407, rfl⟩
abbrev main_c_113 : Ref sig .tc := ⟨.hbm, 408, rfl⟩
abbrev main_v278 : Ref sig .tc := ⟨.hbm, 409, rfl⟩
abbrev main_v279 : Ref sig .tc := ⟨.hbm, 410, rfl⟩
abbrev main_v280 : Ref sig .tc := ⟨.hbm, 411, rfl⟩
abbrev main_v281 : Ref sig .tc := ⟨.hbm, 412, rfl⟩
abbrev main_v282 : Ref sig .tc := ⟨.hbm, 413, rfl⟩
abbrev main_cst_114 : Ref sig .tc := ⟨.hbm, 414, rfl⟩
abbrev main_v283 : Ref sig .tc := ⟨.hbm, 415, rfl⟩
abbrev main_v284 : Ref sig .tc := ⟨.hbm, 416, rfl⟩
abbrev main_v285 : Ref sig .tc := ⟨.hbm, 417, rfl⟩
abbrev main_v286 : Ref sig .tc := ⟨.hbm, 418, rfl⟩
abbrev main_v287 : Ref sig .tc := ⟨.hbm, 419, rfl⟩
abbrev main_c_115 : Ref sig .tc := ⟨.hbm, 420, rfl⟩
abbrev main_v288 : Ref sig .tc := ⟨.hbm, 421, rfl⟩
abbrev main_v289 : Ref sig .tc := ⟨.hbm, 422, rfl⟩
abbrev main_c_116 : Ref sig .tc := ⟨.hbm, 423, rfl⟩
abbrev main_v290 : Ref sig .tc := ⟨.hbm, 424, rfl⟩
abbrev main_v291 : Ref sig .tc := ⟨.hbm, 425, rfl⟩
abbrev main_v292 : Ref sig .tc := ⟨.hbm, 426, rfl⟩
abbrev main_v293 : Ref sig .tc := ⟨.hbm, 427, rfl⟩
abbrev main_v294 : Ref sig .tc := ⟨.hbm, 428, rfl⟩
abbrev main_v295 : Ref sig .tc := ⟨.hbm, 429, rfl⟩
abbrev main_v296 : Ref sig .tc := ⟨.hbm, 430, rfl⟩
abbrev main_v297 : Ref sig .tc := ⟨.hbm, 431, rfl⟩
abbrev main_v298 : Ref sig .tc := ⟨.hbm, 432, rfl⟩
abbrev main_v299 : Ref sig .tc := ⟨.hbm, 433, rfl⟩
abbrev main_v300 : Ref sig .tc := ⟨.hbm, 434, rfl⟩
abbrev main_v301 : Ref sig .tc := ⟨.hbm, 435, rfl⟩

abbrev nD : Nat := 1
abbrev τ : Topo := Topo.v7x

variable {F : FTy → Type} [FloatOps F]

class Facts₀ : Prop where
  bcast_S_S16 : S_.BroadcastsInDim S16 (![] : Fin 0 → Fin S16.rank)
  bcast_S16_S16x1_0 : S16.BroadcastsInDim S16x1 (![0] : Fin 1 → Fin S16x1.rank)
  bcast_S_S16x1 : S_.BroadcastsInDim S16x1 (![] : Fin 0 → Fin S16x1.rank)
  concatenates_S16x1_S16x1_S16x1_S16x1_S16x4_d1 : Shape.Concatenates [S16x1, S16x1, S16x1, S16x1] S16x4 1
  shapeCasts_S16x1x3x60x224_S16x3x60x224 : S16x1x3x60x224.ShapeCasts S16x3x60x224
  shapeCasts_S16x1x3x30x224_S16x3x30x224 : S16x1x3x30x224.ShapeCasts S16x3x30x224
  shapeCasts_S16x1x3x164x60_S16x3x164x60 : S16x1x3x164x60.ShapeCasts S16x3x164x60
  shapeCasts_S16x1x3x164x30_S16x3x164x30 : S16x1x3x164x30.ShapeCasts S16x3x164x30
  concatenates_S16x3x164x60_S16x3x164x30_S16x3x164x90_d3 : Shape.Concatenates [S16x3x164x60, S16x3x164x30] S16x3x164x90 3
  bcast_S_S224 : S_.BroadcastsInDim S224 (![] : Fin 0 → Fin S224.rank)
  bcast_S224_S1x224_1 : S224.BroadcastsInDim S1x224 (![1] : Fin 1 → Fin S1x224.rank)
  bcast_S1x224_S16x224_0_1 : S1x224.BroadcastsInDim S16x224 (![0, 1] : Fin 2 → Fin S16x224.rank)
  bcast_S16x1_S16x224_0_1 : S16x1.BroadcastsInDim S16x224 (![0, 1] : Fin 2 → Fin S16x224.rank)
  bcast_S_S16x224 : S_.BroadcastsInDim S16x224 (![] : Fin 0 → Fin S16x224.rank)
  bcast_S16x224_S16x224x1_0_1 : S16x224.BroadcastsInDim S16x224x1 (![0, 1] : Fin 2 → Fin S16x224x1.rank)
  bcast_S16x224_S16x1x1x224_0_3 : S16x224.BroadcastsInDim S16x1x1x224 (![0, 3] : Fin 2 → Fin S16x1x1x224.rank)
  bcast_S16x1x1x224_S16x3x164x224_0_1_2_3 : S16x1x1x224.BroadcastsInDim S16x3x164x224 (![0, 1, 2, 3] : Fin 4 → Fin S16x3x164x224.rank)
  bcast_S_S3x164x224 : S_.BroadcastsInDim S3x164x224 (![] : Fin 0 → Fin S3x164x224.rank)
  bcast_S3x164x224_S16x3x164x224_1_2_3 : S3x164x224.BroadcastsInDim S16x3x164x224 (![1, 2, 3] : Fin 3 → Fin S16x3x164x224.rank)
  concatenates_S16x3x60x224_S16x3x30x224_S16x3x164x224_S16x3x254x224_d2 : Shape.Concatenates [S16x3x60x224, S16x3x30x224, S16x3x164x224] S16x3x254x224 2
  bcast_S224_S16x224_1 : S224.BroadcastsInDim S16x224 (![1] : Fin 1 → Fin S16x224.rank)
  bcast_S16x224_S16x1x224x1_0_2 : S16x224.BroadcastsInDim S16x1x224x1 (![0, 2] : Fin 2 → Fin S16x1x224x1.rank)
  bcast_S16x1x224x1_S16x3x224x224_0_1_2_3 : S16x1x224x1.BroadcastsInDim S16x3x224x224 (![0, 1, 2, 3] : Fin 4 → Fin S16x3x224x224.rank)
  bcast_S16x3x224x224_S16x3x1x224x224_0_1_3_4 : S16x3x224x224.BroadcastsInDim S16x3x1x224x224 (![0, 1, 3, 4] : Fin 4 → Fin S16x3x1x224x224.rank)
  bcast_S16x3x1x224x224_S16x3x16x224x224_0_1_2_3_4 : S16x3x1x224x224.BroadcastsInDim S16x3x16x224x224 (![0, 1, 2, 3, 4] : Fin 5 → Fin S16x3x16x224x224.rank)
  gather_S3x3x60x224_S16x4_S16x1x3x60x224_1234_n_n_n_0123_1_1360224_wf : GatherDims.WF S3x3x60x224 S16x4 S16x1x3x60x224 [1, 2, 3, 4] [] [] [0, 1, 2, 3] [] 1 ![1, 3, 60, 224]
  gather_S3x3x30x224_S16x4_S16x1x3x30x224_1234_n_n_n_0123_1_1330224_wf : GatherDims.WF S3x3x30x224 S16x4 S16x1x3x30x224 [1, 2, 3, 4] [] [] [0, 1, 2, 3] [] 1 ![1, 3, 30, 224]
  gather_S3x3x164x60_S16x4_S16x1x3x164x60_1234_n_n_n_0123_1_1316460_wf : GatherDims.WF S3x3x164x60 S16x4 S16x1x3x164x60 [1, 2, 3, 4] [] [] [0, 1, 2, 3] [] 1 ![1, 3, 164, 60]
  gather_S3x3x164x30_S16x4_S16x1x3x164x30_1234_n_n_n_0123_1_1316430_wf : GatherDims.WF S3x3x164x30 S16x4 S16x1x3x164x30 [1, 2, 3, 4] [] [] [0, 1, 2, 3] [] 1 ![1, 3, 164, 30]
  gather_S16x3x164x90_S16x224x1_S16x3x164x224_12_3_0_0_3_2_131641_wf : GatherDims.WF S16x3x164x90 S16x224x1 S16x3x164x224 [1, 2] [3] [0] [3] [0] 2 ![1, 3, 164, 1]
  gather_S16x3x254x224_S16x224x1_S16x3x224x224_13_2_0_0_2_2_131224_wf : GatherDims.WF S16x3x254x224 S16x224x1 S16x3x224x224 [1, 3] [2] [0] [2] [0] 2 ![1, 3, 1, 224]

variable [Facts₀]

def gather_S3x3x60x224_S16x4_S16x1x3x60x224_1234_n_n_n_0123_1_1360224 : GatherDims S3x3x60x224 S16x4 S16x1x3x60x224 where
  offsetDims := [1, 2, 3, 4]
  collapsedSliceDims := []
  operandBatchingDims := []
  startIndicesBatchingDims := []
  startIndexMap := [0, 1, 2, 3]
  indexVectorDim := 1
  sliceSizes := ![1, 3, 60, 224]
  wf := gather_S3x3x60x224_S16x4_S16x1x3x60x224_1234_n_n_n_0123_1_1360224_wf
def gather_S3x3x30x224_S16x4_S16x1x3x30x224_1234_n_n_n_0123_1_1330224 : GatherDims S3x3x30x224 S16x4 S16x1x3x30x224 where
  offsetDims := [1, 2, 3, 4]
  collapsedSliceDims := []
  operandBatchingDims := []
  startIndicesBatchingDims := []
  startIndexMap := [0, 1, 2, 3]
  indexVectorDim := 1
  sliceSizes := ![1, 3, 30, 224]
  wf := gather_S3x3x30x224_S16x4_S16x1x3x30x224_1234_n_n_n_0123_1_1330224_wf
def gather_S3x3x164x60_S16x4_S16x1x3x164x60_1234_n_n_n_0123_1_1316460 : GatherDims S3x3x164x60 S16x4 S16x1x3x164x60 where
  offsetDims := [1, 2, 3, 4]
  collapsedSliceDims := []
  operandBatchingDims := []
  startIndicesBatchingDims := []
  startIndexMap := [0, 1, 2, 3]
  indexVectorDim := 1
  sliceSizes := ![1, 3, 164, 60]
  wf := gather_S3x3x164x60_S16x4_S16x1x3x164x60_1234_n_n_n_0123_1_1316460_wf
def gather_S3x3x164x30_S16x4_S16x1x3x164x30_1234_n_n_n_0123_1_1316430 : GatherDims S3x3x164x30 S16x4 S16x1x3x164x30 where
  offsetDims := [1, 2, 3, 4]
  collapsedSliceDims := []
  operandBatchingDims := []
  startIndicesBatchingDims := []
  startIndexMap := [0, 1, 2, 3]
  indexVectorDim := 1
  sliceSizes := ![1, 3, 164, 30]
  wf := gather_S3x3x164x30_S16x4_S16x1x3x164x30_1234_n_n_n_0123_1_1316430_wf
def gather_S16x3x164x90_S16x224x1_S16x3x164x224_12_3_0_0_3_2_131641 : GatherDims S16x3x164x90 S16x224x1 S16x3x164x224 where
  offsetDims := [1, 2]
  collapsedSliceDims := [3]
  operandBatchingDims := [0]
  startIndicesBatchingDims := [0]
  startIndexMap := [3]
  indexVectorDim := 2
  sliceSizes := ![1, 3, 164, 1]
  wf := gather_S16x3x164x90_S16x224x1_S16x3x164x224_12_3_0_0_3_2_131641_wf
def gather_S16x3x254x224_S16x224x1_S16x3x224x224_13_2_0_0_2_2_131224 : GatherDims S16x3x254x224 S16x224x1 S16x3x224x224 where
  offsetDims := [1, 3]
  collapsedSliceDims := [2]
  operandBatchingDims := [0]
  startIndicesBatchingDims := [0]
  startIndexMap := [2]
  indexVectorDim := 2
  sliceSizes := ![1, 3, 1, 224]
  wf := gather_S16x3x254x224_S16x224x1_S16x3x224x224_13_2_0_0_2_2_131224_wf

class Facts : Prop extends Facts₀ where

variable [Facts]
-- ==== Proof.Bits.Entry.lean ====
/-
  The arrays as the launch of the add kernel finds them.

  @main is fifteen stretches of host operations — the per-sample construction of the prompt image
  [16,3,224,224] out of the four padding tables by bilinear resampling, gathers and selects — followed by
  ONE launch: the kernel that adds the prompt to every frame of the video. No host operation writes an
  argument array, so the launch finds the eight arguments as they were at the start; the prompt it finds
  in `main_v298` is the fold of the host operations over the start memory, which this file never opens.
-/
import proofs.«117955_j45552423141950_1_alg».proof.Proof.Gen.Kernel.Launch
import proofs.«117955_j45552423141950_1_alg».proof.Proof.Gen.Kernel.Points
import Idealize.ShloMosaic.Lib.Pipeline.FrameBody
import Idealize.ShloMosaic.Lib.StableHlo.Run

set_option maxRecDepth 16384

noncomputable section

namespace Cert.Kernel.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

variable (m : (ℓ : Loc nD τ sig) → Buf (Elt F) ℓ) (ρ : Dev nD → PrngReg)

/-! ## The host operations before the launch -/

/-- The stretches of host operations @main runs before the launch, in order. -/
abbrev stretches : List (List (HloOp τ sig (Elt F))) :=
  [hostOps0, hostOps0_1, hostOps0_2, hostOps0_3, hostOps0_4, hostOps0_5, hostOps0_6, hostOps0_7, hostOps0_8, hostOps0_9, hostOps0_10, hostOps0_11, hostOps0_12, hostOps0_13, hostOps0_14]

/-- Core `c`'s buffers when the launch is reached: the start memory after every host operation, in order. -/
abbrev V (c : Dev nD) (b : Ref sig .tc) : Buf (Elt F) ((c : Thread nD τ).loc b) :=
  StableHlo.after (List.flatten (stretches (F := F))) (fun b => m (c, b)) b

/-- No operation of this stretch allocates a buffer. -/
theorem hostOps0_fresh : (hostOps0 : List (HloOp τ sig (Elt F))).Forall fun op => op.fresh = ∅ := by
  simp only [List.Forall]; repeat' constructor
/-- No operation of this stretch allocates a buffer. -/
theorem hostOps0_1_fresh : (hostOps0_1 : List (HloOp τ sig (Elt F))).Forall fun op => op.fresh = ∅ := by
  simp only [List.Forall]; repeat' constructor
/-- No operation of this stretch allocates a buffer. -/
theorem hostOps0_2_fresh : (hostOps0_2 : List (HloOp τ sig (Elt F))).Forall fun op => op.fresh = ∅ := by
  simp only [List.Forall]; repeat' constructor
/-- No operation of this stretch allocates a buffer. -/
theorem hostOps0_3_fresh : (hostOps0_3 : List (HloOp τ sig (Elt F))).Forall fun op => op.fresh = ∅ := by
  simp only [List.Forall]; repeat' constructor
/-- No operation of this stretch allocates a buffer. -/
theorem hostOps0_4_fresh : (hostOps0_4 : List (HloOp τ sig (Elt F))).Forall fun op => op.fresh = ∅ := by
  simp only [List.Forall]; repeat' constructor
/-- No operation of this stretch allocates a buffer. -/
theorem hostOps0_5_fresh : (hostOps0_5 : List (HloOp τ sig (Elt F))).Forall fun op => op.fresh = ∅ := by
  simp only [List.Forall]; repeat' constructor
/-- No operation of this stretch allocates a buffer. -/
theorem hostOps0_6_fresh : (hostOps0_6 : List (HloOp τ sig (Elt F))).Forall fun op => op.fresh = ∅ := by
  simp only [List.Forall]; repeat' constructor
/-- No operation of this stretch allocates a buffer. -/
theorem hostOps0_7_fresh : (hostOps0_7 : List (HloOp τ sig (Elt F))).Forall fun op => op.fresh = ∅ := by
  simp only [List.Forall]; repeat' constructor
/-- No operation of this stretch allocates a buffer. -/
theorem hostOps0_8_fresh : (hostOps0_8 : List (HloOp τ sig (Elt F))).Forall fun op => op.fresh = ∅ := by
  simp only [List.Forall]; repeat' constructor
/-- No operation of this stretch allocates a buffer. -/
theorem hostOps0_9_fresh : (hostOps0_9 : List (HloOp τ sig (Elt F))).Forall fun op => op.fresh = ∅ := by
  simp only [List.Forall]; repeat' constructor
/-- No operation of this stretch allocates a buffer. -/
theorem hostOps0_10_fresh : (hostOps0_10 : List (HloOp τ sig (Elt F))).Forall fun op => op.fresh = ∅ := by
  simp only [List.Forall]; repeat' constructor
/-- No operation of this stretch allocates a buffer. -/
theorem hostOps0_11_fresh : (hostOps0_11 : List (HloOp τ sig (Elt F))).Forall fun op => op.fresh = ∅ := by
  simp only [List.Forall]; repeat' constructor
/-- No operation of this stretch allocates a buffer. -/
theorem hostOps0_12_fresh : (hostOps0_12 : List (HloOp τ sig (Elt F))).Forall fun op => op.fresh = ∅ := by
  simp only [List.Forall]; repeat' constructor
/-- No operation of this stretch allocates a buffer. -/
theorem hostOps0_13_fresh : (hostOps0_13 : List (HloOp τ sig (Elt F))).Forall fun op => op.fresh = ∅ := by
  simp only [List.Forall]; repeat' constructor
/-- No operation of this stretch allocates a buffer. -/
theorem hostOps0_14_fresh : (hostOps0_14 : List (HloOp τ sig (Elt F))).Forall fun op => op.fresh = ∅ := by
  simp only [List.Forall]; repeat' constructor

/-- @main is the host stretches followed by the launch, so it reaches the launch holding the buffers at `V`. -/
theorem reaches_launch (𝒱₀ : Variants) :
    Pipeline.HMain (Ix := Unit) (Name := ℕ) (U := UR sig nD τ) (Lvl := ℕ) cfgs 0 defs₀ 𝒱₀ m (main (F := F)) (V m) :=
  Pipeline.hmain_prefixes cfgs 0 defs₀ 𝒱₀ m main (stretches (F := F))
    (by simp only [List.Forall]; exact ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub, hostOps0_12_sub, hostOps0_13_sub, hostOps0_14_sub⟩)
    (by simp only [List.Forall]; exact ⟨hostOps0_fresh, hostOps0_1_fresh, hostOps0_2_fresh, hostOps0_3_fresh, hostOps0_4_fresh, hostOps0_5_fresh, hostOps0_6_fresh, hostOps0_7_fresh, hostOps0_8_fresh, hostOps0_9_fresh, hostOps0_10_fresh, hostOps0_11_fresh, hostOps0_12_fresh, hostOps0_13_fresh, hostOps0_14_fresh⟩) main_chain

end Cert.Kernel.Hand

end
-- ==== Proof.Bits.Args.lean ====
/-
  The eight argument arrays at the launch: every host operation before the launch writes a buffer of its own
  (a constant, a comparison, a gather, a select, …) and none writes an argument, so each argument is found as it
  was when @main started.
-/
import proofs.«117955_j45552423141950_1_alg».proof.Proof.Bits.Entry

set_option maxRecDepth 16384

noncomputable section

namespace Cert.Kernel.Hand

open Idealize.ShloMosaic Idealize.ShloMosaic.TcCoe
open Idealize.SL Idealize.SL.Sem
open Cert.Kernel Cert.Kernel.Gen

variable {F : FTy → Type} [FloatOps F]

variable (m : (ℓ : Loc nD τ sig) → Buf (Elt F) ℓ)

/-- No host operation writes argument 0: the launch finds it as it was at the start. -/
theorem V_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.append_nil, List.cons_append,
      List.nil_append, List.Forall, StableHlo.TRef.unary, StableHlo.TRef.ternary, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))

/-- No host operation writes argument 1: the launch finds it as it was at the start. -/
theorem V_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.append_nil, List.cons_append,
      List.nil_append, List.Forall, StableHlo.TRef.unary, StableHlo.TRef.ternary, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))

/-- No host operation writes argument 2: the launch finds it as it was at the start. -/
theorem V_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.append_nil, List.cons_append,
      List.nil_append, List.Forall, StableHlo.TRef.unary, StableHlo.TRef.ternary, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))

/-- No host operation writes argument 3: the launch finds it as it was at the start. -/
theorem V_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.append_nil, List.cons_append,
      List.nil_append, List.Forall, StableHlo.TRef.unary, StableHlo.TRef.ternary, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))

/-- No host operation writes argument 4: the launch finds it as it was at the start. -/
theorem V_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.append_nil, List.cons_append,
      List.nil_append, List.Forall, StableHlo.TRef.unary, StableHlo.TRef.ternary, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))

/-- No host operation writes argument 5: the launch finds it as it was at the start. -/
theorem V_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.append_nil, List.cons_append,
      List.nil_append, List.Forall, StableHlo.TRef.unary, StableHlo.TRef.ternary, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))

/-- No host operation writes argument 6: the launch finds it as it was at the start. -/
theorem V_arg6 (c : Dev nD) : V m c main_arg6 = m ((c : Thread nD τ).loc main_arg6) :=
  StableHlo.after_of_forall_not_mem (b := Proc.devRef .tc main_arg6) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.append_nil, List.cons_append,
      List.nil_append, List.Forall, StableHlo.TRef.unary, StableHlo.TRef.ternary, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))

/-- No host operation writes argument 7: the launch finds it as it was at the start. -/
theorem V_arg7 (c : Dev nD) : V m c main_arg7 = m ((c : Thread nD τ).loc main_arg7) :=
  StableHlo.after_of_forall_not_mem (b := Proc.devRef .tc main_arg7) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.append_nil, List.cons_append,
      List.nil_append, List.Forall, StableHlo.TRef.unary, StableHlo.TRef.ternary, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))

end Cert.Kernel.Hand

end
-- ==== Proof.Bits.Body.lean ====
/-
  The frame run of the add kernel.

  The launch walks a grid of 16 × 3 points, one per (sample, channel). At point (b, c) it stages the video slab
  x[b, c, :, :, :] (sixteen frames) and the prompt image p[b, c, :, :], runs the body, and writes the output slab
  out[b, c, :, :, :] back. The body loads both staged blocks whole, adds the prompt image to each of the sixteen
  frames, and stores the sum over the whole output block; it also loads the output block before storing it, a
  value it never uses. So what the body leaves in the output block is one function of the two input blocks
  (`sumBlock`), the inputs stay in place, and nothing is carried from point to point: the launch's invariant is
  the plain one, and every run of @main ends with the argument arrays as they started.
-/
import proofs.«117955_j45552423141950_1_alg».proof.Proof.Bits.Args
import proofs.«117955_j45552423141950_1_alg».proof.Proof.Gen.Kernel.Skeleton
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The blocks the launch stages -/

/-- Window `w`'s block at grid point `t`, read off its array as the launch finds it. -/
def blockAt (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The video window's staging buffer holds the point's video slab whenever the body runs, for any proof data
    whose array is the launch's and whose body leaves the slab in place. -/
theorem video_staged {c : Dev nD} (dat : Dat τ (Elt F) Unit ℕ (UR sig nD τ) ℕ cfg0 c) (hA : dat.A 0 = V m c (Pipeline.arrRef spec0 0))
    (hafter : ∀ t, dat.after 0 t = blockAt m c 0 t) (t : Fin cfg0.N) (d) : dat.before 0 t d = blockAt m c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)

/-- The prompt window's staging buffer holds the point's prompt image whenever the body runs. -/
theorem prompt_staged {c : Dev nD} (dat : Dat τ (Elt F) Unit ℕ (UR sig nD τ) ℕ cfg0 c) (hA : dat.A 1 = V m c (Pipeline.arrRef spec0 1))
    (hafter : ∀ t, dat.after 1 t = blockAt m c 1 t) (t : Fin cfg0.N) (d) : dat.before 1 t d = blockAt m c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)

/-! ## From the launch's post to the frame claim -/

/-- A run of @main to the launch's post leaves every argument array as it started: the video array is an input
    window's array, which the launch never writes; the other seven arguments are staged by no window and end as the
    launch found them; and the launch found all eight as they started (`V_argK`). -/
theorem frame_of_run (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨((h c).1 0).trans (((dats 0 c).arrAt_in 0 rfl _).trans ((hA c 0).trans (V_arg0 m c))),
      ((h c).2 main_arg1 (Pipeline.mem_restRefs_of main_arg1 (by decide) (by decide))).trans (V_arg1 m c),
      ((h c).2 main_arg2 (Pipeline.mem_restRefs_of main_arg2 (by decide) (by decide))).trans (V_arg2 m c),
      ((h c).2 main_arg3 (Pipeline.mem_restRefs_of main_arg3 (by decide) (by decide))).trans (V_arg3 m c),
      ((h c).2 main_arg4 (Pipeline.mem_restRefs_of main_arg4 (by decide) (by decide))).trans (V_arg4 m c),
      ((h c).2 main_arg5 (Pipeline.mem_restRefs_of main_arg5 (by decide) (by decide))).trans (V_arg5 m c),
      ((h c).2 main_arg6 (Pipeline.mem_restRefs_of main_arg6 (by decide) (by decide))).trans (V_arg6 m c),
      ((h c).2 main_arg7 (Pipeline.mem_restRefs_of main_arg7 (by decide) (by decide))).trans (V_arg7 m c)⟩) h

/-! ## What the body leaves in the output block -/

/-- The whole video block [1, 1, 16, 224, 224], -/
abbrev wholeSlab : Rect S1x1x16x224x224 := Rect.unit (s := S1x1x16x224x224) ![0, 0, 0, 0, 0] S1x1x16x224x224.size inb_S1x1x16x224x224_S1x1x16x224x224_0_0_0_0_0
/-- and the whole prompt block [1, 1, 224, 224]: the body's three loads and its one store go through these. -/
abbrev wholeImage : Rect S1x1x224x224 := Rect.unit (s := S1x1x224x224) ![0, 0, 0, 0] S1x1x224x224.size inb_S1x1x224x224_S1x1x224x224_0_0_0_0

/-- The output block after the body, from the two input blocks: the body's one store, of the sum of the video slab
    and the prompt image repeated over the frames (the skeleton's payload), laid over the whole block. -/
def sumBlock (x0 : Vec F S1x1x16x224x224 .f32) (x1 : Vec F S1x1x224x224 .f32) : Vec F S1x1x16x224x224 .f32 :=
  View.canon [⟨wholeSlab, k0_pay1 (View.ld x0 wholeSlab) (View.ld x1 wholeImage)⟩]

/-- The one store covers the output block. -/
theorem store_covers (p0 : Vec F S1x1x16x224x224 .f32) (y : S1x1x16x224x224.Idx) :
    ∃ pc ∈ ([⟨wholeSlab, p0⟩] : List (View.Piece (Elt F) S1x1x16x224x224 .f32)), y ∈ pc.1.set :=
  View.cover_of_tiled [⟨wholeSlab, p0⟩] S1x1x16x224x224.size (by rfl) y

/-! ## The body's triple -/

set_option maxHeartbeats 1000000 in
/-- The body on whole staging buffers — the two inputs' at contents reading `x0`, `x1`, the output's at anything —
    runs to its end without a fault, leaving the inputs as they were and the output reading `sumBlock x0 x1`. -/
theorem body_runs (c : Dev nD) (E : Set ℕ) (i : grid0.Coords)
    (arg2 : Memref sig .tc .vmem S1x1x16x224x224 .f32) (harg2 : arg2.IsWhole)
    (arg3 : Memref sig .tc .vmem S1x1x224x224 .f32) (harg3 : arg3.IsWhole)
    (arg4 : Memref sig .tc .vmem S1x1x16x224x224 .f32) (harg4 : arg4.IsWhole)
    (x0 : Vec F S1x1x16x224x224 .f32) (x1 : Vec F S1x1x224x224 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (sumBlock x0 x1)) -∗ K ⟨⟩))
      ⊢ wp frame (wpE (defs₀ (F := F)) Variants.none c none) E (cc0__add_kernel i arg2 harg2 arg3 harg3 arg4 harg4) K := by
  simp only [cc0__add_kernel_eq_skeleton]; unfold cc0__add_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (store_covers _)

/-! ## The launch's proof data -/

/-- On core `c`: the arrays as the launch finds them; after the body at point `t` the two inputs' buffers at their
    blocks and the output's at `sumBlock` of them; the plain invariant; nothing owed; whole shares. -/
def dats (_ : Fin 1) (c : Dev nD) : Dat τ (Elt F) Unit ℕ (UR sig nD τ) ℕ cfg0 c where
  A w := V m c (Pipeline.arrRef spec0 w)
  after w t := match w with
    | ⟨0, _⟩ => blockAt m c 0 t
    | ⟨1, _⟩ => blockAt m c 1 t
    | ⟨2, _⟩ => sumBlock (blockAt m c 0 t) (blockAt m c 1 t)
  Φ _ := Pipeline.ΦA spec0 c
  q _ := fullShare
  owed _ := 0

theorem dats_A (c : Dev nD) (w : Fin cfg0.W) : (dats m 0 c).A w = V m c (Pipeline.arrRef spec0 w) := by
  dsimp only [dats]

theorem after_video (c : Dev nD) (t : Fin cfg0.N) : (dats m 0 c).after 0 t = blockAt m c 0 t := by dsimp only [dats]
theorem after_prompt (c : Dev nD) (t : Fin cfg0.N) : (dats m 0 c).after 1 t = blockAt m c 1 t := by dsimp only [dats]
theorem after_out (c : Dev nD) (t : Fin cfg0.N) : (dats m 0 c).after 2 t = sumBlock (blockAt m c 0 t) (blockAt m c 1 t) := by dsimp only [dats]

theorem before_video (c : Dev nD) (t : Fin cfg0.N) (d) : (dats m 0 c).before 0 t d = blockAt m c 0 t :=
  video_staged m (dats m 0 c) (dats_A m c 0) (after_video m c) t d
theorem before_prompt (c : Dev nD) (t : Fin cfg0.N) (d) : (dats m 0 c).before 1 t d = blockAt m c 1 t :=
  prompt_staged m (dats m 0 c) (dats_A m c 1) (after_prompt m c) t d

/-! ## The body obligation -/

/-- What the body is called with at point `t`, -/
def pointPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it returns. -/
def pointPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The body at any point: the inputs' staging buffers hold their blocks, so `body_runs` applies; the invariant and
    what the core owes pass through untouched. -/
theorem point_runs (c : Dev nD) (t : Fin cfg0.N) :
    pointPre m c t ⊢ wp frame (wpE (defs₀ (F := F)) Variants.none c none) Set.univ (bodyAt0 t) (fun _ => pointPost m c t) := by
  unfold pointPre pointPost bodyAt0
  simp only [before_video, before_prompt]
  rw [show (dats m 0 c).Φ t.succ = (dats m 0 c).Φ t.castSucc from rfl,
    show (dats m 0 c).owesAt () t.succ = (dats m 0 c).owesAt () t.castSucc from rfl,
    after_video, after_prompt, after_out]
  iintro ⟨HΦ, Ho, ⟨%d0, H0⟩, ⟨%d1, H1⟩, ⟨%d2, H2⟩⟩
  iapply (body_runs c Set.univ (grid0.coords t) _ _ _ _ _ _ (blockAt m c 0 t) (blockAt m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The launch's body obligation, at every point. -/
theorem body_obligation (c : Dev nD) : BodyObligation (dats (F := F) m 0 c) (defs₀ (F := F)) Variants.none () Set.univ := fun t => by
  rw [bigSep_W0, bigSep_W0]
  exact point_runs m c t

/-! ## The run and the frame -/

set_option backward.isDefEq.respectTransparency.types false in
/-- From any memory with zero counters every weakly fair execution of @main terminates without a fault, ending with
    each array of the launch at what the proof data computes (the output: every slab overwritten by `sumBlock` of its
    point's blocks) and every other unscoped buffer as the launch found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := reaches_launch m Variants.none) (hA := dats_A m) (hΦ := fun _ _ => rfl)

/-- The frame claim of this program, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of_run m ρ (dats m) (dats_A m) (run_main m ρ)

end Cert.Kernel.Hand

end
-- ==== Proof.Ideal.Entry.lean ====
/-
  The arrays as the launch of the add kernel finds them.

  @main is fifteen stretches of host operations — the per-sample construction of the prompt image
  [16,3,224,224] out of the four padding tables by bilinear resampling, gathers and selects — followed by
  ONE launch: the kernel that adds the prompt to every frame of the video. No host operation writes an
  argument array, so the launch finds the eight arguments as they were at the start; the prompt it finds
  in `main_v298` is the fold of the host operations over the start memory, which this file never opens.
-/
import proofs.«117955_j45552423141950_1_alg».proof.Proof.Gen.KernelIdeal.Launch
import proofs.«117955_j45552423141950_1_alg».proof.Proof.Gen.KernelIdeal.Points
import Idealize.ShloMosaic.Lib.Pipeline.FrameBody
import Idealize.ShloMosaic.Lib.StableHlo.Run

set_option maxRecDepth 16384

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

variable (m : (ℓ : Loc nD τ sig) → Buf (Elt F) ℓ) (ρ : Dev nD → PrngReg)

/-! ## The host operations before the launch -/

/-- The stretches of host operations @main runs before the launch, in order. -/
abbrev stretches : List (List (HloOp τ sig (Elt F))) :=
  [hostOps0, hostOps0_1, hostOps0_2, hostOps0_3, hostOps0_4, hostOps0_5, hostOps0_6, hostOps0_7, hostOps0_8, hostOps0_9, hostOps0_10, hostOps0_11, hostOps0_12, hostOps0_13, hostOps0_14]

/-- Core `c`'s buffers when the launch is reached: the start memory after every host operation, in order. -/
abbrev V (c : Dev nD) (b : Ref sig .tc) : Buf (Elt F) ((c : Thread nD τ).loc b) :=
  StableHlo.after (List.flatten (stretches (F := F))) (fun b => m (c, b)) b

/-- No operation of this stretch allocates a buffer. -/
theorem hostOps0_fresh : (hostOps0 : List (HloOp τ sig (Elt F))).Forall fun op => op.fresh = ∅ := by
  simp only [List.Forall]; repeat' constructor
/-- No operation of this stretch allocates a buffer. -/
theorem hostOps0_1_fresh : (hostOps0_1 : List (HloOp τ sig (Elt F))).Forall fun op => op.fresh = ∅ := by
  simp only [List.Forall]; repeat' constructor
/-- No operation of this stretch allocates a buffer. -/
theorem hostOps0_2_fresh : (hostOps0_2 : List (HloOp τ sig (Elt F))).Forall fun op => op.fresh = ∅ := by
  simp only [List.Forall]; repeat' constructor
/-- No operation of this stretch allocates a buffer. -/
theorem hostOps0_3_fresh : (hostOps0_3 : List (HloOp τ sig (Elt F))).Forall fun op => op.fresh = ∅ := by
  simp only [List.Forall]; repeat' constructor
/-- No operation of this stretch allocates a buffer. -/
theorem hostOps0_4_fresh : (hostOps0_4 : List (HloOp τ sig (Elt F))).Forall fun op => op.fresh = ∅ := by
  simp only [List.Forall]; repeat' constructor
/-- No operation of this stretch allocates a buffer. -/
theorem hostOps0_5_fresh : (hostOps0_5 : List (HloOp τ sig (Elt F))).Forall fun op => op.fresh = ∅ := by
  simp only [List.Forall]; repeat' constructor
/-- No operation of this stretch allocates a buffer. -/
theorem hostOps0_6_fresh : (hostOps0_6 : List (HloOp τ sig (Elt F))).Forall fun op => op.fresh = ∅ := by
  simp only [List.Forall]; repeat' constructor
/-- No operation of this stretch allocates a buffer. -/
theorem hostOps0_7_fresh : (hostOps0_7 : List (HloOp τ sig (Elt F))).Forall fun op => op.fresh = ∅ := by
  simp only [List.Forall]; repeat' constructor
/-- No operation of this stretch allocates a buffer. -/
theorem hostOps0_8_fresh : (hostOps0_8 : List (HloOp τ sig (Elt F))).Forall fun op => op.fresh = ∅ := by
  simp only [List.Forall]; repeat' constructor
/-- No operation of this stretch allocates a buffer. -/
theorem hostOps0_9_fresh : (hostOps0_9 : List (HloOp τ sig (Elt F))).Forall fun op => op.fresh = ∅ := by
  simp only [List.Forall]; repeat' constructor
/-- No operation of this stretch allocates a buffer. -/
theorem hostOps0_10_fresh : (hostOps0_10 : List (HloOp τ sig (Elt F))).Forall fun op => op.fresh = ∅ := by
  simp only [List.Forall]; repeat' constructor
/-- No operation of this stretch allocates a buffer. -/
theorem hostOps0_11_fresh : (hostOps0_11 : List (HloOp τ sig (Elt F))).Forall fun op => op.fresh = ∅ := by
  simp only [List.Forall]; repeat' constructor
/-- No operation of this stretch allocates a buffer. -/
theorem hostOps0_12_fresh : (hostOps0_12 : List (HloOp τ sig (Elt F))).Forall fun op => op.fresh = ∅ := by
  simp only [List.Forall]; repeat' constructor
/-- No operation of this stretch allocates a buffer. -/
theorem hostOps0_13_fresh : (hostOps0_13 : List (HloOp τ sig (Elt F))).Forall fun op => op.fresh = ∅ := by
  simp only [List.Forall]; repeat' constructor
/-- No operation of this stretch allocates a buffer. -/
theorem hostOps0_14_fresh : (hostOps0_14 : List (HloOp τ sig (Elt F))).Forall fun op => op.fresh = ∅ := by
  simp only [List.Forall]; repeat' constructor

/-- @main is the host stretches followed by the launch, so it reaches the launch holding the buffers at `V`. -/
theorem reaches_launch (𝒱₀ : Variants) :
    Pipeline.HMain (Ix := Unit) (Name := ℕ) (U := UR sig nD τ) (Lvl := ℕ) cfgs 0 defs₀ 𝒱₀ m (main (F := F)) (V m) :=
  Pipeline.hmain_prefixes cfgs 0 defs₀ 𝒱₀ m main (stretches (F := F))
    (by simp only [List.Forall]; exact ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub, hostOps0_12_sub, hostOps0_13_sub, hostOps0_14_sub⟩)
    (by simp only [List.Forall]; exact ⟨hostOps0_fresh, hostOps0_1_fresh, hostOps0_2_fresh, hostOps0_3_fresh, hostOps0_4_fresh, hostOps0_5_fresh, hostOps0_6_fresh, hostOps0_7_fresh, hostOps0_8_fresh, hostOps0_9_fresh, hostOps0_10_fresh, hostOps0_11_fresh, hostOps0_12_fresh, hostOps0_13_fresh, hostOps0_14_fresh⟩) main_chain

end Cert.KernelIdeal.Hand

end
-- ==== Proof.Ideal.Args.lean ====
/-
  The eight argument arrays at the launch: every host operation before the launch writes a buffer of its own
  (a constant, a comparison, a gather, a select, …) and none writes an argument, so each argument is found as it
  was when @main started.
-/
import proofs.«117955_j45552423141950_1_alg».proof.Proof.Ideal.Entry

set_option maxRecDepth 16384

noncomputable section

namespace Cert.KernelIdeal.Hand

open Idealize.ShloMosaic Idealize.ShloMosaic.TcCoe
open Idealize.SL Idealize.SL.Sem
open Cert.KernelIdeal Cert.KernelIdeal.Gen

variable {F : FTy → Type} [FloatOps F]

variable (m : (ℓ : Loc nD τ sig) → Buf (Elt F) ℓ)

/-- No host operation writes argument 0: the launch finds it as it was at the start. -/
theorem V_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.append_nil, List.cons_append,
      List.nil_append, List.Forall, StableHlo.TRef.unary, StableHlo.TRef.ternary, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))

/-- No host operation writes argument 1: the launch finds it as it was at the start. -/
theorem V_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.append_nil, List.cons_append,
      List.nil_append, List.Forall, StableHlo.TRef.unary, StableHlo.TRef.ternary, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))

/-- No host operation writes argument 2: the launch finds it as it was at the start. -/
theorem V_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.append_nil, List.cons_append,
      List.nil_append, List.Forall, StableHlo.TRef.unary, StableHlo.TRef.ternary, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))

/-- No host operation writes argument 3: the launch finds it as it was at the start. -/
theorem V_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.append_nil, List.cons_append,
      List.nil_append, List.Forall, StableHlo.TRef.unary, StableHlo.TRef.ternary, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))

/-- No host operation writes argument 4: the launch finds it as it was at the start. -/
theorem V_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.append_nil, List.cons_append,
      List.nil_append, List.Forall, StableHlo.TRef.unary, StableHlo.TRef.ternary, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))

/-- No host operation writes argument 5: the launch finds it as it was at the start. -/
theorem V_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.append_nil, List.cons_append,
      List.nil_append, List.Forall, StableHlo.TRef.unary, StableHlo.TRef.ternary, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))

/-- No host operation writes argument 6: the launch finds it as it was at the start. -/
theorem V_arg6 (c : Dev nD) : V m c main_arg6 = m ((c : Thread nD τ).loc main_arg6) :=
  StableHlo.after_of_forall_not_mem (b := Proc.devRef .tc main_arg6) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.append_nil, List.cons_append,
      List.nil_append, List.Forall, StableHlo.TRef.unary, StableHlo.TRef.ternary, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))

/-- No host operation writes argument 7: the launch finds it as it was at the start. -/
theorem V_arg7 (c : Dev nD) : V m c main_arg7 = m ((c : Thread nD τ).loc main_arg7) :=
  StableHlo.after_of_forall_not_mem (b := Proc.devRef .tc main_arg7) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.append_nil, List.cons_append,
      List.nil_append, List.Forall, StableHlo.TRef.unary, StableHlo.TRef.ternary, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))

end Cert.KernelIdeal.Hand

end
-- ==== Proof.Ideal.Body.lean ====
/-
  The frame run of the add kernel.

  The launch walks a grid of 16 × 3 points, one per (sample, channel). At point (b, c) it stages the video slab
  x[b, c, :, :, :] (sixteen frames) and the prompt image p[b, c, :, :], runs the body, and writes the output slab
  out[b, c, :, :, :] back. The body loads both staged blocks whole, adds the prompt image to each of the sixteen
  frames, and stores the sum over the whole output block; it also loads the output block before storing it, a
  value it never uses. So what the body leaves in the output block is one function of the two input blocks
  (`sumBlock`), the inputs stay in place, and nothing is carried from point to point: the launch's invariant is
  the plain one, and every run of @main ends with the argument arrays as they started.
-/
import proofs.«117955_j45552423141950_1_alg».proof.Proof.Ideal.Args
import proofs.«117955_j45552423141950_1_alg».proof.Proof.Gen.KernelIdeal.Skeleton
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The blocks the launch stages -/

/-- Window `w`'s block at grid point `t`, read off its array as the launch finds it. -/
def blockAt (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The video window's staging buffer holds the point's video slab whenever the body runs, for any proof data
    whose array is the launch's and whose body leaves the slab in place. -/
theorem video_staged {c : Dev nD} (dat : Dat τ (Elt F) Unit ℕ (UR sig nD τ) ℕ cfg0 c) (hA : dat.A 0 = V m c (Pipeline.arrRef spec0 0))
    (hafter : ∀ t, dat.after 0 t = blockAt m c 0 t) (t : Fin cfg0.N) (d) : dat.before 0 t d = blockAt m c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)

/-- The prompt window's staging buffer holds the point's prompt image whenever the body runs. -/
theorem prompt_staged {c : Dev nD} (dat : Dat τ (Elt F) Unit ℕ (UR sig nD τ) ℕ cfg0 c) (hA : dat.A 1 = V m c (Pipeline.arrRef spec0 1))
    (hafter : ∀ t, dat.after 1 t = blockAt m c 1 t) (t : Fin cfg0.N) (d) : dat.before 1 t d = blockAt m c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)

/-! ## From the launch's post to the frame claim -/

/-- A run of @main to the launch's post leaves every argument array as it started: the video array is an input
    window's array, which the launch never writes; the other seven arguments are staged by no window and end as the
    launch found them; and the launch found all eight as they started (`V_argK`). -/
theorem frame_of_run (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨((h c).1 0).trans (((dats 0 c).arrAt_in 0 rfl _).trans ((hA c 0).trans (V_arg0 m c))),
      ((h c).2 main_arg1 (Pipeline.mem_restRefs_of main_arg1 (by decide) (by decide))).trans (V_arg1 m c),
      ((h c).2 main_arg2 (Pipeline.mem_restRefs_of main_arg2 (by decide) (by decide))).trans (V_arg2 m c),
      ((h c).2 main_arg3 (Pipeline.mem_restRefs_of main_arg3 (by decide) (by decide))).trans (V_arg3 m c),
      ((h c).2 main_arg4 (Pipeline.mem_restRefs_of main_arg4 (by decide) (by decide))).trans (V_arg4 m c),
      ((h c).2 main_arg5 (Pipeline.mem_restRefs_of main_arg5 (by decide) (by decide))).trans (V_arg5 m c),
      ((h c).2 main_arg6 (Pipeline.mem_restRefs_of main_arg6 (by decide) (by decide))).trans (V_arg6 m c),
      ((h c).2 main_arg7 (Pipeline.mem_restRefs_of main_arg7 (by decide) (by decide))).trans (V_arg7 m c)⟩) h

/-! ## What the body leaves in the output block -/

/-- The whole video block [1, 1, 16, 224, 224], -/
abbrev wholeSlab : Rect S1x1x16x224x224 := Rect.unit (s := S1x1x16x224x224) ![0, 0, 0, 0, 0] S1x1x16x224x224.size inb_S1x1x16x224x224_S1x1x16x224x224_0_0_0_0_0
/-- and the whole prompt block [1, 1, 224, 224]: the body's three loads and its one store go through these. -/
abbrev wholeImage : Rect S1x1x224x224 := Rect.unit (s := S1x1x224x224) ![0, 0, 0, 0] S1x1x224x224.size inb_S1x1x224x224_S1x1x224x224_0_0_0_0

/-- The output block after the body, from the two input blocks: the body's one store, of the sum of the video slab
    and the prompt image repeated over the frames (the skeleton's payload), laid over the whole block. -/
def sumBlock (x0 : Vec F S1x1x16x224x224 .f32) (x1 : Vec F S1x1x224x224 .f32) : Vec F S1x1x16x224x224 .f32 :=
  View.canon [⟨wholeSlab, k0_pay1 (View.ld x0 wholeSlab) (View.ld x1 wholeImage)⟩]

/-- The one store covers the output block. -/
theorem store_covers (p0 : Vec F S1x1x16x224x224 .f32) (y : S1x1x16x224x224.Idx) :
    ∃ pc ∈ ([⟨wholeSlab, p0⟩] : List (View.Piece (Elt F) S1x1x16x224x224 .f32)), y ∈ pc.1.set :=
  View.cover_of_tiled [⟨wholeSlab, p0⟩] S1x1x16x224x224.size (by rfl) y

/-! ## The body's triple -/

set_option maxHeartbeats 1000000 in
/-- The body on whole staging buffers — the two inputs' at contents reading `x0`, `x1`, the output's at anything —
    runs to its end without a fault, leaving the inputs as they were and the output reading `sumBlock x0 x1`. -/
theorem body_runs (c : Dev nD) (E : Set ℕ) (i : grid0.Coords)
    (arg2 : Memref sig .tc .vmem S1x1x16x224x224 .f32) (harg2 : arg2.IsWhole)
    (arg3 : Memref sig .tc .vmem S1x1x224x224 .f32) (harg3 : arg3.IsWhole)
    (arg4 : Memref sig .tc .vmem S1x1x16x224x224 .f32) (harg4 : arg4.IsWhole)
    (x0 : Vec F S1x1x16x224x224 .f32) (x1 : Vec F S1x1x224x224 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (sumBlock x0 x1)) -∗ K ⟨⟩))
      ⊢ wp frame (wpE (defs₀ (F := F)) Variants.none c none) E (cc0__add_kernel i arg2 harg2 arg3 harg3 arg4 harg4) K := by
  simp only [cc0__add_kernel_eq_skeleton]; unfold cc0__add_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (store_covers _)

/-! ## The launch's proof data -/

/-- On core `c`: the arrays as the launch finds them; after the body at point `t` the two inputs' buffers at their
    blocks and the output's at `sumBlock` of them; the plain invariant; nothing owed; whole shares. -/
def dats (_ : Fin 1) (c : Dev nD) : Dat τ (Elt F) Unit ℕ (UR sig nD τ) ℕ cfg0 c where
  A w := V m c (Pipeline.arrRef spec0 w)
  after w t := match w with
    | ⟨0, _⟩ => blockAt m c 0 t
    | ⟨1, _⟩ => blockAt m c 1 t
    | ⟨2, _⟩ => sumBlock (blockAt m c 0 t) (blockAt m c 1 t)
  Φ _ := Pipeline.ΦA spec0 c
  q _ := fullShare
  owed _ := 0

theorem dats_A (c : Dev nD) (w : Fin cfg0.W) : (dats m 0 c).A w = V m c (Pipeline.arrRef spec0 w) := by
  dsimp only [dats]

theorem after_video (c : Dev nD) (t : Fin cfg0.N) : (dats m 0 c).after 0 t = blockAt m c 0 t := by dsimp only [dats]
theorem after_prompt (c : Dev nD) (t : Fin cfg0.N) : (dats m 0 c).after 1 t = blockAt m c 1 t := by dsimp only [dats]
theorem after_out (c : Dev nD) (t : Fin cfg0.N) : (dats m 0 c).after 2 t = sumBlock (blockAt m c 0 t) (blockAt m c 1 t) := by dsimp only [dats]

theorem before_video (c : Dev nD) (t : Fin cfg0.N) (d) : (dats m 0 c).before 0 t d = blockAt m c 0 t :=
  video_staged m (dats m 0 c) (dats_A m c 0) (after_video m c) t d
theorem before_prompt (c : Dev nD) (t : Fin cfg0.N) (d) : (dats m 0 c).before 1 t d = blockAt m c 1 t :=
  prompt_staged m (dats m 0 c) (dats_A m c 1) (after_prompt m c) t d

/-! ## The body obligation -/

/-- What the body is called with at point `t`, -/
def pointPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it returns. -/
def pointPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The body at any point: the inputs' staging buffers hold their blocks, so `body_runs` applies; the invariant and
    what the core owes pass through untouched. -/
theorem point_runs (c : Dev nD) (t : Fin cfg0.N) :
    pointPre m c t ⊢ wp frame (wpE (defs₀ (F := F)) Variants.none c none) Set.univ (bodyAt0 t) (fun _ => pointPost m c t) := by
  unfold pointPre pointPost bodyAt0
  simp only [before_video, before_prompt]
  rw [show (dats m 0 c).Φ t.succ = (dats m 0 c).Φ t.castSucc from rfl,
    show (dats m 0 c).owesAt () t.succ = (dats m 0 c).owesAt () t.castSucc from rfl,
    after_video, after_prompt, after_out]
  iintro ⟨HΦ, Ho, ⟨%d0, H0⟩, ⟨%d1, H1⟩, ⟨%d2, H2⟩⟩
  iapply (body_runs c Set.univ (grid0.coords t) _ _ _ _ _ _ (blockAt m c 0 t) (blockAt m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The launch's body obligation, at every point. -/
theorem body_obligation (c : Dev nD) : BodyObligation (dats (F := F) m 0 c) (defs₀ (F := F)) Variants.none () Set.univ := fun t => by
  rw [bigSep_W0, bigSep_W0]
  exact point_runs m c t

/-! ## The run and the frame -/

set_option backward.isDefEq.respectTransparency.types false in
/-- From any memory with zero counters every weakly fair execution of @main terminates without a fault, ending with
    each array of the launch at what the proof data computes (the output: every slab overwritten by `sumBlock` of its
    point's blocks) and every other unscoped buffer as the launch found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := reaches_launch m Variants.none) (hA := dats_A m) (hΦ := fun _ _ => rfl)

/-- The frame claim of this program, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of_run m ρ (dats m) (dats_A m) (run_main m ρ)

end Cert.KernelIdeal.Hand

end
-- ==== Proof.Ideal.Payload.lean ====
/-
  The body's arithmetic at one entry.

  The body views the video block [1, 1, 16, 224, 224] as sixteen frames [16, 224, 224], views the prompt block
  [1, 1, 224, 224] as one image [224, 224], then as one frame [1, 224, 224] repeated sixteen times, adds, and views
  the sum as a block [1, 1, 16, 224, 224] again. Every one of these re-layouts keeps an entry's row-major position,
  so on the extended reals entry (t, i, j) of the stored block is the video entry (t, i, j) plus the prompt entry (i, j).
-/
import proofs.«117955_j45552423141950_1_alg».proof.Proof.Gen.KernelIdeal.Skeleton
import Idealize.ShloMosaic.PureOps.Ideal
import Idealize.ShloMosaic.Lib.Pipeline.Value
import Idealize.ShloMosaic.Lib.ValueIdx

noncomputable section

namespace Cert.KernelIdeal.Hand

open Idealize.ShloMosaic Idealize.ShloMosaic.ValueIdx
open Cert.KernelIdeal Cert.KernelIdeal.Gen

/-- Entry (t, i, j) of what the body stores: the video block's entry plus the prompt block's entry (i, j). -/
theorem stored_entry (x0 : Vec Ideal S1x1x16x224x224 .f32) (x1 : Vec Ideal S1x1x224x224 .f32)
    (u v : Fin 1) (t : Fin 16) (i j : Fin 224) :
    k0_pay1 (F := Ideal) x0 x1 (ix5 u v t i j) = x0 (ix5 u v t i j) + x1 (ix4 u v i j) := by
  have hu : u.val = 0 := by have := u.isLt; omega
  have hv : v.val = 0 := by have := v.isLt; omega
  unfold k0_pay1
  -- the block seen as sixteen frames: same row-major position
  refine (shapeCast_apply _ _ (ix5 u v t i j) (ix3 t i j) ?_).trans ?_
  · rw [Shape.rowMajor_val_three, Shape.rowMajor_val_five]
    show (t.val * 224 + i.val) * 224 + j.val = ((((u.val * 1 + v.val) * 16 + t.val) * 224 + i.val) * 224 + j.val)
    rw [hu, hv]; omega
  refine congrArg₂ (fun a b : EReal => a + b) ?_ ?_
  · -- the video block seen as sixteen frames
    refine shapeCast_apply _ _ (ix3 t i j) (ix5 u v t i j) ?_
    rw [Shape.rowMajor_val_three, Shape.rowMajor_val_five]
    show ((((u.val * 1 + v.val) * 16 + t.val) * 224 + i.val) * 224 + j.val) = (t.val * 224 + i.val) * 224 + j.val
    rw [hu, hv]; omega
  · -- the one prompt frame repeated over the sixteen frames
    refine (broadcastTo_apply _ _ (ix3 t i j) (ix3 (0 : Fin 1) i j) ?_).trans ?_
    · intro a
      match a with
      | ⟨0, _⟩ => rfl
      | ⟨1, _⟩ => rfl
      | ⟨2, _⟩ => rfl
    -- the image seen as one frame
    refine (shapeCast_apply _ _ (ix3 (0 : Fin 1) i j) (ix2 i j) ?_).trans ?_
    · rw [Shape.rowMajor_val_two, Shape.rowMajor_val_three]
      show i.val * 224 + j.val = (0 * 224 + i.val) * 224 + j.val
      omega
    -- the prompt block seen as one image
    refine shapeCast_apply _ _ (ix2 i j) (ix4 u v i j) ?_
    rw [Shape.rowMajor_val_two, Shape.rowMajor_val_four]
    show (((u.val * 1 + v.val) * 224 + i.val) * 224 + j.val) = i.val * 224 + j.val
    rw [hu, hv]; omega

end Cert.KernelIdeal.Hand

end
-- ==== Proof.Spec.lean ====
/-
  What both programs compute, as one function of two arrays.

  The video `x` has shape [16, 3, 16, 224, 224] (sample, channel, frame, row, column) and the prompt `p` has shape
  [16, 3, 224, 224] (sample, channel, row, column). The result adds the prompt to every frame:
  `out[b, c, t, i, j] = x[b, c, t, i, j] + p[b, c, i, j]`, on the extended reals.
-/
import Idealize.ShloMosaic.PureOps.Ideal
import Idealize.ShloMosaic.Lib.ValueIdx

noncomputable section

namespace Cert.Spec

open Idealize.ShloMosaic Idealize.ShloMosaic.ValueIdx

/-- The video's shape: 16 samples, 3 channels, 16 frames of 224 × 224. -/
abbrev Video : Shape := ⟨5, ![16, 3, 16, 224, 224]⟩
/-- The prompt's shape: per sample and channel one 224 × 224 image. -/
abbrev Prompt : Shape := ⟨4, ![16, 3, 224, 224]⟩

/-- The prompt image of a sample and channel added to each of its sixteen frames. -/
def addToFrames (x : FVec Ideal Video .f32) (p : FVec Ideal Prompt .f32) : FVec Ideal Video .f32 :=
  fun i => x i + p (ix4 (i 0) (i 1) (i 3) (i 4))

theorem addToFrames_apply (x : FVec Ideal Video .f32) (p : FVec Ideal Prompt .f32)
    (b : Fin 16) (c : Fin 3) (t : Fin 16) (i j : Fin 224) :
    addToFrames x p (ix5 b c t i j) = x (ix5 b c t i j) + p (ix4 b c i j) := rfl

end Cert.Spec

end
-- ==== Proof.Ideal.Value.lean ====
/-
  The output array after the run, as one function of the video and the prompt.

  Grid point (b, c) writes back the slab out[b, c, :, :, :], and what it writes is the video slab x[b, c, :, :, :]
  plus the prompt image p[b, c, :, :] on each frame: the output window and the video window are cut by the same
  index map, and the prompt window by its first two coordinates. The 48 slabs tile the output array, so after the
  run the whole array is `x[b, c, t, i, j] + p[b, c, i, j]` (`Cert.Spec.addToFrames`), on the extended reals.
-/
import proofs.«117955_j45552423141950_1_alg».proof.Proof.Ideal.Body
import proofs.«117955_j45552423141950_1_alg».proof.Proof.Ideal.Payload
import proofs.«117955_j45552423141950_1_alg».proof.Proof.Spec

set_option maxRecDepth 16384

noncomputable section

namespace Cert.KernelIdeal.Hand

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.Spec

variable (m : (ℓ : Loc nD τ sig) → Buf (Elt Ideal) ℓ) (ρ : Dev nD → PrngReg)

theorem zeros5 : (![0, 0, 0, 0, 0] : Fin 5 → Nat) = fun _ => 0 := funext fun a => by fin_cases a <;> rfl
theorem zeros4 : (![0, 0, 0, 0] : Fin 4 → Nat) = fun _ => 0 := funext fun a => by fin_cases a <;> rfl

/-- The three index maps, decided over the 48 grid points: the video window moves with the output window on every
    axis; the prompt window moves with it on the sample and channel axes and stays at zero on its image axes; the
    output window stays at zero on the frame and image axes. -/
theorem index_maps : ∀ t : Fin cfg0.N,
    win0_0.index t (0 : Fin 5) = win0_2.index t (0 : Fin 5)
    ∧ win0_0.index t (1 : Fin 5) = win0_2.index t (1 : Fin 5)
    ∧ win0_0.index t (2 : Fin 5) = win0_2.index t (2 : Fin 5)
    ∧ win0_0.index t (3 : Fin 5) = win0_2.index t (3 : Fin 5)
    ∧ win0_0.index t (4 : Fin 5) = win0_2.index t (4 : Fin 5)
    ∧ win0_1.index t (0 : Fin 4) = win0_2.index t (0 : Fin 5)
    ∧ win0_1.index t (1 : Fin 4) = win0_2.index t (1 : Fin 5)
    ∧ win0_1.index t (2 : Fin 4) = 0
    ∧ win0_1.index t (3 : Fin 4) = 0
    ∧ win0_2.index t (2 : Fin 5) = 0
    ∧ win0_2.index t (3 : Fin 5) = 0
    ∧ win0_2.index t (4 : Fin 5) = 0 :=
  (by decide +kernel : ∀ t : Fin grid0.N, _)

/-- Every (sample, channel) pair is some grid point's. -/
theorem point_of : ∀ (q0 : Fin 16) (q1 : Fin 3), ∃ t : Fin cfg0.N, win0_2.index t = ![q0.val, q1.val, 0, 0, 0] :=
  (by decide +kernel : ∀ (q0 : Fin 16) (q1 : Fin 3), ∃ t : Fin grid0.N, win0_2.index t = ![q0.val, q1.val, 0, 0, 0])

set_option maxHeartbeats 1000000 in
/-- Under the video window an entry of point `t`'s block sits where the same entry of the output window's block sits. -/
theorem video_entry_at (t : Fin cfg0.N) (u v : Fin 1) (f : Fin 16) (i j : Fin 224) :
    ((cfg0.win 0).blk t).view.emb (ix5 u v f i j) = ((cfg0.win 2).blk t).view.emb (ix5 u v f i j) := by
  obtain ⟨e0, e1, e2, e3, e4, p0, p1, p2, p3, o2, o3, o4⟩ := index_maps t
  funext a; apply Fin.ext
  match a with
  | ⟨0, _⟩ => show win0_0.index t (0 : Fin 5) * 1 + 1 * u.val = win0_2.index t (0 : Fin 5) * 1 + 1 * u.val; omega
  | ⟨1, _⟩ => show win0_0.index t (1 : Fin 5) * 1 + 1 * v.val = win0_2.index t (1 : Fin 5) * 1 + 1 * v.val; omega
  | ⟨2, _⟩ => show win0_0.index t (2 : Fin 5) * 16 + 1 * f.val = win0_2.index t (2 : Fin 5) * 16 + 1 * f.val; omega
  | ⟨3, _⟩ => show win0_0.index t (3 : Fin 5) * 224 + 1 * i.val = win0_2.index t (3 : Fin 5) * 224 + 1 * i.val; omega
  | ⟨4, _⟩ => show win0_0.index t (4 : Fin 5) * 224 + 1 * j.val = win0_2.index t (4 : Fin 5) * 224 + 1 * j.val; omega

set_option maxHeartbeats 1000000 in
/-- Under the prompt window entry (i, j) of point `t`'s image sits at the output entry's sample, channel, row and column. -/
theorem prompt_entry_at (t : Fin cfg0.N) (u v : Fin 1) (f : Fin 16) (i j : Fin 224) :
    ((cfg0.win 1).blk t).view.emb (ix4 u v i j)
      = ix4 ((((cfg0.win 2).blk t).view.emb (ix5 u v f i j)) 0) ((((cfg0.win 2).blk t).view.emb (ix5 u v f i j)) 1)
          ((((cfg0.win 2).blk t).view.emb (ix5 u v f i j)) 3) ((((cfg0.win 2).blk t).view.emb (ix5 u v f i j)) 4) := by
  obtain ⟨e0, e1, e2, e3, e4, p0, p1, p2, p3, o2, o3, o4⟩ := index_maps t
  funext a; apply Fin.ext
  match a with
  | ⟨0, _⟩ => show win0_1.index t (0 : Fin 4) * 1 + 1 * u.val = win0_2.index t (0 : Fin 5) * 1 + 1 * u.val; omega
  | ⟨1, _⟩ => show win0_1.index t (1 : Fin 4) * 1 + 1 * v.val = win0_2.index t (1 : Fin 5) * 1 + 1 * v.val; omega
  | ⟨2, _⟩ => show win0_1.index t (2 : Fin 4) * 224 + 1 * i.val = win0_2.index t (3 : Fin 5) * 224 + 1 * i.val; omega
  | ⟨3, _⟩ => show win0_1.index t (3 : Fin 4) * 224 + 1 * j.val = win0_2.index t (4 : Fin 5) * 224 + 1 * j.val; omega

set_option maxHeartbeats 1000000 in
/-- What point `t` writes back is slab `t` of the video plus the prompt on every frame. -/
theorem written_back (c : Dev nD) (t : Fin cfg0.N) :
    (dats (F := Ideal) m 0 c).flushed 2 t
      = ((cfg0.win 2).blk t).view.read (Elt Ideal) (addToFrames (V m c main_arg0) (V m c main_v298)) := by
  show (cfg0.win 2).cut (grid0.coords t) ((dats m 0 c).after 2 t) = _
  rw [after_out]
  unfold sumBlock
  rw [View.canon_unit_zero zeros5]
  simp only [View.ld_unit_zero (S := S1x1x16x224x224) zeros5, View.ld_unit_zero (S := S1x1x224x224) zeros4]
  obtain ⟨e0, e1, e2, e3, e4, p0, p1, p2, p3, o2, o3, o4⟩ := index_maps t
  funext y
  obtain ⟨u, v, f, i, j, rfl⟩ : ∃ (u v : Fin 1) (f : Fin 16) (i j : Fin 224), y = ix5 u v f i j :=
    ⟨y 0, y 1, y 2, y 3, y 4, eq_ix5 y⟩
  refine (stored_entry (blockAt m c 0 t) (blockAt m c 1 t) u v f i j).trans ?_
  show @HAdd.hAdd EReal EReal EReal _ (V m c main_arg0 (((cfg0.win 0).blk t).view.emb (ix5 u v f i j))) (V m c main_v298 (((cfg0.win 1).blk t).view.emb (ix4 u v i j)))
    = @HAdd.hAdd EReal EReal EReal _ (V m c main_arg0 (((cfg0.win 2).blk t).view.emb (ix5 u v f i j)))
      (V m c main_v298 (ix4 ((((cfg0.win 2).blk t).view.emb (ix5 u v f i j)) 0) ((((cfg0.win 2).blk t).view.emb (ix5 u v f i j)) 1)
          ((((cfg0.win 2).blk t).view.emb (ix5 u v f i j)) 3) ((((cfg0.win 2).blk t).view.emb (ix5 u v f i j)) 4)))
  rw [video_entry_at t u v f i j, prompt_entry_at t u v f i j]
  rfl

/-- An entry of the output array lies in point `t`'s slab iff each coordinate lies in the slab's range on its axis. -/
theorem mem_slab (t : Fin cfg0.N) (i : S16x3x16x224x224.Idx) :
    i ∈ ((cfg0.win 2).blk t).view.set ↔ ∀ a : Fin 5, win0_2.index t a * S1x1x16x224x224.size a ≤ (i a).val
      ∧ (i a).val < win0_2.index t a * S1x1x16x224x224.size a + S1x1x16x224x224.size a := by
  show i ∈ ((View.whole main_v299).slice (win0_2.rect t)).set ↔ _
  rw [View.set_slice_whole, Rect.mem_set_unit]
  exact Iff.rfl

/-- The slabs cover the output array: entry (b, c, t, i, j) lies in the slab of the point of (b, c). -/
theorem slabs_cover (i : S16x3x16x224x224.Idx) :
    ∃ t : Fin cfg0.N, (cfg0.win 2).flush t = true ∧ i ∈ ((cfg0.win 2).blk t).view.set := by
  have hi0 : (i 0).val < 16 := (i 0).isLt
  have hi1 : (i 1).val < 3 := (i 1).isLt
  have hi2 : (i 2).val < 16 := (i 2).isLt
  have hi3 : (i 3).val < 224 := (i 3).isLt
  have hi4 : (i 4).val < 224 := (i 4).isLt
  obtain ⟨t, ht⟩ := point_of ⟨(i 0).val, hi0⟩ ⟨(i 1).val, hi1⟩
  have q0 : win0_2.index t (0 : Fin 5) = (i 0).val := congrFun ht 0
  have q1 : win0_2.index t (1 : Fin 5) = (i 1).val := congrFun ht 1
  have q2 : win0_2.index t (2 : Fin 5) = 0 := congrFun ht 2
  have q3 : win0_2.index t (3 : Fin 5) = 0 := congrFun ht 3
  have q4 : win0_2.index t (4 : Fin 5) = 0 := congrFun ht 4
  refine ⟨t, flush0_2 t, ?_⟩
  rw [mem_slab]
  intro a
  match a with
  | ⟨0, _⟩ => show win0_2.index t (0 : Fin 5) * 1 ≤ (i 0).val ∧ (i 0).val < win0_2.index t (0 : Fin 5) * 1 + 1; omega
  | ⟨1, _⟩ => show win0_2.index t (1 : Fin 5) * 1 ≤ (i 1).val ∧ (i 1).val < win0_2.index t (1 : Fin 5) * 1 + 1; omega
  | ⟨2, _⟩ => show win0_2.index t (2 : Fin 5) * 16 ≤ (i 2).val ∧ (i 2).val < win0_2.index t (2 : Fin 5) * 16 + 16; omega
  | ⟨3, _⟩ => show win0_2.index t (3 : Fin 5) * 224 ≤ (i 3).val ∧ (i 3).val < win0_2.index t (3 : Fin 5) * 224 + 224; omega
  | ⟨4, _⟩ => show win0_2.index t (4 : Fin 5) * 224 ≤ (i 4).val ∧ (i 4).val < win0_2.index t (4 : Fin 5) * 224 + 224; omega

/-- The output array after the run: the video plus the prompt on every frame. -/
theorem out_array (c : Dev nD) :
    (dats (F := Ideal) m 0 c).arrAt 2 cfg0.N = addToFrames (V m c main_arg0) (V m c main_v298) :=
  (dats (F := Ideal) m 0 c).arrAt_eq_of_cover 2 _ (fun t _ => written_back m c t) slabs_cover

/-- Every weakly fair execution of the idealized kernel program terminates without a fault, its result array at the
    video (as it started) plus the prompt the host operations computed, on every frame, and its arguments as they started. -/
theorem run : θ_run defs (onTc (τ := τ) (main (F := Ideal))) ⟨m, fun _ => 0, ρ⟩ (fun r => ∀ c : Dev nD,
      r.2.mem ((c.tc : Thread nD τ).loc main_v299) = addToFrames (m ((c.tc : Thread nD τ).loc main_arg0)) (V m c main_v298)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨(((h c).1 2).trans (out_array m c)).trans (by rw [V_arg0]),
      ((h c).1 0).trans (((dats m 0 c).arrAt_in 0 rfl _).trans ((dats_A m c 0).trans (V_arg0 m c))),
      ((h c).2 main_arg1 (Pipeline.mem_restRefs_of main_arg1 (by decide) (by decide))).trans (V_arg1 m c),
      ((h c).2 main_arg2 (Pipeline.mem_restRefs_of main_arg2 (by decide) (by decide))).trans (V_arg2 m c),
      ((h c).2 main_arg3 (Pipeline.mem_restRefs_of main_arg3 (by decide) (by decide))).trans (V_arg3 m c),
      ((h c).2 main_arg4 (Pipeline.mem_restRefs_of main_arg4 (by decide) (by decide))).trans (V_arg4 m c),
      ((h c).2 main_arg5 (Pipeline.mem_restRefs_of main_arg5 (by decide) (by decide))).trans (V_arg5 m c),
      ((h c).2 main_arg6 (Pipeline.mem_restRefs_of main_arg6 (by decide) (by decide))).trans (V_arg6 m c),
      ((h c).2 main_arg7 (Pipeline.mem_restRefs_of main_arg7 (by decide) (by decide))).trans (V_arg7 m c)⟩)
    (run_main m ρ)

end Cert.KernelIdeal.Hand

end
-- ==== Proof.RefRun.lean ====
/-
  The reference program run from any start memory.

  The reference's @main is a straight line of 428 host operations. Each writes one buffer of its own (a constant, a
  comparison, a gather, a select, …) and none writes an argument array. So from any memory with zero counters every
  weakly fair execution terminates, leaves each of the eight arguments as it found it, and leaves in `main_v301`
  what the operations compute, in order, from the start memory: the fold of the operations over that memory, which
  this file states and never opens.
-/
import proofs.«117955_j45552423141950_1_alg».proof.Proof.RefOps

set_option maxRecDepth 16384

noncomputable section

namespace Cert.RefSide

open Idealize.ShloMosaic Idealize.ShloMosaic.TcCoe Idealize.SL.Sem
open Cert.ReferenceIdeal Cert.ReferenceIdeal.Gen Cert.ReferenceIdeal.RunP

variable {F : FTy → Type} [FloatOps F]

variable (m' : (ℓ : Loc nD τ sig) → Buf (Elt F) ℓ)

/-- No operation of the reference writes argument 0: after all of them it is as it was at the start. -/
theorem after_arg0 (c : Dev nD) :
    StableHlo.after (ops (F := F)) (fun b => m' (c, b)) (Proc.devRef .tc main_arg0) = m' ((c.tc : Thread nD τ).loc main_arg0) :=
  StableHlo.after_of_forall_not_mem (b := Proc.devRef .tc main_arg0) _ _ (List.forall_iff_forall_mem.mp (by
    simp only [ops, List.Forall, StableHlo.TRef.unary, StableHlo.TRef.ternary, StableHlo.nullary_writes, StableHlo.unary_writes,
      StableHlo.binary_writes, StableHlo.ternary_writes, StableHlo.reshape_writes, StableHlo.nary_writes, Finset.mem_singleton]
    repeat' apply And.intro
    all_goals exact StableHlo.devRef_ne_of_ne (by decide)))

/-- No operation of the reference writes argument 1: after all of them it is as it was at the start. -/
theorem after_arg1 (c : Dev nD) :
    StableHlo.after (ops (F := F)) (fun b => m' (c, b)) (Proc.devRef .tc main_arg1) = m' ((c.tc : Thread nD τ).loc main_arg1) :=
  StableHlo.after_of_forall_not_mem (b := Proc.devRef .tc main_arg1) _ _ (List.forall_iff_forall_mem.mp (by
    simp only [ops, List.Forall, StableHlo.TRef.unary, StableHlo.TRef.ternary, StableHlo.nullary_writes, StableHlo.unary_writes,
      StableHlo.binary_writes, StableHlo.ternary_writes, StableHlo.reshape_writes, StableHlo.nary_writes, Finset.mem_singleton]
    repeat' apply And.intro
    all_goals exact StableHlo.devRef_ne_of_ne (by decide)))

/-- No operation of the reference writes argument 2: after all of them it is as it was at the start. -/
theorem after_arg2 (c : Dev nD) :
    StableHlo.after (ops (F := F)) (fun b => m' (c, b)) (Proc.devRef .tc main_arg2) = m' ((c.tc : Thread nD τ).loc main_arg2) :=
  StableHlo.after_of_forall_not_mem (b := Proc.devRef .tc main_arg2) _ _ (List.forall_iff_forall_mem.mp (by
    simp only [ops, List.Forall, StableHlo.TRef.unary, StableHlo.TRef.ternary, StableHlo.nullary_writes, StableHlo.unary_writes,
      StableHlo.binary_writes, StableHlo.ternary_writes, StableHlo.reshape_writes, StableHlo.nary_writes, Finset.mem_singleton]
    repeat' apply And.intro
    all_goals exact StableHlo.devRef_ne_of_ne (by decide)))

/-- No operation of the reference writes argument 3: after all of them it is as it was at the start. -/
theorem after_arg3 (c : Dev nD) :
    StableHlo.after (ops (F := F)) (fun b => m' (c, b)) (Proc.devRef .tc main_arg3) = m' ((c.tc : Thread nD τ).loc main_arg3) :=
  StableHlo.after_of_forall_not_mem (b := Proc.devRef .tc main_arg3) _ _ (List.forall_iff_forall_mem.mp (by
    simp only [ops, List.Forall, StableHlo.TRef.unary, StableHlo.TRef.ternary, StableHlo.nullary_writes, StableHlo.unary_writes,
      StableHlo.binary_writes, StableHlo.ternary_writes, StableHlo.reshape_writes, StableHlo.nary_writes, Finset.mem_singleton]
    repeat' apply And.intro
    all_goals exact StableHlo.devRef_ne_of_ne (by decide)))

/-- No operation of the reference writes argument 4: after all of them it is as it was at the start. -/
theorem after_arg4 (c : Dev nD) :
    StableHlo.after (ops (F := F)) (fun b => m' (c, b)) (Proc.devRef .tc main_arg4) = m' ((c.tc : Thread nD τ).loc main_arg4) :=
  StableHlo.after_of_forall_not_mem (b := Proc.devRef .tc main_arg4) _ _ (List.forall_iff_forall_mem.mp (by
    simp only [ops, List.Forall, StableHlo.TRef.unary, StableHlo.TRef.ternary, StableHlo.nullary_writes, StableHlo.unary_writes,
      StableHlo.binary_writes, StableHlo.ternary_writes, StableHlo.reshape_writes, StableHlo.nary_writes, Finset.mem_singleton]
    repeat' apply And.intro
    all_goals exact StableHlo.devRef_ne_of_ne (by decide)))

/-- No operation of the reference writes argument 5: after all of them it is as it was at the start. -/
theorem after_arg5 (c : Dev nD) :
    StableHlo.after (ops (F := F)) (fun b => m' (c, b)) (Proc.devRef .tc main_arg5) = m' ((c.tc : Thread nD τ).loc main_arg5) :=
  StableHlo.after_of_forall_not_mem (b := Proc.devRef .tc main_arg5) _ _ (List.forall_iff_forall_mem.mp (by
    simp only [ops, List.Forall, StableHlo.TRef.unary, StableHlo.TRef.ternary, StableHlo.nullary_writes, StableHlo.unary_writes,
      StableHlo.binary_writes, StableHlo.ternary_writes, StableHlo.reshape_writes, StableHlo.nary_writes, Finset.mem_singleton]
    repeat' apply And.intro
    all_goals exact StableHlo.devRef_ne_of_ne (by decide)))

/-- No operation of the reference writes argument 6: after all of them it is as it was at the start. -/
theorem after_arg6 (c : Dev nD) :
    StableHlo.after (ops (F := F)) (fun b => m' (c, b)) (Proc.devRef .tc main_arg6) = m' ((c.tc : Thread nD τ).loc main_arg6) :=
  StableHlo.after_of_forall_not_mem (b := Proc.devRef .tc main_arg6) _ _ (List.forall_iff_forall_mem.mp (by
    simp only [ops, List.Forall, StableHlo.TRef.unary, StableHlo.TRef.ternary, StableHlo.nullary_writes, StableHlo.unary_writes,
      StableHlo.binary_writes, StableHlo.ternary_writes, StableHlo.reshape_writes, StableHlo.nary_writes, Finset.mem_singleton]
    repeat' apply And.intro
    all_goals exact StableHlo.devRef_ne_of_ne (by decide)))

/-- No operation of the reference writes argument 7: after all of them it is as it was at the start. -/
theorem after_arg7 (c : Dev nD) :
    StableHlo.after (ops (F := F)) (fun b => m' (c, b)) (Proc.devRef .tc main_arg7) = m' ((c.tc : Thread nD τ).loc main_arg7) :=
  StableHlo.after_of_forall_not_mem (b := Proc.devRef .tc main_arg7) _ _ (List.forall_iff_forall_mem.mp (by
    simp only [ops, List.Forall, StableHlo.TRef.unary, StableHlo.TRef.ternary, StableHlo.nullary_writes, StableHlo.unary_writes,
      StableHlo.binary_writes, StableHlo.ternary_writes, StableHlo.reshape_writes, StableHlo.nary_writes, Finset.mem_singleton]
    repeat' apply And.intro
    all_goals exact StableHlo.devRef_ne_of_ne (by decide)))

set_option maxHeartbeats 171200000 in
/-- On every device, from any memory with zero counters: every weakly fair execution of the reference's @main
    terminates with `main_v301` at the fold of the 428 operations over the start memory and the eight arguments
    unchanged. -/
theorem run (ρ' : Dev nD → PrngReg) :
    θ_run (defs (F := F)) (onTc (τ := τ) (main (F := F))) ⟨m', fun _ => 0, ρ'⟩ (fun r => ∀ c : Dev nD,
      r.2.mem ((c.tc : Thread nD τ).loc main_v301) = StableHlo.after (ops (F := F)) (fun b => m' (c, b)) (Proc.devRef .tc main_v301)
      ∧ r.2.mem ((c.tc : Thread nD τ).loc main_arg0) = m' ((c.tc : Thread nD τ).loc main_arg0)
      ∧ r.2.mem ((c.tc : Thread nD τ).loc main_arg1) = m' ((c.tc : Thread nD τ).loc main_arg1)
      ∧ r.2.mem ((c.tc : Thread nD τ).loc main_arg2) = m' ((c.tc : Thread nD τ).loc main_arg2)
      ∧ r.2.mem ((c.tc : Thread nD τ).loc main_arg3) = m' ((c.tc : Thread nD τ).loc main_arg3)
      ∧ r.2.mem ((c.tc : Thread nD τ).loc main_arg4) = m' ((c.tc : Thread nD τ).loc main_arg4)
      ∧ r.2.mem ((c.tc : Thread nD τ).loc main_arg5) = m' ((c.tc : Thread nD τ).loc main_arg5)
      ∧ r.2.mem ((c.tc : Thread nD τ).loc main_arg6) = m' ((c.tc : Thread nD τ).loc main_arg6)
      ∧ r.2.mem ((c.tc : Thread nD τ).loc main_arg7) = m' ((c.tc : Thread nD τ).loc main_arg7)) :=
  (θ_run defs _ _).mono (fun _ h c => ⟨h c main_v301,
      (h c main_arg0).trans (after_arg0 m' c),
      (h c main_arg1).trans (after_arg1 m' c),
      (h c main_arg2).trans (after_arg2 m' c),
      (h c main_arg3).trans (after_arg3 m' c),
      (h c main_arg4).trans (after_arg4 m' c),
      (h c main_arg5).trans (after_arg5 m' c),
      (h c main_arg6).trans (after_arg6 m' c),
      (h c main_arg7).trans (after_arg7 m' c)⟩)
    (StableHlo.run_seq scopedRefs_eq scopedSems_eq defs main (fun _ => ops) main_eq (fun _ => ops_sub) m' ρ')

end Cert.RefSide

end
-- ==== Proof.Prompt.lean ====
/-
  The reference's result: the prompt added to every frame, the prompt being the one the add kernel's launch finds.

  The reference ends with three operations: the prompt `main_v298` [16,3,224,224] gets a frame axis of length one
  (a broadcast along axes 0,1,3,4), that axis is stretched to the sixteen frames (a broadcast along all five axes),
  and the video is added. Read at an index (b, c, t, i, j) the two broadcasts return the prompt at (b, c, i, j), so
  the sum is `x[b,c,t,i,j] + p[b,c,i,j]`: the prompt added to each frame.

  The prompt itself is computed by the 425 operations before those three, and the kernel program runs the very same
  425 operations, in the same order, before its launch: per sample the offsets into the four padding tables, the
  gathers of the tables, the two bilinear resamplings (positions, floors, weights, clamps, two gathers and a blend
  each) and the concatenations. Composed into one function of the eight argument arrays the two sequences are the
  same function — operation by operation the same, over shapes and gather records that two programs name separately
  and that unfold to the same literals — so on memories that agree on the arguments they compute the same prompt.
-/
import proofs.«117955_j45552423141950_1_alg».proof.Proof.RefOps
import proofs.«117955_j45552423141950_1_alg».proof.Proof.Spec
import proofs.«117955_j45552423141950_1_alg».proof.Proof.Ideal.Entry
import Idealize.ShloMosaic.Lib.Pipeline.Value
import Idealize.ShloMosaic.Lib.ValueIdx
import Mathlib.Tactic.FinCases

set_option maxRecDepth 16384

noncomputable section

namespace Cert.RefSide

open Idealize.ShloMosaic Idealize.ShloMosaic.ValueIdx Idealize.ShloMosaic.TcCoe Idealize.SL.Sem Idealize.ShloMosaic.StableHlo

/-- The prompt's shape with a frame axis of length one put in after the channel axis. -/
abbrev PromptRow : Shape := ⟨5, ![16, 3, 1, 224, 224]⟩

/-- The video plus the prompt broadcast over the frames — first given a frame axis of length one, then stretched
    along it — is the prompt added to every frame: at (b, c, t, i, j) both broadcasts read the prompt at (b, c, i, j). -/
theorem add_broadcast_frames
    (h₁ : Cert.Spec.Prompt.BroadcastsInDim PromptRow (![0, 1, 3, 4] : Fin 4 → Fin 5))
    (h₂ : PromptRow.BroadcastsInDim Cert.Spec.Video (![0, 1, 2, 3, 4] : Fin 5 → Fin 5))
    (x : FVec Ideal Cert.Spec.Video .f32) (p : FVec Ideal Cert.Spec.Prompt .f32) :
    addf x (broadcastInDim Cert.Spec.Video ![0, 1, 2, 3, 4] h₂ (broadcastInDim PromptRow ![0, 1, 3, 4] h₁ p))
      = Cert.Spec.addToFrames x p := by
  funext i
  show x i + broadcastInDim Cert.Spec.Video ![0, 1, 2, 3, 4] h₂ (broadcastInDim PromptRow ![0, 1, 3, 4] h₁ p) i
    = x i + p (ix4 (i 0) (i 1) (i 3) (i 4))
  congr 1
  refine (broadcastInDim_apply _ h₂ _ i (ix5 (i 0) (i 1) (0 : Fin 1) (i 3) (i 4)) (fun a => ?_)).trans
    (broadcastInDim_apply _ h₁ _ _ (ix4 (i 0) (i 1) (i 3) (i 4)) (fun a => ?_))
  · match a with
    | ⟨0, _⟩ => rfl
    | ⟨1, _⟩ => rfl
    | ⟨2, _⟩ => rfl
    | ⟨3, _⟩ => rfl
    | ⟨4, _⟩ => rfl
  · match a with
    | ⟨0, _⟩ => rfl
    | ⟨1, _⟩ => rfl
    | ⟨2, _⟩ => rfl
    | ⟨3, _⟩ => rfl

/-- A three-operand operation (here: the concatenation of three arrays) at its result buffer: its function applied
    to the contents found at each of the three operand buffers, each read at its own reference. -/
theorem nary3_result' {τ : Topo} {sig : RefSig} {Val : EltTy → Type} {x a b y : Ref sig .tc}
    (f : ((k : Fin 3) → ((![x, a, b] : Fin 3 → Ref sig .tc) k).ty.Contents Val) → y.ty.Contents Val) (hxs hy)
    (F : Valuation τ sig Val) :
    (nary (τ := τ) ![x, a, b] y f hxs hy).result F (no_index (Proc.devRef .tc y))
      = f (Fin.cons (F (Proc.devRef .tc x)) (Fin.cons (F (Proc.devRef .tc a)) (Fin.cons (F (Proc.devRef .tc b)) (fun i => i.elim0)))) := by
  rw [nary_result]; congr 1; funext k; fin_cases k <;> rfl

/-! ## The concatenations as functions of their parts

Six of the operations lay arrays side by side: four times four columns of sixteen entries become a [16,4] table of
indices, once a left and a right band of columns become one array of ninety columns, and once three bands of rows
become the [16,3,254,224] image. Each is named here as a plain function of its
parts, and each program's operation is read at its result buffer as that function of what the part buffers hold. -/

/-- Four columns of sixteen entries laid side by side into a [16,4] table. -/
def tableOfColumns {α : Type} (x0 x1 x2 x3 : Cert.ReferenceIdeal.S16x1.Idx → α) : Cert.ReferenceIdeal.S16x4.Idx → α :=
  concatenate Cert.ReferenceIdeal.S16x4 1
    [⟨Cert.ReferenceIdeal.S16x1, x0⟩, ⟨Cert.ReferenceIdeal.S16x1, x1⟩, ⟨Cert.ReferenceIdeal.S16x1, x2⟩, ⟨Cert.ReferenceIdeal.S16x1, x3⟩]
    Cert.ReferenceIdeal.Gen.concatenates_S16x1_S16x1_S16x1_S16x1_S16x4_d1

/-- Sixty, thirty and a hundred and sixty-four rows stacked along the row axis into 254 rows. -/
def stackRows {α : Type} (up : Cert.ReferenceIdeal.S16x3x60x224.Idx → α) (down : Cert.ReferenceIdeal.S16x3x30x224.Idx → α)
    (middle : Cert.ReferenceIdeal.S16x3x164x224.Idx → α) : Cert.ReferenceIdeal.S16x3x254x224.Idx → α :=
  concatenate Cert.ReferenceIdeal.S16x3x254x224 2
    [⟨Cert.ReferenceIdeal.S16x3x60x224, up⟩, ⟨Cert.ReferenceIdeal.S16x3x30x224, down⟩, ⟨Cert.ReferenceIdeal.S16x3x164x224, middle⟩]
    Cert.ReferenceIdeal.Gen.concatenates_S16x3x60x224_S16x3x30x224_S16x3x164x224_S16x3x254x224_d2

/-- A left band of sixty columns and a right band of thirty laid side by side into ninety columns. -/
def sideBands {α : Type} (left : Cert.ReferenceIdeal.S16x3x164x60.Idx → α) (right : Cert.ReferenceIdeal.S16x3x164x30.Idx → α) :
    Cert.ReferenceIdeal.S16x3x164x90.Idx → α :=
  concatenate Cert.ReferenceIdeal.S16x3x164x90 3
    [⟨Cert.ReferenceIdeal.S16x3x164x60, left⟩, ⟨Cert.ReferenceIdeal.S16x3x164x30, right⟩]
    Cert.ReferenceIdeal.Gen.concatenates_S16x3x164x60_S16x3x164x30_S16x3x164x90_d3

section Reference
open Cert.ReferenceIdeal Cert.ReferenceIdeal.Gen
variable {F : FTy → Type} [FloatOps F]

/-- The first index table of the reference, at its buffer: its four columns side by side, each read at its own buffer. -/
theorem ref_table18 (hxs hy) (G : Valuation τ sig (Elt F)) :
    (nary (τ := τ) ![main_v14, main_v15, main_v16, main_v17] main_v18
        (fun u => concatenate S16x4 1 [⟨S16x1, u 0⟩, ⟨S16x1, u 1⟩, ⟨S16x1, u 2⟩, ⟨S16x1, u 3⟩] concatenates_S16x1_S16x1_S16x1_S16x1_S16x4_d1) hxs hy).result G
          (no_index (Proc.devRef .tc main_v18))
      = tableOfColumns (G (Proc.devRef .tc main_v14)) (G (Proc.devRef .tc main_v15)) (G (Proc.devRef .tc main_v16)) (G (Proc.devRef .tc main_v17)) :=
  nary4_result' _ hxs hy G

/-- The second index table of the reference, at its buffer: its four columns side by side, each read at its own buffer. -/
theorem ref_table39 (hxs hy) (G : Valuation τ sig (Elt F)) :
    (nary (τ := τ) ![main_v35, main_v36, main_v37, main_v38] main_v39
        (fun u => concatenate S16x4 1 [⟨S16x1, u 0⟩, ⟨S16x1, u 1⟩, ⟨S16x1, u 2⟩, ⟨S16x1, u 3⟩] concatenates_S16x1_S16x1_S16x1_S16x1_S16x4_d1) hxs hy).result G
          (no_index (Proc.devRef .tc main_v39))
      = tableOfColumns (G (Proc.devRef .tc main_v35)) (G (Proc.devRef .tc main_v36)) (G (Proc.devRef .tc main_v37)) (G (Proc.devRef .tc main_v38)) :=
  nary4_result' _ hxs hy G

/-- The third index table of the reference, at its buffer: its four columns side by side, each read at its own buffer. -/
theorem ref_table60 (hxs hy) (G : Valuation τ sig (Elt F)) :
    (nary (τ := τ) ![main_v56, main_v57, main_v58, main_v59] main_v60
        (fun u => concatenate S16x4 1 [⟨S16x1, u 0⟩, ⟨S16x1, u 1⟩, ⟨S16x1, u 2⟩, ⟨S16x1, u 3⟩] concatenates_S16x1_S16x1_S16x1_S16x1_S16x4_d1) hxs hy).result G
          (no_index (Proc.devRef .tc main_v60))
      = tableOfColumns (G (Proc.devRef .tc main_v56)) (G (Proc.devRef .tc main_v57)) (G (Proc.devRef .tc main_v58)) (G (Proc.devRef .tc main_v59)) :=
  nary4_result' _ hxs hy G

/-- The fourth index table of the reference, at its buffer: its four columns side by side, each read at its own buffer. -/
theorem ref_table81 (hxs hy) (G : Valuation τ sig (Elt F)) :
    (nary (τ := τ) ![main_v77, main_v78, main_v79, main_v80] main_v81
        (fun u => concatenate S16x4 1 [⟨S16x1, u 0⟩, ⟨S16x1, u 1⟩, ⟨S16x1, u 2⟩, ⟨S16x1, u 3⟩] concatenates_S16x1_S16x1_S16x1_S16x1_S16x4_d1) hxs hy).result G
          (no_index (Proc.devRef .tc main_v81))
      = tableOfColumns (G (Proc.devRef .tc main_v77)) (G (Proc.devRef .tc main_v78)) (G (Proc.devRef .tc main_v79)) (G (Proc.devRef .tc main_v80)) :=
  nary4_result' _ hxs hy G

/-- The prompt's rows of the reference, at their buffer: the upper band, the lower band and the middle rows stacked, each read at its
    own buffer. -/
theorem ref_rows190 (hxs hy) (G : Valuation τ sig (Elt F)) :
    (nary (τ := τ) ![main_v20, main_v41, main_v189] main_v190
        (fun u => concatenate S16x3x254x224 2 [⟨S16x3x60x224, u 0⟩, ⟨S16x3x30x224, u 1⟩, ⟨S16x3x164x224, u 2⟩] concatenates_S16x3x60x224_S16x3x30x224_S16x3x164x224_S16x3x254x224_d2) hxs hy).result G
          (no_index (Proc.devRef .tc main_v190))
      = stackRows (G (Proc.devRef .tc main_v20)) (G (Proc.devRef .tc main_v41)) (G (Proc.devRef .tc main_v189)) :=
  nary3_result' _ hxs hy G

/-- The side bands of the reference, at their buffer: the left and the right band side by side, each read at its own buffer. -/
theorem ref_bands90 (ha hb hy) (G : Valuation τ sig (Elt F)) :
    (binary (τ := τ) main_v62 main_v83 main_v90
        ((fun a b => concatenate S16x3x164x90 3 [⟨S16x3x164x60, a⟩, ⟨S16x3x164x30, b⟩] concatenates_S16x3x164x60_S16x3x164x30_S16x3x164x90_d3) : (⟨S16x3x164x60, .f32⟩ : BufTy).Contents (Elt F) → (⟨S16x3x164x30, .f32⟩ : BufTy).Contents (Elt F) → (⟨S16x3x164x90, .f32⟩ : BufTy).Contents (Elt F))
        ha hb hy).result G (no_index (Proc.devRef .tc main_v90))
      = sideBands (G (Proc.devRef .tc main_v62)) (G (Proc.devRef .tc main_v83)) :=
  binary_result' _ ha hb hy G

end Reference

section KernelProgram
open Cert.KernelIdeal Cert.KernelIdeal.Gen
variable {F : FTy → Type} [FloatOps F]

/-- The first index table of the kernel program, at its buffer: its four columns side by side, each read at its own buffer. -/
theorem ker_table18 (hxs hy) (G : Valuation τ sig (Elt F)) :
    (nary (τ := τ) ![main_v14, main_v15, main_v16, main_v17] main_v18
        (fun u => concatenate S16x4 1 [⟨S16x1, u 0⟩, ⟨S16x1, u 1⟩, ⟨S16x1, u 2⟩, ⟨S16x1, u 3⟩] concatenates_S16x1_S16x1_S16x1_S16x1_S16x4_d1) hxs hy).result G
          (no_index (Proc.devRef .tc main_v18))
      = tableOfColumns (G (Proc.devRef .tc main_v14)) (G (Proc.devRef .tc main_v15)) (G (Proc.devRef .tc main_v16)) (G (Proc.devRef .tc main_v17)) :=
  nary4_result' _ hxs hy G

/-- The second index table of the kernel program, at its buffer: its four columns side by side, each read at its own buffer. -/
theorem ker_table39 (hxs hy) (G : Valuation τ sig (Elt F)) :
    (nary (τ := τ) ![main_v35, main_v36, main_v37, main_v38] main_v39
        (fun u => concatenate S16x4 1 [⟨S16x1, u 0⟩, ⟨S16x1, u 1⟩, ⟨S16x1, u 2⟩, ⟨S16x1, u 3⟩] concatenates_S16x1_S16x1_S16x1_S16x1_S16x4_d1) hxs hy).result G
          (no_index (Proc.devRef .tc main_v39))
      = tableOfColumns (G (Proc.devRef .tc main_v35)) (G (Proc.devRef .tc main_v36)) (G (Proc.devRef .tc main_v37)) (G (Proc.devRef .tc main_v38)) :=
  nary4_result' _ hxs hy G

/-- The third index table of the kernel program, at its buffer: its four columns side by side, each read at its own buffer. -/
theorem ker_table60 (hxs hy) (G : Valuation τ sig (Elt F)) :
    (nary (τ := τ) ![main_v56, main_v57, main_v58, main_v59] main_v60
        (fun u => concatenate S16x4 1 [⟨S16x1, u 0⟩, ⟨S16x1, u 1⟩, ⟨S16x1, u 2⟩, ⟨S16x1, u 3⟩] concatenates_S16x1_S16x1_S16x1_S16x1_S16x4_d1) hxs hy).result G
          (no_index (Proc.devRef .tc main_v60))
      = tableOfColumns (G (Proc.devRef .tc main_v56)) (G (Proc.devRef .tc main_v57)) (G (Proc.devRef .tc main_v58)) (G (Proc.devRef .tc main_v59)) :=
  nary4_result' _ hxs hy G

/-- The fourth index table of the kernel program, at its buffer: its four columns side by side, each read at its own buffer. -/
theorem ker_table81 (hxs hy) (G : Valuation τ sig (Elt F)) :
    (nary (τ := τ) ![main_v77, main_v78, main_v79, main_v80] main_v81
        (fun u => concatenate S16x4 1 [⟨S16x1, u 0⟩, ⟨S16x1, u 1⟩, ⟨S16x1, u 2⟩, ⟨S16x1, u 3⟩] concatenates_S16x1_S16x1_S16x1_S16x1_S16x4_d1) hxs hy).result G
          (no_index (Proc.devRef .tc main_v81))
      = tableOfColumns (G (Proc.devRef .tc main_v77)) (G (Proc.devRef .tc main_v78)) (G (Proc.devRef .tc main_v79)) (G (Proc.devRef .tc main_v80)) :=
  nary4_result' _ hxs hy G

/-- The prompt's rows of the kernel program, at their buffer: the upper band, the lower band and the middle rows stacked, each read at its
    own buffer. -/
theorem ker_rows190 (hxs hy) (G : Valuation τ sig (Elt F)) :
    (nary (τ := τ) ![main_v20, main_v41, main_v189] main_v190
        (fun u => concatenate S16x3x254x224 2 [⟨S16x3x60x224, u 0⟩, ⟨S16x3x30x224, u 1⟩, ⟨S16x3x164x224, u 2⟩] concatenates_S16x3x60x224_S16x3x30x224_S16x3x164x224_S16x3x254x224_d2) hxs hy).result G
          (no_index (Proc.devRef .tc main_v190))
      = stackRows (G (Proc.devRef .tc main_v20)) (G (Proc.devRef .tc main_v41)) (G (Proc.devRef .tc main_v189)) :=
  nary3_result' _ hxs hy G

/-- The side bands of the kernel program, at their buffer: the left and the right band side by side, each read at its own buffer. -/
theorem ker_bands90 (ha hb hy) (G : Valuation τ sig (Elt F)) :
    (binary (τ := τ) main_v62 main_v83 main_v90
        ((fun a b => concatenate S16x3x164x90 3 [⟨S16x3x164x60, a⟩, ⟨S16x3x164x30, b⟩] concatenates_S16x3x164x60_S16x3x164x30_S16x3x164x90_d3) : (⟨S16x3x164x60, .f32⟩ : BufTy).Contents (Elt F) → (⟨S16x3x164x30, .f32⟩ : BufTy).Contents (Elt F) → (⟨S16x3x164x90, .f32⟩ : BufTy).Contents (Elt F))
        ha hb hy).result G (no_index (Proc.devRef .tc main_v90))
      = sideBands (G (Proc.devRef .tc main_v62)) (G (Proc.devRef .tc main_v83)) :=
  binary_result' _ ha hb hy G

end KernelProgram

set_option maxHeartbeats 400000000 in
/-- From memories that agree on the eight arguments: what the reference's 428 operations leave in `main_v301` is the
    video with the prompt added to every frame, the prompt being what the kernel program's host operations leave in
    its `main_v298` when the launch is reached. -/
theorem reference_result
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (hagree :
        m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
        ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
        ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
        ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
        ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
        ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
        ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
        ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) :
    StableHlo.after (Cert.ReferenceIdeal.RunP.ops (F := Ideal)) (fun b => m' (c, b)) (Proc.devRef .tc Cert.ReferenceIdeal.main_v301)
      = Cert.Spec.addToFrames (m ((c.tc : Thread Cert.KernelIdeal.nD Cert.KernelIdeal.τ).loc Cert.KernelIdeal.main_arg0))
          (Cert.KernelIdeal.Hand.V m c Cert.KernelIdeal.main_v298) := by
  obtain ⟨h0, h1, h2, h3, h4, h5, h6, h7⟩ := hagree
  have a0 : m' (c, Proc.devRef .tc Cert.ReferenceIdeal.main_arg0) = m (c, Proc.devRef .tc Cert.KernelIdeal.main_arg0) := h0
  have a1 : m' (c, Proc.devRef .tc Cert.ReferenceIdeal.main_arg1) = m (c, Proc.devRef .tc Cert.KernelIdeal.main_arg1) := h1
  have a2 : m' (c, Proc.devRef .tc Cert.ReferenceIdeal.main_arg2) = m (c, Proc.devRef .tc Cert.KernelIdeal.main_arg2) := h2
  have a3 : m' (c, Proc.devRef .tc Cert.ReferenceIdeal.main_arg3) = m (c, Proc.devRef .tc Cert.KernelIdeal.main_arg3) := h3
  have a4 : m' (c, Proc.devRef .tc Cert.ReferenceIdeal.main_arg4) = m (c, Proc.devRef .tc Cert.KernelIdeal.main_arg4) := h4
  have a5 : m' (c, Proc.devRef .tc Cert.ReferenceIdeal.main_arg5) = m (c, Proc.devRef .tc Cert.KernelIdeal.main_arg5) := h5
  have a6 : m' (c, Proc.devRef .tc Cert.ReferenceIdeal.main_arg6) = m (c, Proc.devRef .tc Cert.KernelIdeal.main_arg6) := h6
  have a7 : m' (c, Proc.devRef .tc Cert.ReferenceIdeal.main_arg7) = m (c, Proc.devRef .tc Cert.KernelIdeal.main_arg7) := h7
  dsimp only [Cert.KernelIdeal.Hand.V, Cert.KernelIdeal.Hand.stretches]
  simp only [Cert.KernelIdeal.Gen.hostOps0, Cert.KernelIdeal.Gen.hostOps0_1, Cert.KernelIdeal.Gen.hostOps0_2, Cert.KernelIdeal.Gen.hostOps0_3, Cert.KernelIdeal.Gen.hostOps0_4, Cert.KernelIdeal.Gen.hostOps0_5, Cert.KernelIdeal.Gen.hostOps0_6, Cert.KernelIdeal.Gen.hostOps0_7, Cert.KernelIdeal.Gen.hostOps0_8, Cert.KernelIdeal.Gen.hostOps0_9, Cert.KernelIdeal.Gen.hostOps0_10, Cert.KernelIdeal.Gen.hostOps0_11, Cert.KernelIdeal.Gen.hostOps0_12, Cert.KernelIdeal.Gen.hostOps0_13, Cert.KernelIdeal.Gen.hostOps0_14,
    List.flatten_cons, List.flatten_nil, List.append_nil, List.cons_append, List.nil_append]
  simp (disch := decide) only [after_cons, after_nil,
      nullary_result', unary_result', binary_result', ternary_result', reshape_result',
      ↓ref_bands90, ↓ker_bands90,
      ref_table18, ref_table39, ref_table60, ref_table81, ref_rows190,
      ker_table18, ker_table39, ker_table60, ker_table81, ker_rows190,
      nullary_result_ne', unary_result_ne', binary_result_ne', ternary_result_ne', reshape_result_ne', nary_result_ne']
  refine (add_broadcast_frames _ _ _ _).trans ?_
  simp only [a0, a1, a2, a3, a4, a5, a6, a7]
  clear a0 a1 a2 a3 a4 a5 a6 a7 h0 h1 h2 h3 h4 h5 h6 h7
  clear m'
  rfl

end Cert.RefSide

end
-- ==== Proof.lean ====
/-
  The claim: the Pallas program (as printed and as idealized) and the jnp reference run to the end without a fault
  and leave their arguments unchanged, and on the extended reals the idealized program and the reference end with
  equal results.

  Both programs build the same prompt image per sample and channel — four padding tables gathered by camera view,
  resampled bilinearly to per-sample offsets and laid around a zero centre — with the same host operations, and
  both then add it to every frame of the video: the reference by broadcasting along the frame axis and one
  `add`, the Pallas program by a kernel that walks the (sample, channel) grid, stages one video slab and one prompt
  image per point and adds the image to the slab's sixteen frames. So with `x` the video and `p` the prompt,
  both results are `out[b, c, t, i, j] = x[b, c, t, i, j] + p[b, c, i, j]` (`Cert.Spec.addToFrames`); no law of
  arithmetic beyond that identity is used, and the precondition (finite inputs) is never opened.

  The pieces: `Proof/Bits` and `Proof/Ideal` run the kernel program's launch (the arrays as the launch finds them, the
  body's triple, the launch's proof data and run) at the word-level and at the ideal instance; `Proof/Ideal/Payload`
  and `Proof/Ideal/Value` read the output array after the run as `addToFrames`; `Proof/RefOps` and `Proof/RefRun` run
  the reference; `Proof/Prompt` shows the reference's result is `addToFrames` of the same video and the same prompt.
  The idealization rewrote no operation, so `preserves` has nothing to state.
-/
import proofs.«117955_j45552423141950_1_alg».proof.Defs
import proofs.«117955_j45552423141950_1_alg».proof.Proof.Gen.Kernel
import proofs.«117955_j45552423141950_1_alg».proof.Proof.Gen.KernelIdeal
import proofs.«117955_j45552423141950_1_alg».proof.Proof.Gen.ReferenceIdeal
import proofs.«117955_j45552423141950_1_alg».proof.Proof.Gen.Pre_finite_inputs
import proofs.«117955_j45552423141950_1_alg».proof.Proof.Bits.Body
import proofs.«117955_j45552423141950_1_alg».proof.Proof.Ideal.Value
import proofs.«117955_j45552423141950_1_alg».proof.Proof.RefRun
import proofs.«117955_j45552423141950_1_alg».proof.Proof.Prompt

noncomputable section

namespace Cert.Proof

open Idealize.ShloMosaic Idealize.SL.Sem

/-- The printed kernel program runs and leaves its arguments unchanged. -/
theorem frame_kernel : Cert.frame_Kernel (hKernel := Cert.Kernel.Gen.facts) (hPre_finite_inputs := Cert.Pre_finite_inputs.Gen.facts) :=
  fun m ρ _ => Cert.Kernel.Hand.frame m ρ

/-- So does the idealized kernel program. -/
theorem frame_kernel_ideal : Cert.frame_KernelIdeal (hKernelIdeal := Cert.KernelIdeal.Gen.facts) (hPre_finite_inputs := Cert.Pre_finite_inputs.Gen.facts) :=
  fun m ρ _ => Cert.KernelIdeal.Hand.frame m ρ

/-- So does the reference: its run, with the result dropped. -/
theorem frame_reference : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.RefSide.run m ρ)

/-- From memories that agree on the arguments, both idealized programs end with the video plus the prompt on every
    frame: the kernel program by its launch's run read back, the reference by its host operations read back. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.Spec.addToFrames (m ((c.tc : Thread Cert.KernelIdeal.nD Cert.KernelIdeal.τ).loc Cert.KernelIdeal.main_arg0))
      (Cert.KernelIdeal.Hand.V m c Cert.KernelIdeal.main_v298), Cert.KernelIdeal.Hand.run m ρ, ?_⟩
  exact (θ_run Cert.ReferenceIdeal.defs _ _).mono
    (fun _ h c => ⟨(h c).1.trans (Cert.RefSide.reference_result m m' c (hagree c)), (h c).2⟩)
    (Cert.RefSide.run m' ρ')

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
